-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x2048 : Shape := ⟨3, ![2, 4096, 2048]⟩
abbrev S16384x2048 : Shape := ⟨2, ![16384, 2048]⟩
abbrev S2048x8192 : Shape := ⟨2, ![2048, 8192]⟩
abbrev S_ : Shape := ⟨0, ![]⟩

class Facts : Prop where
  bcast_S_S2x4096x2048 : S_.BroadcastsInDim S2x4096x2048 (![] : Fin 0 → Fin S2x4096x2048.rank)
  reducesTo_S2x4096x2048_S_d0_1_2 : S2x4096x2048.ReducesTo [0, 1, 2] S_
  h_S_ : 0 < S_.numel
  bcast_S_S16384x2048 : S_.BroadcastsInDim S16384x2048 (![] : Fin 0 → Fin S16384x2048.rank)
  reducesTo_S16384x2048_S_d0_1 : S16384x2048.ReducesTo [0, 1] S_
  bcast_S_S2048x8192 : S_.BroadcastsInDim S2048x8192 (![] : Fin 0 → Fin S2048x8192.rank)
  reducesTo_S2048x8192_S_d0_1 : S2048x8192.ReducesTo [0, 1] S_

variable [Facts]

def fn {F : FTy → Type} [FloatOps F] (main_arg0 : FVec F S2x4096x2048 .f32) (main_arg1 : FVec F S16384x2048 .f32) (main_arg2 : FVec F S2048x8192 .f32) : IVec S_ 1 :=
  let main_v0 : FVec F S2x4096x2048 .f32 := Host.absf main_arg0
  let main_cst : FVec F S_ .f32 := constant S_ .f32 0x7F800000#32
  let main_v1 : FVec F S2x4096x2048 .f32 := broadcastInDim S2x4096x2048 ![] bcast_S_S2x4096x2048 main_cst
  let main_v2 : IVec S2x4096x2048 1 := cmpf .olt main_v0 main_v1
  let main_c : IVec S_ 1 := constantI S_ 1 1#1
  let main_v3 : IVec S_ 1 := (fun x v => Host.reduce IntOp.andi x v reducesTo_S2x4096x2048_S_d0_1_2 h_S_) main_v2 main_c
  let main_v4 : FVec F S16384x2048 .f32 := Host.absf main_arg1
  let main_cst_0 : FVec F S_ .f32 := constant S_ .f32 0x7F800000#32
  let main_v5 : FVec F S16384x2048 .f32 := broadcastInDim S16384x2048 ![] bcast_S_S16384x2048 main_cst_0
  let main_v6 : IVec S16384x2048 1 := cmpf .olt main_v4 main_v5
  let main_c_1 : IVec S_ 1 := constantI S_ 1 1#1
  let main_v7 : IVec S_ 1 := (fun x v => Host.reduce IntOp.andi x v reducesTo_S16384x2048_S_d0_1 h_S_) main_v6 main_c_1
  let main_v8 : IVec S_ 1 := andi main_v3 main_v7
  let main_v9 : FVec F S2048x8192 .f32 := Host.absf main_arg2
  let main_cst_2 : FVec F S_ .f32 := constant S_ .f32 0x7F800000#32
  let main_v10 : FVec F S2048x8192 .f32 := broadcastInDim S2048x8192 ![] bcast_S_S2048x8192 main_cst_2
  let main_v11 : IVec S2048x8192 1 := cmpf .olt main_v9 main_v10
  let main_c_3 : IVec S_ 1 := constantI S_ 1 1#1
  let main_v12 : IVec S_ 1 := (fun x v => Host.reduce IntOp.andi x v reducesTo_S2048x8192_S_d0_1 h_S_) main_v11 main_c_3
  let main_v13 : IVec S_ 1 := andi main_v8 main_v12
  main_v13
-- ==== Kernel.lean ====
abbrev S2x4096x2048 : Shape := ⟨3, ![2, 4096, 2048]⟩
abbrev S16384x2048 : Shape := ⟨2, ![16384, 2048]⟩
abbrev S2048x8192 : Shape := ⟨2, ![2048, 8192]⟩
abbrev S8192x2048 : Shape := ⟨2, ![8192, 2048]⟩
abbrev S_ : Shape := ⟨0, ![]⟩
abbrev S1x1 : Shape := ⟨2, ![1, 1]⟩
abbrev S8192x1 : Shape := ⟨2, ![8192, 1]⟩
abbrev S1024x2048 : Shape := ⟨2, ![1024, 2048]⟩
abbrev S1024x1 : Shape := ⟨2, ![1024, 1]⟩
abbrev S1024 : Shape := ⟨1, ![1024]⟩
abbrev S8192x8192 : Shape := ⟨2, ![8192, 8192]⟩
abbrev S1024x1024 : Shape := ⟨2, ![1024, 1024]⟩
abbrev S512x8192 : Shape := ⟨2, ![512, 8192]⟩
abbrev S512x1 : Shape := ⟨2, ![512, 1]⟩
abbrev S512 : Shape := ⟨1, ![512]⟩
abbrev S2048x2048 : Shape := ⟨2, ![2048, 2048]⟩

abbrev nBuf : Space → Nat
  | .hbm => 54
  | .vmem => 30
  | .smem => 0
  | _ => 0

abbrev bufTy : (tb : Table) → Fin (tcTables nBuf tb) → BufTy
  | .hbm, ⟨0, _⟩ => ⟨S2x4096x2048, .f32⟩
  | .hbm, ⟨1, _⟩ => ⟨S16384x2048, .f32⟩
  | .hbm, ⟨2, _⟩ => ⟨S2048x8192, .f32⟩
  | .hbm, ⟨3, _⟩ => ⟨S8192x2048, .f32⟩
  | .hbm, ⟨4, _⟩ => ⟨S16384x2048, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S16384x2048, .f32⟩
  | .hbm, ⟨13, _⟩ => ⟨S16384x2048, .f32⟩
  | .hbm, ⟨14, _⟩ => ⟨S16384x2048, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S16384x2048, .f32⟩
  | .hbm, ⟨19, _⟩ => ⟨S16384x2048, .f32⟩
  | .hbm, ⟨20, _⟩ => ⟨S_, .f32⟩
  | .hbm, ⟨21, _⟩ => ⟨S16384x2048, .f32⟩
  | .hbm, ⟨22, _⟩ => ⟨S16384x2048, .f32⟩
  | .hbm, ⟨23, _⟩ => ⟨S16384x2048, .bf16⟩
  | .hbm, ⟨24, _⟩ => ⟨S8192x2048, .bf16⟩
  | .hbm, ⟨25, _⟩ => ⟨S8192x2048, .bf16⟩
  | .hbm, ⟨26, _⟩ => ⟨S2048x8192, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S2048x8192, .f32⟩
  | .hbm, ⟨35, _⟩ => ⟨S2048x8192, .f32⟩
  | .hbm, ⟨36, _⟩ => ⟨S2048x8192, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S2048x8192, .f32⟩
  | .hbm, ⟨41, _⟩ => ⟨S2048x8192, .f32⟩
  | .hbm, ⟨42, _⟩ => ⟨S_, .f32⟩
  | .hbm, ⟨43, _⟩ => ⟨S2048x8192, .f32⟩
  | .hbm, ⟨44, _⟩ => ⟨S2048x8192, .f32⟩
  | .hbm, ⟨45, _⟩ => ⟨S2048x8192, .bf16⟩
  | .hbm, ⟨46, _⟩ => ⟨S1x1, .f32⟩
  | .hbm, ⟨47, _⟩ => ⟨S1x1, .f32⟩
  | .hbm, ⟨48, _⟩ => ⟨S8192x2048, .bf16⟩
  | .hbm, ⟨49, _⟩ => ⟨S8192x1, .f32⟩
  | .hbm, ⟨50, _⟩ => ⟨S8192x8192, .f32⟩
  | .hbm, ⟨51, _⟩ => ⟨S8192x1, .f32⟩
  | .hbm, ⟨52, _⟩ => ⟨S8192x2048, .f32⟩
  | .hbm, ⟨53, _⟩ => ⟨S2x4096x2048, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | .local _ .vmem, ⟨4, _⟩ => ⟨S1024x1, .f32⟩
  | .local _ .vmem, ⟨5, _⟩ => ⟨S1024x1, .f32⟩
  | .local _ .vmem, ⟨6, _⟩ => ⟨S1024x2048, .bf16⟩
  | .local _ .vmem, ⟨7, _⟩ => ⟨S1024x2048, .bf16⟩
  | .local _ .vmem, ⟨8, _⟩ => ⟨S1024x1, .f32⟩
  | .local _ .vmem, ⟨9, _⟩ => ⟨S1024x1, .f32⟩
  | .local _ .vmem, ⟨10, _⟩ => ⟨S1024x2048, .bf16⟩
  | .local _ .vmem, ⟨11, _⟩ => ⟨S1024x2048, .bf16⟩
  | .local _ .vmem, ⟨12, _⟩ => ⟨S1024x2048, .bf16⟩
  | .local _ .vmem, ⟨13, _⟩ => ⟨S1024x2048, .bf16⟩
  | .local _ .vmem, ⟨14, _⟩ => ⟨S1x1, .f32⟩
  | .local _ .vmem, ⟨15, _⟩ => ⟨S1024x1024, .f32⟩
  | .local _ .vmem, ⟨16, _⟩ => ⟨S1024x1024, .f32⟩
  | .local _ .vmem, ⟨17, _⟩ => ⟨S512x8192, .f32⟩
  | .local _ .vmem, ⟨18, _⟩ => ⟨S512x8192, .f32⟩
  | .local _ .vmem, ⟨19, _⟩ => ⟨S512x1, .f32⟩
  | .local _ .vmem, ⟨20, _⟩ => ⟨S512x1, .f32⟩
  | .local _ .vmem, ⟨21, _⟩ => ⟨S1024x2048, .f32⟩
  | .local _ .vmem, ⟨22, _⟩ => ⟨S1024x2048, .f32⟩
  | .local _ .vmem, ⟨23, _⟩ => ⟨S1024x1, .f32⟩
  | .local _ .vmem, ⟨24, _⟩ => ⟨S1024x1, .f32⟩
  | .local _ .vmem, ⟨25, _⟩ => ⟨S2048x2048, .bf16⟩
  | .local _ .vmem, ⟨26, _⟩ => ⟨S2048x2048, .bf16⟩
  | .local _ .vmem, ⟨27, _⟩ => ⟨S1x1, .f32⟩
  | .local _ .vmem, ⟨28, _⟩ => ⟨S1024x2048, .f32⟩
  | .local _ .vmem, ⟨29, _⟩ => ⟨S1024x2048, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_cst_3 : Ref sig .tc := ⟨.hbm, 16, rfl⟩
abbrev main_call2_v0 : Ref sig .tc := ⟨.hbm, 17, rfl⟩
abbrev main_call2_v1 : Ref sig .tc := ⟨.hbm, 18, rfl⟩
abbrev main_call2_v2 : Ref sig .tc := ⟨.hbm, 19, rfl⟩
abbrev main_call2_v3 : Ref sig .tc := ⟨.hbm, 20, rfl⟩
abbrev main_call2_v4 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_4 : Ref sig .tc := ⟨.hbm, 27, rfl⟩
abbrev main_v13 : Ref sig .tc := ⟨.hbm, 28, rfl⟩
abbrev main_cst_5 : Ref sig .tc := ⟨.hbm, 29, rfl⟩
abbrev main_v14 : Ref sig .tc := ⟨.hbm, 30, rfl⟩
abbrev main_cst_6 : Ref sig .tc := ⟨.hbm, 31, rfl⟩
abbrev main_call3_v0 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_7 : Ref sig .tc := ⟨.hbm, 37, rfl⟩
abbrev main_cst_8 : Ref sig .tc := ⟨.hbm, 38, rfl⟩
abbrev main_call5_v0 : Ref sig .tc := ⟨.hbm, 39, rfl⟩
abbrev main_call5_v1 : Ref sig .tc := ⟨.hbm, 40, rfl⟩
abbrev main_call5_v2 : Ref sig .tc := ⟨.hbm, 41, rfl⟩
abbrev main_call5_v3 : Ref sig .tc := ⟨.hbm, 42, rfl⟩
abbrev main_call5_v4 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23_0 : Ref sig .tc := ⟨.hbm, 48, rfl⟩
abbrev main_v23_1 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg4_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem2_1 : DmaSem sig := 26
abbrev cc3_sem3_0 : DmaSem sig := 27
abbrev cc3_sem4_0 : DmaSem sig := 28
abbrev cc3_sem4_1 : DmaSem sig := 29

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1024x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1024x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x8192 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev grid3 : Pipeline.Grid := ⟨2, ![8, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1024x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1024x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S2048x2048 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 1 → Memref sig .tc .vmem S1x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 2 → Memref sig .tc .vmem S1024x2048 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

class Facts₀ : Prop where
  shapeCasts_S2x4096x2048_S8192x2048 : S2x4096x2048.ShapeCasts S8192x2048
  reducesTo_S16384x2048_S_d0_1 : S16384x2048.ReducesTo [0, 1] S_
  h_S_ : 0 < S_.numel
  bcast_S_S16384x2048 : S_.BroadcastsInDim S16384x2048 (![] : Fin 0 → Fin S16384x2048.rank)
  bitsLt_bf16_f32 : FTy.bits .bf16 < FTy.bits .f32
  slices_S16384x2048_S8192x2048_0_0 : S16384x2048.Slices ![0, 0] S8192x2048
  slices_S16384x2048_S8192x2048_8192_0 : S16384x2048.Slices ![8192, 0] S8192x2048
  reducesTo_S2048x8192_S_d0_1 : S2048x8192.ReducesTo [0, 1] S_
  bcast_S_S2048x8192 : S_.BroadcastsInDim S2048x8192 (![] : Fin 0 → Fin S2048x8192.rank)
  shapeCasts_S_S1x1 : S_.ShapeCasts S1x1
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  reduces_S1024x2048_S1024 : S1024x2048.Reduces [1] S1024
  shapeCasts_S1024_S1024x1 : S1024.ShapeCasts S1024x1
  broadcasts_S1024x1_S1024x2048 : S1024x1.Broadcasts S1024x2048
  packedbf16_S1024x2048_S1024x2048_0_0 : (Rect.unit (s := S1024x2048) ![0, 0] S1024x2048.size inb_S1024x2048_S1024x2048_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  broadcasts_S1024x1_S1024x1024 : S1024x1.Broadcasts S1024x1024
  inb_S1024x1024_S1024x1024_0_0 : ∀ a, (![0, 0] : Fin 2 → Nat) a + S1024x1024.size a ≤ S1024x1024.size a
  h_S1024x1024 : 0 < S1024x1024.numel
  inb_S512x8192_S512x8192_0_0 : ∀ a, (![0, 0] : Fin 2 → Nat) a + S512x8192.size a ≤ S512x8192.size a
  h_S512x8192 : 0 < S512x8192.numel
  shapeCasts_S512x8192_S512x8192 : S512x8192.ShapeCasts S512x8192
  reduces_S512x8192_S512 : S512x8192.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  shapeCasts_S8192x2048_S2x4096x2048 : S8192x2048.ShapeCasts S2x4096x2048
  dot_S1024x2048_S1024x2048_S1024x1024_1_1_0_0_n_n_wf : DotDims.WF S1024x2048 S1024x2048 S1024x1024 [1] [1] [0] [0] [] []
  dot_S1024x2048_S2048x2048_S1024x2048_1_1_0_0_n_n_wf : DotDims.WF S1024x2048 S2048x2048 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x2048.size a
  hwx0_0 : ∀ i : grid0.Coords, EltTy.bits .f32 = 32 ∨ (Rect.block (s := S8192x2048) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S8192x2048.size a
  hwx0_1 : ∀ i : grid0.Coords, EltTy.bits .bf16 = 32 ∨ (Rect.block (s := S8192x2048) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x2048.size a
  hwx1_0 : ∀ i : grid1.Coords, EltTy.bits .bf16 = 32 ∨ (Rect.block (s := S8192x2048) S1024x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1.size a ≤ S8192x1.size a
  hwx1_1 : ∀ i : grid1.Coords, EltTy.bits .f32 = 32 ∨ (Rect.block (s := S8192x1) S1024x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x2048.size a ≤ S8192x2048.size a
  hwx1_2 : ∀ i : grid1.Coords, EltTy.bits .bf16 = 32 ∨ (Rect.block (s := S8192x2048) S1024x2048.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x2048.size a ≤ S8192x2048.size a
  hwx1_3 : ∀ i : grid1.Coords, EltTy.bits .bf16 = 32 ∨ (Rect.block (s := S8192x2048) S1024x2048.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x1024.size a ≤ S8192x8192.size a
  hwx1_5 : ∀ i : grid1.Coords, EltTy.bits .f32 = 32 ∨ (Rect.block (s := S8192x8192) S1024x1024.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x8192.size a ≤ S8192x8192.size a
  hwx2_0 : ∀ i : grid2.Coords, EltTy.bits .f32 = 32 ∨ (Rect.block (s := S8192x8192) S512x8192.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x1.size a ≤ S8192x1.size a
  hwx2_1 : ∀ i : grid2.Coords, EltTy.bits .f32 = 32 ∨ (Rect.block (s := S8192x1) S512x1.size (cc2_transform_1 i) (hinb2_1 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x2048.size a ≤ S8192x8192.size a
  hwx3_0 : ∀ i : grid3.Coords, EltTy.bits .f32 = 32 ∨ (Rect.block (s := S8192x8192) S1024x2048.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x1.size a ≤ S8192x1.size a
  hwx3_1 : ∀ i : grid3.Coords, EltTy.bits .f32 = 32 ∨ (Rect.block (s := S8192x1) S1024x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x2048.size a ≤ S2048x8192.size a
  hwx3_2 : ∀ i : grid3.Coords, EltTy.bits .bf16 = 32 ∨ (Rect.block (s := S2048x8192) S2048x2048.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x1.size a ≤ S1x1.size a
  hwx3_3 : ∀ i : grid3.Coords, EltTy.bits .f32 = 32 ∨ (Rect.block (s := S1x1) S1x1.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1024x2048.size a ≤ S8192x2048.size a
  hwx3_4 : ∀ i : grid3.Coords, EltTy.bits .f32 = 32 ∨ (Rect.block (s := S8192x2048) S1024x2048.size (cc3_transform_4 i) (hinb3_4 i)).WholeWords (EltTy.packing .f32)

variable [Facts₀]

def dot_S1024x2048_S1024x2048_S1024x1024_1_1_0_0_n_n : DotDims S1024x2048 S1024x2048 S1024x1024 where
  lhsContracting := [1]
  rhsContracting := [1]
  lhsNonContracting := [0]
  rhsNonContracting := [0]
  lhsBatch := []
  rhsBatch := []
  wf := dot_S1024x2048_S1024x2048_S1024x1024_1_1_0_0_n_n_wf
def dot_S1024x2048_S2048x2048_S1024x2048_1_1_0_0_n_n : DotDims S1024x2048 S2048x2048 S1024x2048 where
  lhsContracting := [1]
  rhsContracting := [1]
  lhsNonContracting := [0]
  rhsNonContracting := [0]
  lhsBatch := []
  rhsBatch := []
  wf := dot_S1024x2048_S2048x2048_S1024x2048_1_1_0_0_n_n_wf

abbrev win0_0 : Pipeline.Window sig grid0 :=
  Pipeline.Window.ofSpec (Memref.whole main_v0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23_0) S1024x2048.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23_1) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v23_0) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23_1) S1024x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1024x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v11) S1024x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v21) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24) S1024x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v24) S512x8192.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v25) S512x1.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

abbrev win3_0 : Pipeline.Window sig grid3 :=
  Pipeline.Window.ofSpec (Memref.whole main_v24) S1024x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v25) S1024x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v20) S2048x2048.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v22) S1x1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v26) S1024x2048.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S2x4096x2048 : Shape := ⟨3, ![2, 4096, 2048]⟩
abbrev S16384x2048 : Shape := ⟨2, ![16384, 2048]⟩
abbrev S2048x8192 : Shape := ⟨2, ![2048, 8192]⟩
abbrev S_ : Shape := ⟨0, ![]⟩
abbrev S2x4096 : Shape := ⟨2, ![2, 4096]⟩
abbrev S2x4096x1 : Shape := ⟨3, ![2, 4096, 1]⟩
abbrev S2x4096x16384 : Shape := ⟨3, ![2, 4096, 16384]⟩
abbrev S2x4096x8192 : Shape := ⟨3, ![2, 4096, 8192]⟩

abbrev nBuf : Space → Nat
  | .hbm => 115
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S16384x2048, .f32⟩
  | .hbm, ⟨2, _⟩ => ⟨S2048x8192, .f32⟩
  | .hbm, ⟨3, _⟩ => ⟨S2x4096x2048, .f32⟩
  | .hbm, ⟨4, _⟩ => ⟨S_, .f32⟩
  | .hbm, ⟨5, _⟩ => ⟨S2x4096, .f32⟩
  | .hbm, ⟨6, _⟩ => ⟨S2x4096x1, .f32⟩
  | .hbm, ⟨7, _⟩ => ⟨S_, .f32⟩
  | .hbm, ⟨8, _⟩ => ⟨S_, .f32⟩
  | .hbm, ⟨9, _⟩ => ⟨S2x4096x1, .f32⟩
  | .hbm, ⟨10, _⟩ => ⟨S2x4096x1, .f32⟩
  | .hbm, ⟨11, _⟩ => ⟨S_, .f32⟩
  | .hbm, ⟨12, _⟩ => ⟨S2x4096x1, .f32⟩
  | .hbm, ⟨13, _⟩ => ⟨S2x4096x1, .f32⟩
  | .hbm, ⟨14, _⟩ => ⟨S2x4096x2048, .f32⟩
  | .hbm, ⟨15, _⟩ => ⟨S2x4096x2048, .f32⟩
  | .hbm, ⟨16, _⟩ => ⟨S2x4096x2048, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S2x4096x2048, .f32⟩
  | .hbm, ⟨21, _⟩ => ⟨S2x4096x2048, .f32⟩
  | .hbm, ⟨22, _⟩ => ⟨S_, .f32⟩
  | .hbm, ⟨23, _⟩ => ⟨S2x4096x2048, .f32⟩
  | .hbm, ⟨24, _⟩ => ⟨S2x4096x2048, .f32⟩
  | .hbm, ⟨25, _⟩ => ⟨S2x4096x2048, .f32⟩
  | .hbm, ⟨26, _⟩ => ⟨S2x4096x2048, .f32⟩
  | .hbm, ⟨27, _⟩ => ⟨S2x4096x2048, .f32⟩
  | .hbm, ⟨28, _⟩ => ⟨S2x4096x2048, .f32⟩
  | .hbm, ⟨29, _⟩ => ⟨S16384x2048, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S16384x2048, .f32⟩
  | .hbm, ⟨38, _⟩ => ⟨S16384x2048, .f32⟩
  | .hbm, ⟨39, _⟩ => ⟨S16384x2048, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S16384x2048, .f32⟩
  | .hbm, ⟨44, _⟩ => ⟨S16384x2048, .f32⟩
  | .hbm, ⟨45, _⟩ => ⟨S_, .f32⟩
  | .hbm, ⟨46, _⟩ => ⟨S16384x2048, .f32⟩
  | .hbm, ⟨47, _⟩ => ⟨S16384x2048, .f32⟩
  | .hbm, ⟨48, _⟩ => ⟨S16384x2048, .f32⟩
  | .hbm, ⟨49, _⟩ => ⟨S16384x2048, .f32⟩
  | .hbm, ⟨50, _⟩ => ⟨S16384x2048, .f32⟩
  | .hbm, ⟨51, _⟩ => ⟨S16384x2048, .f32⟩
  | .hbm, ⟨52, _⟩ => ⟨S2x4096x16384, .f32⟩
  | .hbm, ⟨53, _⟩ => ⟨S2x4096x8192, .f32⟩
  | .hbm, ⟨54, _⟩ => ⟨S2x4096x8192, .f32⟩
  | .hbm, ⟨55, _⟩ => ⟨S2x4096x8192, .f32⟩
  | .hbm, ⟨56, _⟩ => ⟨S2x4096x8192, .f32⟩
  | .hbm, ⟨57, _⟩ => ⟨S_, .f32⟩
  | .hbm, ⟨58, _⟩ => ⟨S2x4096x8192, .f32⟩
  | .hbm, ⟨59, _⟩ => ⟨S2x4096x8192, .f32⟩
  | .hbm, ⟨60, _⟩ => ⟨S_, .f32⟩
  | .hbm, ⟨61, _⟩ => ⟨S2x4096x8192, .f32⟩
  | .hbm, ⟨62, _⟩ => ⟨S2x4096x8192, .f32⟩
  | .hbm, ⟨63, _⟩ => ⟨S2x4096x8192, .f32⟩
  | .hbm, ⟨64, _⟩ => ⟨S2x4096x8192, .f32⟩
  | .hbm, ⟨65, _⟩ => ⟨S2x4096x8192, .f32⟩
  | .hbm, ⟨66, _⟩ => ⟨S_, .f32⟩
  | .hbm, ⟨67, _⟩ => ⟨S2x4096, .f32⟩
  | .hbm, ⟨68, _⟩ => ⟨S2x4096x1, .f32⟩
  | .hbm, ⟨69, _⟩ => ⟨S_, .f32⟩
  | .hbm, ⟨70, _⟩ => ⟨S_, .f32⟩
  | .hbm, ⟨71, _⟩ => ⟨S2x4096x1, .f32⟩
  | .hbm, ⟨72, _⟩ => ⟨S2x4096x1, .f32⟩
  | .hbm, ⟨73, _⟩ => ⟨S_, .f32⟩
  | .hbm, ⟨74, _⟩ => ⟨S2x4096x1, .f32⟩
  | .hbm, ⟨75, _⟩ => ⟨S2x4096x1, .f32⟩
  | .hbm, ⟨76, _⟩ => ⟨S2x4096x8192, .f32⟩
  | .hbm, ⟨77, _⟩ => ⟨S2x4096x8192, .f32⟩
  | .hbm, ⟨78, _⟩ => ⟨S2x4096x8192, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S2x4096x8192, .f32⟩
  | .hbm, ⟨83, _⟩ => ⟨S2x4096x8192, .f32⟩
  | .hbm, ⟨84, _⟩ => ⟨S_, .f32⟩
  | .hbm, ⟨85, _⟩ => ⟨S2x4096x8192, .f32⟩
  | .hbm, ⟨86, _⟩ => ⟨S2x4096x8192, .f32⟩
  | .hbm, ⟨87, _⟩ => ⟨S2x4096x8192, .f32⟩
  | .hbm, ⟨88, _⟩ => ⟨S2x4096x8192, .f32⟩
  | .hbm, ⟨89, _⟩ => ⟨S2x4096x8192, .f32⟩
  | .hbm, ⟨90, _⟩ => ⟨S2x4096x8192, .f32⟩
  | .hbm, ⟨91, _⟩ => ⟨S2048x8192, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S2048x8192, .f32⟩
  | .hbm, ⟨100, _⟩ => ⟨S2048x8192, .f32⟩
  | .hbm, ⟨101, _⟩ => ⟨S2048x8192, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S2048x8192, .f32⟩
  | .hbm, ⟨106, _⟩ => ⟨S2048x8192, .f32⟩
  | .hbm, ⟨107, _⟩ => ⟨S_, .f32⟩
  | .hbm, ⟨108, _⟩ => ⟨S2048x8192, .f32⟩
  | .hbm, ⟨109, _⟩ => ⟨S2048x8192, .f32⟩
  | .hbm, ⟨110, _⟩ => ⟨S2048x8192, .f32⟩
  | .hbm, ⟨111, _⟩ => ⟨S2048x8192, .f32⟩
  | .hbm, ⟨112, _⟩ => ⟨S2048x8192, .f32⟩
  | .hbm, ⟨113, _⟩ => ⟨S2048x8192, .f32⟩
  | .hbm, ⟨114, _⟩ => ⟨S2x4096x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_cst_3 : Ref sig .tc := ⟨.hbm, 18, rfl⟩
abbrev main_call2_v0 : Ref sig .tc := ⟨.hbm, 19, rfl⟩
abbrev main_call2_v1 : Ref sig .tc := ⟨.hbm, 20, rfl⟩
abbrev main_call2_v2 : Ref sig .tc := ⟨.hbm, 21, rfl⟩
abbrev main_call2_v3 : Ref sig .tc := ⟨.hbm, 22, rfl⟩
abbrev main_call2_v4 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_4 : Ref sig .tc := ⟨.hbm, 30, rfl⟩
abbrev main_v15 : Ref sig .tc := ⟨.hbm, 31, rfl⟩
abbrev main_cst_5 : Ref sig .tc := ⟨.hbm, 32, rfl⟩
abbrev main_v16 : Ref sig .tc := ⟨.hbm, 33, rfl⟩
abbrev main_cst_6 : Ref sig .tc := ⟨.hbm, 34, rfl⟩
abbrev main_call3_v0 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_7 : Ref sig .tc := ⟨.hbm, 40, rfl⟩
abbrev main_cst_8 : Ref sig .tc := ⟨.hbm, 41, rfl⟩
abbrev main_call5_v0 : Ref sig .tc := ⟨.hbm, 42, rfl⟩
abbrev main_call5_v1 : Ref sig .tc := ⟨.hbm, 43, rfl⟩
abbrev main_call5_v2 : Ref sig .tc := ⟨.hbm, 44, rfl⟩
abbrev main_call5_v3 : Ref sig .tc := ⟨.hbm, 45, rfl⟩
abbrev main_call5_v4 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_call6_v0 : Ref sig .tc := ⟨.hbm, 55, rfl⟩
abbrev main_call6_v1 : Ref sig .tc := ⟨.hbm, 56, rfl⟩
abbrev main_call6_cst : Ref sig .tc := ⟨.hbm, 57, rfl⟩
abbrev main_call6_v2 : Ref sig .tc := ⟨.hbm, 58, rfl⟩
abbrev main_call6_v3 : Ref sig .tc := ⟨.hbm, 59, rfl⟩
abbrev main_call6_cst_0 : Ref sig .tc := ⟨.hbm, 60, rfl⟩
abbrev main_call6_v4 : Ref sig .tc := ⟨.hbm, 61, rfl⟩
abbrev main_call6_v5 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_cst_9 : Ref sig .tc := ⟨.hbm, 66, rfl⟩
abbrev main_v32 : Ref sig .tc := ⟨.hbm, 67, rfl⟩
abbrev main_v33 : Ref sig .tc := ⟨.hbm, 68, rfl⟩
abbrev main_cst_10 : Ref sig .tc := ⟨.hbm, 69, rfl⟩
abbrev main_call7_v0 : Ref sig .tc := ⟨.hbm, 70, rfl⟩
abbrev main_call7_v1 : Ref sig .tc := ⟨.hbm, 71, rfl⟩
abbrev main_v34 : Ref sig .tc := ⟨.hbm, 72, rfl⟩
abbrev main_cst_11 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_cst_12 : Ref sig .tc := ⟨.hbm, 79, rfl⟩
abbrev main_cst_13 : Ref sig .tc := ⟨.hbm, 80, rfl⟩
abbrev main_call9_v0 : Ref sig .tc := ⟨.hbm, 81, rfl⟩
abbrev main_call9_v1 : Ref sig .tc := ⟨.hbm, 82, rfl⟩
abbrev main_call9_v2 : Ref sig .tc := ⟨.hbm, 83, rfl⟩
abbrev main_call9_v3 : Ref sig .tc := ⟨.hbm, 84, rfl⟩
abbrev main_call9_v4 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_cst_14 : Ref sig .tc := ⟨.hbm, 92, rfl⟩
abbrev main_v46 : Ref sig .tc := ⟨.hbm, 93, rfl⟩
abbrev main_cst_15 : Ref sig .tc := ⟨.hbm, 94, rfl⟩
abbrev main_v47 : Ref sig .tc := ⟨.hbm, 95, rfl⟩
abbrev main_cst_16 : Ref sig .tc := ⟨.hbm, 96, rfl⟩
abbrev main_call10_v0 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_cst_17 : Ref sig .tc := ⟨.hbm, 102, rfl⟩
abbrev main_cst_18 : Ref sig .tc := ⟨.hbm, 103, rfl⟩
abbrev main_call12_v0 : Ref sig .tc := ⟨.hbm, 104, rfl⟩
abbrev main_call12_v1 : Ref sig .tc := ⟨.hbm, 105, rfl⟩
abbrev main_call12_v2 : Ref sig .tc := ⟨.hbm, 106, rfl⟩
abbrev main_call12_v3 : Ref sig .tc := ⟨.hbm, 107, rfl⟩
abbrev main_call12_v4 : Ref sig .tc := ⟨.hbm, 108, rfl⟩
abbrev main_v52 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩

abbrev nD : Nat := 1
abbrev τ : Topo := Topo.v7x

variable {F : FTy → Type} [FloatOps F]

class Facts₀ : Prop where
  reducesTo_S2x4096x2048_S2x4096_d2 : S2x4096x2048.ReducesTo [2] S2x4096
  h_S_ : 0 < S_.numel
  bcast_S2x4096_S2x4096x1_0_1 : S2x4096.BroadcastsInDim S2x4096x1 (![0, 1] : Fin 2 → Fin S2x4096x1.rank)
  bcast_S_S2x4096x1 : S_.BroadcastsInDim S2x4096x1 (![] : Fin 0 → Fin S2x4096x1.rank)
  bcast_S2x4096x1_S2x4096x2048_0_1_2 : S2x4096x1.BroadcastsInDim S2x4096x2048 (![0, 1, 2] : Fin 3 → Fin S2x4096x2048.rank)
  bcast_S_S2x4096x2048 : S_.BroadcastsInDim S2x4096x2048 (![] : Fin 0 → Fin S2x4096x2048.rank)
  reducesTo_S16384x2048_S_d0_1 : S16384x2048.ReducesTo [0, 1] S_
  bcast_S_S16384x2048 : S_.BroadcastsInDim S16384x2048 (![] : Fin 0 → Fin S16384x2048.rank)
  slices_S2x4096x16384_S2x4096x8192_0_0_0 : S2x4096x16384.Slices ![0, 0, 0] S2x4096x8192
  slices_S2x4096x16384_S2x4096x8192_0_0_8192 : S2x4096x16384.Slices ![0, 0, 8192] S2x4096x8192
  bcast_S_S2x4096x8192 : S_.BroadcastsInDim S2x4096x8192 (![] : Fin 0 → Fin S2x4096x8192.rank)
  reducesTo_S2x4096x8192_S2x4096_d2 : S2x4096x8192.ReducesTo [2] S2x4096
  bcast_S2x4096x1_S2x4096x8192_0_1_2 : S2x4096x1.BroadcastsInDim S2x4096x8192 (![0, 1, 2] : Fin 3 → Fin S2x4096x8192.rank)
  reducesTo_S2048x8192_S_d0_1 : S2048x8192.ReducesTo [0, 1] S_
  bcast_S_S2048x8192 : S_.BroadcastsInDim S2048x8192 (![] : Fin 0 → Fin S2048x8192.rank)
  dot_S2x4096x2048_S16384x2048_S2x4096x16384_2_1_01_0_n_n_wf : DotDims.WF S2x4096x2048 S16384x2048 S2x4096x16384 [2] [1] [0, 1] [0] [] []
  dot_S2x4096x8192_S2048x8192_S2x4096x2048_2_1_01_0_n_n_wf : DotDims.WF S2x4096x8192 S2048x8192 S2x4096x2048 [2] [1] [0, 1] [0] [] []

variable [Facts₀]

def dot_S2x4096x2048_S16384x2048_S2x4096x16384_2_1_01_0_n_n : DotDims S2x4096x2048 S16384x2048 S2x4096x16384 where
  lhsContracting := [2]
  rhsContracting := [1]
  lhsNonContracting := [0, 1]
  rhsNonContracting := [0]
  lhsBatch := []
  rhsBatch := []
  wf := dot_S2x4096x2048_S16384x2048_S2x4096x16384_2_1_01_0_n_n_wf
def dot_S2x4096x8192_S2048x8192_S2x4096x2048_2_1_01_0_n_n : DotDims S2x4096x8192 S2048x8192 S2x4096x2048 where
  lhsContracting := [2]
  rhsContracting := [1]
  lhsNonContracting := [0, 1]
  rhsNonContracting := [0]
  lhsBatch := []
  rhsBatch := []
  wf := dot_S2x4096x8192_S2048x8192_S2x4096x2048_2_1_01_0_n_n_wf

class Facts : Prop extends Facts₀ where

variable [Facts]
-- ==== Proof.KernelRun.lean ====
/-
  The idealized kernel program's run with its result named.

  The program is thirteen stretches of host operations, four pipelined regions and one last host operation. Every
  weakly fair execution of it terminates without a fault; at the end each unscoped buffer of a core holds the contents
  obtained by folding the segments over the launch memory: a host stretch applies its operations, a region replaces
  its arrays by what its write-backs leave. So the result buffer holds that fold read at the result, and the three
  argument arrays are as launched.
-/
import proofs.«128026_j52905407152482_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the fold of the segments read
    at it and the arguments as launched. -/
theorem run_result : θ_run defs (onTc (τ := τ) (main (F := F))) ⟨m, fun _ => 0, ρ⟩ (fun r => ∀ c : Dev nD,
      r.2.mem ((c.tc : Thread nD τ).loc main_v27) = W18 m ρ c (Proc.devRef .tc main_v27)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v27 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c)⟩)

end Cert.KernelIdeal.RunValue

end
-- ==== Proof.Spec.lean ====
/-
  The arithmetic of a quantized two-layer gated projection, one row at a time, on the extended reals.

  A row x of activations is quantized to integers by its own scale: the scale is 127 over the row's largest absolute
  value (kept at or above a small floor), an entry becomes round-to-even of (entry × scale) clamped to [-128, 127].
  A weight matrix is quantized to {-1, 0, 1} by one scale for the whole matrix: the mean absolute value (kept at or
  above the floor); an entry becomes round-to-even of (entry / scale) clamped to [-1, 1].

  The product of a quantized row with a quantized weight row can be arranged two ways.
  * FACTORED: the sum of the products of the integers, times (1/row scale) × (weight scale), once.
  * ENTRYWISE: every integer first divided by the row scale (and the quotient written as x + (q − x)), every
    weight integer first multiplied by the weight scale (and written as w + (wq·s − w)), then the sum of products.
  The two agree when the entries are real numbers (the second module, over these definitions, proves it).

  The whole function of one row: gate and up are two such products; h = gate·logistic(gate)·up; the output is a third
  such product, of the row h with the second weight matrix.  Every literal is kept as the binary32 word it is printed as.
-/
import Idealize.ShloMosaic.PureOps.Ideal
import Idealize.ShloMosaic.Lib.ValueIdx

noncomputable section

namespace Cert.BitMlp

open Idealize.ShloMosaic

/-! ## The literals -/

/-- The floor 1e-5 (as binary32). -/
def eps : EReal := Ideal.ofBits .f32 0x3727C5AC#32
/-- 127. -/
def q127 : EReal := Ideal.ofBits .f32 0x42FE0000#32
/-- −128. -/
def qm128 : EReal := Ideal.ofBits .f32 0xC3000000#32
/-- −∞, where a running maximum starts. -/
def ninf : EReal := Ideal.ofBits .f32 0xFF800000#32
/-- 1. -/
def lit1 : EReal := Ideal.ofBits .f32 0x3F800000#32
/-- −1. -/
def litm1 : EReal := Ideal.ofBits .f32 0xBF800000#32
/-- 0. -/
def lit0 : EReal := Ideal.ofBits .f32 0x00000000#32

/-! ## Scalars -/

/-- Round to nearest, ties to even (the infinities fixed). -/
def rnd (v : EReal) : EReal := Ideal.liftRound Ideal.roundHalfEven v
/-- Absolute value. -/
def absE (v : EReal) : EReal := max v (-v)

/-- The largest absolute value of a row, as a running maximum from −∞. -/
def rowAmax {n : ℕ} (x : Fin n → EReal) : EReal := (Finset.univ : Finset (Fin n)).fold max ninf (fun k => absE (x k))
/-- A row's scale: 127 over its largest absolute value, the latter kept at or above the floor. -/
def ascale {n : ℕ} (x : Fin n → EReal) : EReal := Ideal.div q127 (max eps (rowAmax x))
/-- An activation's integer at scale s. -/
def aint (v s : EReal) : EReal := min q127 (max qm128 (rnd (v * s)))

/-- A weight matrix's scale from the sum of its absolute values and the number of its entries (a literal). -/
def wscale (sumAbs cnt : EReal) : EReal := max eps (Ideal.div sumAbs cnt)
/-- A weight's integer at scale ws. -/
def wint (w ws : EReal) : EReal := min lit1 (max litm1 (rnd (Ideal.div w ws)))

/-! ## The factored arrangement -/

/-- A quantized row against a row of weight integers wq with weight scale ws: the integers' sum of products, scaled once. -/
def facLin {n : ℕ} (x : Fin n → EReal) (wq : Fin n → EReal) (ws : EReal) : EReal :=
  (∑ k, aint (x k) (ascale x) * wq k) * (Ideal.div lit1 (ascale x) * ws)

/-- gate · logistic(gate) · up. -/
def facH {n : ℕ} (x : Fin n → EReal) (wg wu : Fin n → EReal) (ws : EReal) : EReal :=
  (facLin x wg ws * Ideal.logistic (facLin x wg ws)) * facLin x wu ws

/-! ## The entrywise arrangement -/

/-- x + (q − x). -/
def ste (x q : EReal) : EReal := x + (q - x)
/-- A row's entry quantized and scaled back, written around the entry. -/
def entAct {n : ℕ} (x : Fin n → EReal) (k : Fin n) : EReal := ste (x k) (Ideal.div (aint (x k) (ascale x)) (ascale x))
/-- A weight quantized and scaled back, written around the weight. -/
def entW (w ws : EReal) : EReal := ste w (wint w ws * ws)
/-- The sum of products of the two. -/
def entLin {n : ℕ} (x : Fin n → EReal) (w : Fin n → EReal) (ws : EReal) : EReal := ∑ k, entAct x k * entW (w k) ws
/-- a · (1 / (1 + exp(−a))), with the ones as literals. -/
def entSilu (a : EReal) : EReal := a * Ideal.div lit1 (lit1 + Ideal.exp (-a))
/-- silu(gate) · up. -/
def entH {n : ℕ} (x : Fin n → EReal) (wg wu : Fin n → EReal) (ws : EReal) : EReal :=
  entSilu (entLin x wg ws) * entLin x wu ws

/-! ## The whole function, at the program's extents -/

open Idealize.ShloMosaic.ValueIdx

/-- Activations [2, 4096, 2048]; first weights [16384, 2048] (rows 0 … 8191 the gate, rows 8192 … 16383 the up projection);
    second weights [2048, 8192]. -/
abbrev SA : Shape := ⟨3, ![2, 4096, 2048]⟩
abbrev SW1 : Shape := ⟨2, ![16384, 2048]⟩
abbrev SW2 : Shape := ⟨2, ![2048, 8192]⟩

/-- Row f of the gate half of the first weight matrix. -/
def loRow (f : Fin 8192) : Fin 16384 := ⟨f.val, by have := f.isLt; omega⟩
/-- Row f of the up half. -/
def hiRow (f : Fin 8192) : Fin 16384 := ⟨f.val + 8192, by have := f.isLt; omega⟩

/-- The numbers of entries of the two weight matrices, 2^25 and 2^24, as the literals the mean divides by. -/
def cnt1 : EReal := Ideal.ofBits .f32 0x4C000000#32
def cnt2 : EReal := Ideal.ofBits .f32 0x4B800000#32

/-- The first weight matrix's scale. -/
def ws1 (W1 : SW1.Idx → EReal) : EReal := wscale (lit0 + ∑ i, absE (W1 i)) cnt1
/-- The second weight matrix's scale. -/
def ws2 (W2 : SW2.Idx → EReal) : EReal := wscale (lit0 + ∑ i, absE (W2 i)) cnt2

/-- The output at (b, t, j) in the factored arrangement. -/
def facOut (A0 : SA.Idx → EReal) (W1 : SW1.Idx → EReal) (W2 : SW2.Idx → EReal) (b : Fin 2) (t : Fin 4096) (j : Fin 2048) : EReal :=
  facLin (fun f : Fin 8192 => facH (fun k : Fin 2048 => A0 (ix3 b t k)) (fun k : Fin 2048 => wint (W1 (ix2 (loRow f) k)) (ws1 W1))
      (fun k : Fin 2048 => wint (W1 (ix2 (hiRow f) k)) (ws1 W1)) (ws1 W1))
    (fun f : Fin 8192 => wint (W2 (ix2 j f)) (ws2 W2)) (ws2 W2)

/-- The output at (b, t, j) in the entrywise arrangement. -/
def entOut (A0 : SA.Idx → EReal) (W1 : SW1.Idx → EReal) (W2 : SW2.Idx → EReal) (b : Fin 2) (t : Fin 4096) (j : Fin 2048) : EReal :=
  entLin (fun f : Fin 8192 => entH (fun k : Fin 2048 => A0 (ix3 b t k)) (fun k : Fin 2048 => W1 (ix2 (loRow f) k))
      (fun k : Fin 2048 => W1 (ix2 (hiRow f) k)) (ws1 W1))
    (fun f : Fin 8192 => W2 (ix2 j f)) (ws2 W2)

end Cert.BitMlp

end
-- ==== Proof.LibAxisReductions.lean ====
/-
  Reductions along one axis and a column spread across lanes, read at an index given by coordinates, on the extended reals.

  A sum or a maximum along one axis of a matrix, at a kept coordinate, is the sum or the running maximum of the matrix's
  entries along that axis; a column [a, 1] spread to [a, b] reads, at (i, j), the column's entry i; and the host's
  reduction by a maximum along the last axis of a rank-3 array, at (p, q), is the running maximum, from the initial
  value, of the entries (p, q, k).
-/
import Idealize.ShloMosaic.Lib.ValueIdx
import Idealize.ShloMosaic.Lib.Pipeline.Value
import Idealize.ShloMosaic.PureOps.Ideal.Laws

namespace Cert.Lib.AxisReductions

open Idealize.ShloMosaic Idealize.ShloMosaic.ValueIdx

/-! ## The reduced index with the dropped coordinate put back -/

/-- Over column t of a matrix, putting row k back gives the index (k, t). -/
theorem lift_rows {m n : ℕ} (h : (⟨2, ![m, n]⟩ : Shape).Reduces [0] (⟨1, ![n]⟩ : Shape)) (t : Fin n)
    (k : Fin ((⟨2, ![m, n]⟩ : Shape).size 0)) : h.lift (ix1 t) k = ix2 (⟨k.val, k.isLt⟩ : Fin m) t := by
  funext c; apply Fin.ext
  fin_cases c <;> rfl

/-- Over row i of a matrix, putting column k back gives the index (i, k). -/
theorem lift_cols {m n : ℕ} (h : (⟨2, ![m, n]⟩ : Shape).Reduces [1] (⟨1, ![m]⟩ : Shape)) (i : Fin m)
    (k : Fin ((⟨2, ![m, n]⟩ : Shape).size 1)) : h.lift (ix1 i) k = ix2 i (⟨k.val, k.isLt⟩ : Fin n) := by
  funext c; apply Fin.ext
  fin_cases c <;> rfl

/-- Over the pair (p, q) of a rank-3 array reduced along its last axis, putting k back gives (p, q, k). -/
theorem lift_last3 {a b c : ℕ} (h : (⟨3, ![a, b, c]⟩ : Shape).Reduces [2] (⟨2, ![a, b]⟩ : Shape)) (p : Fin a) (q : Fin b)
    (k : Fin ((⟨3, ![a, b, c]⟩ : Shape).size 2)) : h.lift (ix2 p q) k = ix3 p q (⟨k.val, k.isLt⟩ : Fin c) := by
  funext d; apply Fin.ext
  fin_cases d <;> rfl

/-! ## Sums and maxima along one axis of a matrix -/

/-- The sum down the rows of a matrix, at column t: the sum over the rows k of the entry (k, t). -/
theorem sum_rows_apply {m n : ℕ} (src : FVec Ideal ⟨2, ![m, n]⟩ .f32) (acc : BitVec 32)
    (h : (⟨2, ![m, n]⟩ : Shape).Reduces [0] (⟨1, ![n]⟩ : Shape)) (hφ : FKind.Formats .f32)
    (hacc : acc = FKind.add.neutral .f32 hφ) (t : Fin n) :
    multiReduction .add [0] ⟨1, ![n]⟩ src acc h hφ hacc (ix1 t) = ∑ k : Fin m, src (ix2 k t) := by
  refine (Ideal.multiReduction_add_single src acc h hφ hacc (ix1 t)).trans ?_
  exact Finset.sum_congr rfl fun k _ => congrArg src (lift_rows h t k)

/-- The sum along the columns of a matrix, at row i: the sum over the columns k of the entry (i, k). -/
theorem sum_cols_apply {m n : ℕ} (src : FVec Ideal ⟨2, ![m, n]⟩ .f32) (acc : BitVec 32)
    (h : (⟨2, ![m, n]⟩ : Shape).Reduces [1] (⟨1, ![m]⟩ : Shape)) (hφ : FKind.Formats .f32)
    (hacc : acc = FKind.add.neutral .f32 hφ) (i : Fin m) :
    multiReduction .add [1] ⟨1, ![m]⟩ src acc h hφ hacc (ix1 i) = ∑ k : Fin n, src (ix2 i k) := by
  refine (Ideal.multiReduction_add_single src acc h hφ hacc (ix1 i)).trans ?_
  exact Finset.sum_congr rfl fun k _ => congrArg src (lift_cols h i k)

/-- The maximum down the rows of a matrix, at column t: the running maximum, from the accumulator's value, of the
    entries (k, t). -/
theorem max_rows_apply {m n : ℕ} (src : FVec Ideal ⟨2, ![m, n]⟩ .f32) (acc : BitVec 32)
    (h : (⟨2, ![m, n]⟩ : Shape).Reduces [0] (⟨1, ![n]⟩ : Shape)) (hφ : FKind.Formats .f32)
    (hacc : acc = FKind.maximumf.neutral .f32 hφ) (t : Fin n) :
    multiReduction .maximumf [0] ⟨1, ![n]⟩ src acc h hφ hacc (ix1 t)
      = (Finset.univ : Finset (Fin m)).fold max (Ideal.ofBits .f32 acc) (fun k => src (ix2 k t)) := by
  refine (Ideal.multiReduction_maximumf_single src acc h hφ hacc (ix1 t)).trans ?_
  exact congrArg (fun f => Finset.fold max (Ideal.ofBits .f32 acc) f (Finset.univ : Finset (Fin m)))
    (funext fun k => congrArg src (lift_rows h t k))

/-! ## A column spread across lanes -/

/-- A column [a, 1] broadcast to [a, b] reads, at (i, j), the column's entry i. -/
theorem broadcastTo_a1_ab_apply {α : Type} {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-! ## The host's maximum along the last axis of a rank-3 array -/

/-- The host's reduction by a maximum along the last axis of an [a, b, c] array, at (p, q): the running maximum, from the
    initial value, of the entries (p, q, k). -/
theorem hostMax_last3_apply {a b c : ℕ} {u : Shape} (x : FVec Ideal ⟨3, ![a, b, c]⟩ .f32) (init : u.Idx → Ideal .f32)
    (h' : (⟨3, ![a, b, c]⟩ : Shape).ReducesTo [2] (⟨2, ![a, b]⟩ : Shape))
    (h : (⟨3, ![a, b, c]⟩ : Shape).Reduces [2] (⟨2, ![a, b]⟩ : Shape)) (hu : 0 < u.numel) (p : Fin a) (q : Fin b) :
    Host.reduce FloatOps.maximumf x init h' hu (ix2 p q)
      = (Finset.univ : Finset (Fin c)).fold max (init (Shape.Idx.first hu)) (fun k => x (ix3 p q k)) := by
  refine (Host.reduce_eq_fold_single FloatOps.maximumf x init h' h hu (ix2 p q)).trans ?_
  exact congrArg (fun f => Finset.fold max (init (Shape.Idx.first hu)) f (Finset.univ : Finset (Fin c)))
    (funext fun k => congrArg x (lift_last3 h p q k))

/-- Minus infinity, as the binary32 word of it, is neutral for the maximum of extended reals. -/
theorem max_negInf (y : EReal) : max (Ideal.ofBits .f32 0xFF800000#32) y = y := by
  simp [Ideal.ofBits, Ideal.ieee]

end Cert.Lib.AxisReductions
-- ==== Proof.RefValue.lean ====
/-
  The reference program read at one output index, stage by stage, on the extended reals.

  Each named intermediate of the program is read at an index built from literal coordinates, bottom-up:
  the row scale of the activations, the activations quantized and scaled back, the weight scale and the weights
  quantized and scaled back, the first product, its two halves (gate and up), the hidden row
  silu(gate) · up, then the same quantization of the hidden row and of the second weight matrix, and the second
  product.  The last lemma is the whole function at (b, t, j): the entrywise arrangement of the specification.
-/
import proofs.«128026_j52905407152482_2_alg».proof.Proof.RefReadP
import proofs.«128026_j52905407152482_2_alg».proof.Proof.Spec
import proofs.«128026_j52905407152482_2_alg».proof.Proof.LibAxisReductions

noncomputable section

namespace Cert.BitMlp.RefSide

open Cert.ReferenceIdeal Cert.ReferenceIdeal.Gen Cert.ReferenceIdeal.ReadP Idealize.ShloMosaic Idealize.ShloMosaic.ValueIdx
open Cert.BitMlp Cert.Lib.AxisReductions

/-! ## Index equations: the program's composed index functions at indices given by coordinates -/

theorem idx_v2 (b : Fin 2) (t : Fin 4096) (u : Fin 1) : idx_main_v2 (ix3 b t u) = ix2 b t :=
  funext fun a => Fin.ext (by match a with | ⟨0, _⟩ => rfl | ⟨1, _⟩ => rfl)
theorem idx_v33 (b : Fin 2) (t : Fin 4096) (u : Fin 1) : idx_main_v33 (ix3 b t u) = ix2 b t :=
  funext fun a => Fin.ext (by match a with | ⟨0, _⟩ => rfl | ⟨1, _⟩ => rfl)
theorem idx_v6 (b : Fin 2) (t : Fin 4096) (k : Fin 2048) : idx_main_v6 (ix3 b t k) = ix3 b t (0 : Fin 1) :=
  funext fun a => Fin.ext (by match a with | ⟨0, _⟩ => rfl | ⟨1, _⟩ => rfl | ⟨2, _⟩ => rfl)
theorem idx_v10 (b : Fin 2) (t : Fin 4096) (k : Fin 2048) : idx_main_v10 (ix3 b t k) = ix3 b t (0 : Fin 1) :=
  funext fun a => Fin.ext (by match a with | ⟨0, _⟩ => rfl | ⟨1, _⟩ => rfl | ⟨2, _⟩ => rfl)
theorem idx_v37 (b : Fin 2) (t : Fin 4096) (f : Fin 8192) : idx_main_v37 (ix3 b t f) = ix3 b t (0 : Fin 1) :=
  funext fun a => Fin.ext (by match a with | ⟨0, _⟩ => rfl | ⟨1, _⟩ => rfl | ⟨2, _⟩ => rfl)
theorem idx_v41 (b : Fin 2) (t : Fin 4096) (f : Fin 8192) : idx_main_v41 (ix3 b t f) = ix3 b t (0 : Fin 1) :=
  funext fun a => Fin.ext (by match a with | ⟨0, _⟩ => rfl | ⟨1, _⟩ => rfl | ⟨2, _⟩ => rfl)
theorem lidx_v26 (b : Fin 2) (t : Fin 4096) (o : Fin 16384) (k : Fin 2048) : lidx_main_v26 (ix3 b t o) k = ix3 b t k :=
  funext fun a => Fin.ext (by match a with | ⟨0, _⟩ => rfl | ⟨1, _⟩ => rfl | ⟨2, _⟩ => rfl)
theorem ridx_v26 (b : Fin 2) (t : Fin 4096) (o : Fin 16384) (k : Fin 2048) : ridx_main_v26 (ix3 b t o) k = ix2 o k :=
  funext fun a => Fin.ext (by match a with | ⟨0, _⟩ => rfl | ⟨1, _⟩ => rfl)
theorem lidx_v57 (b : Fin 2) (t : Fin 4096) (j : Fin 2048) (f : Fin 8192) : lidx_main_v57 (ix3 b t j) f = ix3 b t f :=
  funext fun a => Fin.ext (by match a with | ⟨0, _⟩ => rfl | ⟨1, _⟩ => rfl | ⟨2, _⟩ => rfl)
theorem ridx_v57 (b : Fin 2) (t : Fin 4096) (j : Fin 2048) (f : Fin 8192) : ridx_main_v57 (ix3 b t j) f = ix2 j f :=
  funext fun a => Fin.ext (by match a with | ⟨0, _⟩ => rfl | ⟨1, _⟩ => rfl)
/-- The gate half of the first product starts at column 0. -/
theorem idx_v27 (b : Fin 2) (t : Fin 4096) (f : Fin 8192) : idx_main_v27 (ix3 b t f) = ix3 b t (loRow f) :=
  funext fun a => Fin.ext (by match a with | ⟨0, _⟩ => rfl | ⟨1, _⟩ => rfl | ⟨2, _⟩ => rfl)
/-- The up half starts at column 8192. -/
theorem idx_v28 (b : Fin 2) (t : Fin 4096) (f : Fin 8192) : idx_main_v28 (ix3 b t f) = ix3 b t (hiRow f) :=
  funext fun a => Fin.ext (by
    match a with
    | ⟨0, _⟩ => rfl
    | ⟨1, _⟩ => rfl
    | ⟨2, _⟩ => exact Nat.add_comm 8192 f.val)

/-! ## The activations of the first layer -/

/-- The largest absolute value of row (b, t). -/
theorem v1_at (x0 : (⟨Cert.ReferenceIdeal.S2x4096x2048, .f32⟩ : BufTy).Contents (Elt Ideal)) (b : Fin 2) (t : Fin 4096) :
    val_main_v1 (F := Ideal) x0 (ix2 b t) = rowAmax (fun k : Fin 2048 => x0 (ix3 b t k)) := by
  unfold val_main_v1
  refine (hostMax_last3_apply (a := 2) (b := 4096) (c := 2048) _ _ reducesTo_S2x4096x2048_S2x4096_d2 (by decide) h_S_ b t).trans ?_
  rfl

theorem v2_at (x0 : (⟨Cert.ReferenceIdeal.S2x4096x2048, .f32⟩ : BufTy).Contents (Elt Ideal)) (b : Fin 2) (t : Fin 4096) :
    val_main_v2 (F := Ideal) x0 (ix3 b t (0 : Fin 1)) = rowAmax (fun k : Fin 2048 => x0 (ix3 b t k)) := by
  rw [val_main_v2_apply, idx_v2, v1_at]

theorem v3_at (x0 : (⟨Cert.ReferenceIdeal.S2x4096x2048, .f32⟩ : BufTy).Contents (Elt Ideal)) (b : Fin 2) (t : Fin 4096) :
    val_main_v3 (F := Ideal) x0 (ix3 b t (0 : Fin 1)) = max eps (rowAmax (fun k : Fin 2048 => x0 (ix3 b t k))) := by
  rw [val_main_v3_apply, v2_at, val_main_call0_v1_apply]
  rfl

/-- The scale of row (b, t). -/
theorem v5_at (x0 : (⟨Cert.ReferenceIdeal.S2x4096x2048, .f32⟩ : BufTy).Contents (Elt Ideal)) (b : Fin 2) (t : Fin 4096) :
    val_main_v5 (F := Ideal) x0 (ix3 b t (0 : Fin 1)) = ascale (fun k : Fin 2048 => x0 (ix3 b t k)) := by
  rw [val_main_v5_apply, v3_at, val_main_v4_apply]
  rfl

theorem v6_at (x0 : (⟨Cert.ReferenceIdeal.S2x4096x2048, .f32⟩ : BufTy).Contents (Elt Ideal)) (b : Fin 2) (t : Fin 4096) (k : Fin 2048) :
    val_main_v6 (F := Ideal) x0 (ix3 b t k) = ascale (fun k : Fin 2048 => x0 (ix3 b t k)) := by
  rw [val_main_v6_apply, idx_v6, v5_at]

theorem v10_at (x0 : (⟨Cert.ReferenceIdeal.S2x4096x2048, .f32⟩ : BufTy).Contents (Elt Ideal)) (b : Fin 2) (t : Fin 4096) (k : Fin 2048) :
    val_main_v10 (F := Ideal) x0 (ix3 b t k) = ascale (fun k : Fin 2048 => x0 (ix3 b t k)) := by
  rw [val_main_v10_apply, idx_v10, v5_at]

/-- The activation (b, t, k) quantized and scaled back. -/
theorem v13_at (x0 : (⟨Cert.ReferenceIdeal.S2x4096x2048, .f32⟩ : BufTy).Contents (Elt Ideal)) (b : Fin 2) (t : Fin 4096) (k : Fin 2048) :
    val_main_v13 (F := Ideal) x0 (ix3 b t k) = entAct (fun k : Fin 2048 => x0 (ix3 b t k)) k := by
  rw [val_main_v13_apply, val_main_v12_apply, val_main_v11_apply, val_main_v9_apply, val_main_call2_v2_apply,
    val_main_v8_apply, val_main_v7_apply, v6_at, v10_at, val_main_call2_v4_apply, val_main_call2_v1_apply]
  rfl

/-! ## The weights of the first layer -/

theorem v15_at (x1 : (⟨Cert.ReferenceIdeal.S16384x2048, .f32⟩ : BufTy).Contents (Elt Ideal)) (i : S_.Idx) :
    val_main_v15 (F := Ideal) x1 i = lit0 + ∑ j : SW1.Idx, absE (x1 j) := by
  rw [val_main_v15_apply]
  rfl

/-- The first weight matrix's scale. -/
theorem v17_at (x1 : (⟨Cert.ReferenceIdeal.S16384x2048, .f32⟩ : BufTy).Contents (Elt Ideal)) (i : S_.Idx) : val_main_v17 (F := Ideal) x1 i = ws1 x1 := by
  rw [val_main_v17_apply, val_main_v16_apply, v15_at]
  rfl

/-- A weight of the first matrix quantized and scaled back. -/
theorem v25_at (x1 : (⟨Cert.ReferenceIdeal.S16384x2048, .f32⟩ : BufTy).Contents (Elt Ideal)) (i : S16384x2048.Idx) :
    val_main_v25 (F := Ideal) x1 i = entW (x1 i) (ws1 x1) := by
  rw [val_main_v25_apply, val_main_v24_apply, val_main_v23_apply, val_main_v21_apply, val_main_call5_v2_apply,
    val_main_v20_apply, val_main_v19_apply, val_main_v18_apply, val_main_v22_apply, val_main_call5_v4_apply,
    val_main_call5_v1_apply]
  simp only [v17_at]
  rfl

/-! ## The first product, its halves, and the hidden row -/

theorem v26_at (x0 : (⟨Cert.ReferenceIdeal.S2x4096x2048, .f32⟩ : BufTy).Contents (Elt Ideal)) (x1 : (⟨Cert.ReferenceIdeal.S16384x2048, .f32⟩ : BufTy).Contents (Elt Ideal)) (b : Fin 2) (t : Fin 4096) (o : Fin 16384) :
    val_main_v26 (F := Ideal) x0 x1 (ix3 b t o)
      = entLin (fun k : Fin 2048 => x0 (ix3 b t k)) (fun k : Fin 2048 => x1 (ix2 o k)) (ws1 x1) := by
  rw [val_main_v26_apply]
  unfold entLin
  refine Finset.sum_congr rfl fun k _ => ?_
  rw [lidx_v26, ridx_v26, v13_at, v25_at]

theorem v27_at (x0 : (⟨Cert.ReferenceIdeal.S2x4096x2048, .f32⟩ : BufTy).Contents (Elt Ideal)) (x1 : (⟨Cert.ReferenceIdeal.S16384x2048, .f32⟩ : BufTy).Contents (Elt Ideal)) (b : Fin 2) (t : Fin 4096) (f : Fin 8192) :
    val_main_v27 (F := Ideal) x0 x1 (ix3 b t f)
      = entLin (fun k : Fin 2048 => x0 (ix3 b t k)) (fun k : Fin 2048 => x1 (ix2 (loRow f) k)) (ws1 x1) := by
  rw [val_main_v27_apply, idx_v27, v26_at]

theorem v28_at (x0 : (⟨Cert.ReferenceIdeal.S2x4096x2048, .f32⟩ : BufTy).Contents (Elt Ideal)) (x1 : (⟨Cert.ReferenceIdeal.S16384x2048, .f32⟩ : BufTy).Contents (Elt Ideal)) (b : Fin 2) (t : Fin 4096) (f : Fin 8192) :
    val_main_v28 (F := Ideal) x0 x1 (ix3 b t f)
      = entLin (fun k : Fin 2048 => x0 (ix3 b t k)) (fun k : Fin 2048 => x1 (ix2 (hiRow f) k)) (ws1 x1) := by
  rw [val_main_v28_apply, idx_v28, v26_at]

theorem v29_at (x0 : (⟨Cert.ReferenceIdeal.S2x4096x2048, .f32⟩ : BufTy).Contents (Elt Ideal)) (x1 : (⟨Cert.ReferenceIdeal.S16384x2048, .f32⟩ : BufTy).Contents (Elt Ideal)) (b : Fin 2) (t : Fin 4096) (f : Fin 8192) :
    val_main_v29 (F := Ideal) x0 x1 (ix3 b t f)
      = entSilu (entLin (fun k : Fin 2048 => x0 (ix3 b t k)) (fun k : Fin 2048 => x1 (ix2 (loRow f) k)) (ws1 x1)) := by
  rw [val_main_v29_apply, val_main_call6_v5_apply, val_main_call6_v3_apply, val_main_call6_v1_apply,
    val_main_call6_v0_apply, val_main_call6_v4_apply, val_main_call6_v2_apply]
  simp only [v27_at]
  rfl

/-- The hidden row at (b, t): silu(gate) · up, entry by entry. -/
def hid (x0 : (⟨Cert.ReferenceIdeal.S2x4096x2048, .f32⟩ : BufTy).Contents (Elt Ideal)) (x1 : (⟨Cert.ReferenceIdeal.S16384x2048, .f32⟩ : BufTy).Contents (Elt Ideal)) (b : Fin 2) (t : Fin 4096) : Fin 8192 → EReal :=
  fun f => entH (fun k : Fin 2048 => x0 (ix3 b t k)) (fun k : Fin 2048 => x1 (ix2 (loRow f) k))
    (fun k : Fin 2048 => x1 (ix2 (hiRow f) k)) (ws1 x1)

theorem v30_at (x0 : (⟨Cert.ReferenceIdeal.S2x4096x2048, .f32⟩ : BufTy).Contents (Elt Ideal)) (x1 : (⟨Cert.ReferenceIdeal.S16384x2048, .f32⟩ : BufTy).Contents (Elt Ideal)) (b : Fin 2) (t : Fin 4096) (f : Fin 8192) :
    val_main_v30 (F := Ideal) x0 x1 (ix3 b t f) = hid x0 x1 b t f := by
  rw [val_main_v30_apply, v29_at, v28_at]
  rfl

/-! ## The hidden row quantized -/

theorem v32_at (x0 : (⟨Cert.ReferenceIdeal.S2x4096x2048, .f32⟩ : BufTy).Contents (Elt Ideal)) (x1 : (⟨Cert.ReferenceIdeal.S16384x2048, .f32⟩ : BufTy).Contents (Elt Ideal)) (b : Fin 2) (t : Fin 4096) :
    val_main_v32 (F := Ideal) x0 x1 (ix2 b t) = rowAmax (hid x0 x1 b t) := by
  unfold val_main_v32
  refine (hostMax_last3_apply (a := 2) (b := 4096) (c := 8192) _ _ reducesTo_S2x4096x8192_S2x4096_d2 (by decide) h_S_ b t).trans ?_
  have hf : (fun k : Fin 8192 => val_main_v31 (F := Ideal) x0 x1 (ix3 b t k)) = fun k => absE (hid x0 x1 b t k) :=
    funext fun k => by rw [val_main_v31_apply, v30_at]; rfl
  rw [hf]
  rfl

theorem v33_at (x0 : (⟨Cert.ReferenceIdeal.S2x4096x2048, .f32⟩ : BufTy).Contents (Elt Ideal)) (x1 : (⟨Cert.ReferenceIdeal.S16384x2048, .f32⟩ : BufTy).Contents (Elt Ideal)) (b : Fin 2) (t : Fin 4096) :
    val_main_v33 (F := Ideal) x0 x1 (ix3 b t (0 : Fin 1)) = rowAmax (hid x0 x1 b t) := by
  rw [val_main_v33_apply, idx_v33, v32_at]

theorem v34_at (x0 : (⟨Cert.ReferenceIdeal.S2x4096x2048, .f32⟩ : BufTy).Contents (Elt Ideal)) (x1 : (⟨Cert.ReferenceIdeal.S16384x2048, .f32⟩ : BufTy).Contents (Elt Ideal)) (b : Fin 2) (t : Fin 4096) :
    val_main_v34 (F := Ideal) x0 x1 (ix3 b t (0 : Fin 1)) = max eps (rowAmax (hid x0 x1 b t)) := by
  rw [val_main_v34_apply, v33_at, val_main_call7_v1_apply]
  rfl

/-- The scale of the hidden row. -/
theorem v36_at (x0 : (⟨Cert.ReferenceIdeal.S2x4096x2048, .f32⟩ : BufTy).Contents (Elt Ideal)) (x1 : (⟨Cert.ReferenceIdeal.S16384x2048, .f32⟩ : BufTy).Contents (Elt Ideal)) (b : Fin 2) (t : Fin 4096) :
    val_main_v36 (F := Ideal) x0 x1 (ix3 b t (0 : Fin 1)) = ascale (hid x0 x1 b t) := by
  rw [val_main_v36_apply, v34_at, val_main_v35_apply]
  rfl

theorem v37_at (x0 : (⟨Cert.ReferenceIdeal.S2x4096x2048, .f32⟩ : BufTy).Contents (Elt Ideal)) (x1 : (⟨Cert.ReferenceIdeal.S16384x2048, .f32⟩ : BufTy).Contents (Elt Ideal)) (b : Fin 2) (t : Fin 4096) (f : Fin 8192) :
    val_main_v37 (F := Ideal) x0 x1 (ix3 b t f) = ascale (hid x0 x1 b t) := by
  rw [val_main_v37_apply, idx_v37, v36_at]

theorem v41_at (x0 : (⟨Cert.ReferenceIdeal.S2x4096x2048, .f32⟩ : BufTy).Contents (Elt Ideal)) (x1 : (⟨Cert.ReferenceIdeal.S16384x2048, .f32⟩ : BufTy).Contents (Elt Ideal)) (b : Fin 2) (t : Fin 4096) (f : Fin 8192) :
    val_main_v41 (F := Ideal) x0 x1 (ix3 b t f) = ascale (hid x0 x1 b t) := by
  rw [val_main_v41_apply, idx_v41, v36_at]

/-- The hidden entry (b, t, f) quantized and scaled back. -/
theorem v44_at (x0 : (⟨Cert.ReferenceIdeal.S2x4096x2048, .f32⟩ : BufTy).Contents (Elt Ideal)) (x1 : (⟨Cert.ReferenceIdeal.S16384x2048, .f32⟩ : BufTy).Contents (Elt Ideal)) (b : Fin 2) (t : Fin 4096) (f : Fin 8192) :
    val_main_v44 (F := Ideal) x0 x1 (ix3 b t f) = entAct (hid x0 x1 b t) f := by
  rw [val_main_v44_apply, val_main_v43_apply, val_main_v42_apply, val_main_v40_apply, val_main_call9_v2_apply,
    val_main_v39_apply, val_main_v38_apply, v37_at, v41_at, val_main_call9_v4_apply, val_main_call9_v1_apply]
  simp only [v30_at]
  rfl

/-! ## The weights of the second layer -/

theorem v46_at (x2 : (⟨Cert.ReferenceIdeal.S2048x8192, .f32⟩ : BufTy).Contents (Elt Ideal)) (i : S_.Idx) :
    val_main_v46 (F := Ideal) x2 i = lit0 + ∑ j : SW2.Idx, absE (x2 j) := by
  rw [val_main_v46_apply]
  rfl

/-- The second weight matrix's scale. -/
theorem v48_at (x2 : (⟨Cert.ReferenceIdeal.S2048x8192, .f32⟩ : BufTy).Contents (Elt Ideal)) (i : S_.Idx) : val_main_v48 (F := Ideal) x2 i = ws2 x2 := by
  rw [val_main_v48_apply, val_main_v47_apply, v46_at]
  rfl

/-- A weight of the second matrix quantized and scaled back. -/
theorem v56_at (x2 : (⟨Cert.ReferenceIdeal.S2048x8192, .f32⟩ : BufTy).Contents (Elt Ideal)) (i : S2048x8192.Idx) :
    val_main_v56 (F := Ideal) x2 i = entW (x2 i) (ws2 x2) := by
  rw [val_main_v56_apply, val_main_v55_apply, val_main_v54_apply, val_main_v52_apply, val_main_call12_v2_apply,
    val_main_v51_apply, val_main_v50_apply, val_main_v49_apply, val_main_v53_apply, val_main_call12_v4_apply,
    val_main_call12_v1_apply]
  simp only [v48_at]
  rfl

/-! ## The output -/

/-- The reference program's output at (b, t, j) is the entrywise arrangement of the specification. -/
theorem ref_value (x0 : (⟨Cert.ReferenceIdeal.S2x4096x2048, .f32⟩ : BufTy).Contents (Elt Ideal)) (x1 : (⟨Cert.ReferenceIdeal.S16384x2048, .f32⟩ : BufTy).Contents (Elt Ideal)) (x2 : (⟨Cert.ReferenceIdeal.S2048x8192, .f32⟩ : BufTy).Contents (Elt Ideal))
    (b : Fin 2) (t : Fin 4096) (j : Fin 2048) :
    Cert.ReferenceIdeal.ReadP.val_main_v57 (F := Ideal) x0 x1 x2 (ValueIdx.ix3 b t j) = Cert.BitMlp.entOut x0 x1 x2 b t j := by
  rw [val_main_v57_apply]
  show _ = entLin (hid x0 x1 b t) (fun f : Fin 8192 => x2 (ix2 j f)) (ws2 x2)
  unfold entLin
  refine Finset.sum_congr rfl fun f _ => ?_
  rw [lidx_v57, ridx_v57, v44_at, v56_at]

end Cert.BitMlp.RefSide

end
-- ==== Proof.LibCoeSum.lean ====
/-
  A finite sum of reals, coerced into the extended reals, is the sum of the coercions.
-/
import Mathlib.Data.EReal.Basic
import Mathlib.Algebra.BigOperators.Group.Finset.Basic

namespace Cert.Lib.CoeSum

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end Cert.Lib.CoeSum
-- ==== Proof.LibRealEntries.lean ====
/-
  Real entries, and the one law that needs them.

  An extended real is REAL when it is the coercion of a real number. Sums, products, maxima and conditionals of real
  entries are real. For real entries a weight can be moved across a finite conditional sum:
      (Σ_e [p e] Σ_k a(e,k)·w(k)) · v = Σ_k ((Σ_e [p e] a(e,k)) · v) · w(k),
  which is distributivity and an exchange of the two sums — true in the reals, and false on the extended reals in
  general (∞ − ∞), which is why the entries are asked to be real.
-/
import Mathlib.Data.EReal.Basic
import Mathlib.Data.EReal.Operations
import Mathlib.Algebra.BigOperators.Group.Finset.Basic
import Mathlib.Algebra.BigOperators.Ring.Finset
import Mathlib.Algebra.BigOperators.Group.Finset.Sigma
import Mathlib.Tactic.Ring
import proofs.«128026_j52905407152482_2_alg».proof.Proof.LibCoeSum

namespace Cert.Lib.RealEntries

open scoped BigOperators
open Cert.Lib.CoeSum

/-- An extended real that is a real number. -/
def IsReal (a : EReal) : Prop := ∃ r : ℝ, a = (r : EReal)

theorem isReal_zero : IsReal 0 := ⟨0, rfl⟩
theorem isReal_one : IsReal 1 := ⟨1, rfl⟩

theorem IsReal.add {a b : EReal} (ha : IsReal a) (hb : IsReal b) : IsReal (a + b) := by
  obtain ⟨x, rfl⟩ := ha; obtain ⟨y, rfl⟩ := hb; exact ⟨x + y, (EReal.coe_add x y).symm⟩

theorem IsReal.mul {a b : EReal} (ha : IsReal a) (hb : IsReal b) : IsReal (a * b) := by
  obtain ⟨x, rfl⟩ := ha; obtain ⟨y, rfl⟩ := hb; exact ⟨x * y, (EReal.coe_mul x y).symm⟩

theorem IsReal.max {a b : EReal} (ha : IsReal a) (hb : IsReal b) : IsReal (max a b) := by
  rcases le_total a b with h | h
  · rw [max_eq_right h]; exact hb
  · rw [max_eq_left h]; exact ha

theorem isReal_sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

theorem isReal_ite (p : Prop) [Decidable p] {a : EReal} (ha : IsReal a) : IsReal (if p then a else 0) := by
  split_ifs
  · exact ha
  · exact isReal_zero

/-- The law in the reals: distributivity, and the two finite sums exchanged. -/
theorem real_law {ι κ : Type*} [Fintype ι] [Fintype κ] (p : ι → Prop) [DecidablePred p] (a : ι → κ → ℝ) (w : κ → ℝ) (v : ℝ) :
    (∑ e, if p e then ∑ k, a e k * w k else 0) * v = ∑ k, ((∑ e, if p e then a e k else 0) * v) * w k := by
  simp only [Finset.sum_mul]
  rw [Finset.sum_comm]
  refine Finset.sum_congr rfl fun e _ => ?_
  by_cases h : p e
  · simp only [if_pos h, Finset.sum_mul]
    exact Finset.sum_congr rfl fun k _ => by ring
  · simp [if_neg h]

/-- The same law on the extended reals, for real entries. -/
theorem push_weights {ι κ : Type*} [Fintype ι] [Fintype κ] (p : ι → Prop) [DecidablePred p] (a : ι → κ → EReal) (w : κ → EReal)
    (v : EReal) (ha : ∀ e k, IsReal (a e k)) (hw : ∀ k, IsReal (w k)) (hv : IsReal v) :
    ((0 : EReal) + ∑ e, if p e then ∑ k, a e k * w k else 0) * v
      = ∑ k, (((0 : EReal) + ∑ e, if p e then a e k else 0) * v) * w k := by
  choose a' ha' using ha
  choose w' hw' using hw
  obtain ⟨v', rfl⟩ := hv
  have hite : ∀ (q : Prop) [Decidable q] (x : ℝ), (if q then (x : EReal) else 0) = ((if q then x else 0 : ℝ) : EReal) := by
    intro q _ x; split_ifs <;> rfl
  simp only [ha', hw', zero_add, ← EReal.coe_mul, ← coe_sum, hite]
  exact congrArg (fun r : ℝ => (r : EReal)) (real_law p a' w' v')

end Cert.Lib.RealEntries
-- ==== Proof.Algebra.lean ====
/-
  The factored and the entrywise arrangement of the quantized gated projection agree on real entries.

  The extended reals are a commutative monoid with zero under multiplication, but multiplication does not distribute
  over addition there (∞ − ∞), so the common factor (1 / row scale) × (weight scale) can be moved across the sum of
  products only when the entries are real numbers. The steps:
  * the literals are the real numbers 127, −128, 1, −1, 0, 2^25, 2^24, the floor a positive real, the start of the
    running maximum −∞;
  * an integer of an activation or of a weight is clamped between two reals, so it is real whatever was rounded;
  * for a row of real entries the largest absolute value kept at or above the floor is a positive real, hence so is the
    row's scale; a weight matrix's scale is real when its entries are;
  * on reals x + (q − x) = q, so an entrywise activation is its integer over the row's scale and an entrywise weight is
    its integer times the weight scale;
  * the two sums of products then agree by distributivity in ℝ;
  * a · (1 / (1 + exp(−a))) is a · logistic a for every a, the factored sum and the logistic of a real are real, so the
    gated rows agree and are real, and the second product agrees in the same way.
-/
import proofs.«128026_j52905407152482_2_alg».proof.Proof.Spec
import proofs.«128026_j52905407152482_2_alg».proof.Proof.LibCoeSum
import proofs.«128026_j52905407152482_2_alg».proof.Proof.LibRealEntries
import Mathlib.Data.EReal.Inv
import Mathlib.Tactic

noncomputable section

namespace Cert.BitMlp

open Idealize.ShloMosaic
open Cert.Lib.RealEntries

/-! ## The literals, as the real numbers they denote -/

theorem q127_eq : q127 = ((127 : ℝ) : EReal) := by
  simp [q127, Ideal.ofBits, Ideal.ieee, -EReal.coe_mul]; norm_num

theorem qm128_eq : qm128 = ((-128 : ℝ) : EReal) := by
  simp [qm128, Ideal.ofBits, Ideal.ieee, -EReal.coe_mul]; norm_num

theorem lit1_eq : lit1 = 1 := by
  simp [lit1, Ideal.ofBits, Ideal.ieee, -EReal.coe_mul]; norm_num

theorem litm1_eq : litm1 = ((-1 : ℝ) : EReal) := by
  simp [litm1, Ideal.ofBits, Ideal.ieee, -EReal.coe_mul]; norm_num

theorem lit0_eq : lit0 = 0 := by
  simp [lit0, Ideal.ofBits, Ideal.ieee]

theorem ninf_eq : ninf = ⊥ := by
  simp [ninf, Ideal.ofBits, Ideal.ieee]

theorem eps_eq : eps = ((10995116 * (2 : ℝ) ^ (-40 : ℤ) : ℝ) : EReal) := by
  simp [eps, Ideal.ofBits, Ideal.ieee, -EReal.coe_mul]

theorem cnt1_eq : cnt1 = ((33554432 : ℝ) : EReal) := by
  simp [cnt1, Ideal.ofBits, Ideal.ieee, -EReal.coe_mul]; norm_num

theorem cnt2_eq : cnt2 = ((16777216 : ℝ) : EReal) := by
  simp [cnt2, Ideal.ofBits, Ideal.ieee, -EReal.coe_mul]; norm_num

/-! ## Real entries -/

/-- The smaller of two real entries is real. -/
theorem isReal_min {a b : EReal} (ha : IsReal a) (hb : IsReal b) : IsReal (min a b) := by
  rcases le_total a b with h | h
  · rw [min_eq_left h]; exact ha
  · rw [min_eq_right h]; exact hb

/-- A value clamped between two real numbers is real, whatever it was. -/
theorem clamp_real (a b : ℝ) (z : EReal) : IsReal (min (a : EReal) (max (b : EReal) z)) := by
  induction z using EReal.rec with
  | bot => rw [max_eq_left bot_le]; exact isReal_min ⟨a, rfl⟩ ⟨b, rfl⟩
  | top => exact ⟨a, by rw [max_eq_right le_top, min_eq_left le_top]⟩
  | coe r => exact isReal_min ⟨a, rfl⟩ (IsReal.max ⟨b, rfl⟩ ⟨r, rfl⟩)

/-- An activation's integer is real at every entry and every scale. -/
theorem aint_real (v s : EReal) : IsReal (aint v s) := by
  unfold aint; rw [q127_eq, qm128_eq]; exact clamp_real _ _ _

/-- A weight's integer is real at every entry and every scale. -/
theorem wint_real (w ws : EReal) : IsReal (wint w ws) := by
  unfold wint; rw [lit1_eq, litm1_eq, ← EReal.coe_one]; exact clamp_real _ _ _

/-- The negative of a real entry is real. -/
theorem isReal_neg {a : EReal} (ha : IsReal a) : IsReal (-a) := by
  obtain ⟨r, rfl⟩ := ha; exact ⟨-r, (EReal.coe_neg r).symm⟩

/-- The absolute value of a real entry is real. -/
theorem absE_real {a : EReal} (ha : IsReal a) : IsReal (absE a) := ha.max (isReal_neg ha)

/-- The floor is a positive real. -/
theorem eps_pos_real : ∃ e : ℝ, 0 < e ∧ eps = (e : EReal) :=
  ⟨10995116 * (2 : ℝ) ^ (-40 : ℤ), by positivity, eps_eq⟩

/-- A running maximum from −∞ of real entries, joined with a real number, is real. -/
theorem max_fold_real {ι : Type*} (s : Finset ι) (f : ι → EReal) (hf : ∀ i ∈ s, IsReal (f i)) {e : EReal} (he : IsReal e) :
    IsReal (max e (s.fold max ⊥ f)) := by
  classical
  induction s using Finset.induction_on with
  | empty => rw [Finset.fold_empty, max_eq_left bot_le]; exact he
  | insert a s ha ih =>
    rw [Finset.fold_insert ha, max_left_comm]
    exact (hf a (Finset.mem_insert_self a s)).max (ih fun i hi => hf i (Finset.mem_insert_of_mem hi))

/-- For a row of real entries, the largest absolute value kept at or above the floor is a positive real. -/
theorem amax_pos_real {n : ℕ} (x : Fin n → EReal) (hx : ∀ k, IsReal (x k)) :
    ∃ m : ℝ, 0 < m ∧ max eps (rowAmax x) = (m : EReal) := by
  obtain ⟨e, he, hee⟩ := eps_pos_real
  obtain ⟨m, hm⟩ : IsReal (max eps (rowAmax x)) := by
    unfold rowAmax; rw [ninf_eq]
    exact max_fold_real _ _ (fun k _ => absE_real (hx k)) ⟨e, hee⟩
  refine ⟨m, ?_, hm⟩
  have h1 : eps ≤ max eps (rowAmax x) := le_max_left _ _
  rw [hm, hee, EReal.coe_le_coe_iff] at h1
  exact lt_of_lt_of_le he h1

/-- For a row of real entries, the row's scale is a positive real. -/
theorem ascale_pos_real {n : ℕ} (x : Fin n → EReal) (hx : ∀ k, IsReal (x k)) :
    ∃ s : ℝ, 0 < s ∧ ascale x = (s : EReal) := by
  obtain ⟨m, hm, hmm⟩ := amax_pos_real x hx
  refine ⟨127 * (1 / m), by positivity, ?_⟩
  unfold ascale; rw [hmm, Ideal.div_coe hm.ne', q127_eq, ← EReal.coe_mul]

/-- A weight matrix's scale is real when the sum of absolute values and the count are real and the count is not zero. -/
theorem wscale_real {sumAbs : EReal} (hs : IsReal sumAbs) (c : ℝ) (hc : c ≠ 0) : IsReal (wscale sumAbs (c : EReal)) := by
  obtain ⟨e, _, hee⟩ := eps_pos_real
  obtain ⟨r, rfl⟩ := hs
  unfold wscale; rw [Ideal.div_coe hc, ← EReal.coe_mul, hee]
  exact IsReal.max ⟨e, rfl⟩ ⟨_, rfl⟩

/-- The first weight matrix's scale is real when its entries are. -/
theorem ws1_real (W1 : SW1.Idx → EReal) (h1 : ∀ i, IsReal (W1 i)) : IsReal (ws1 W1) := by
  unfold ws1; rw [cnt1_eq, lit0_eq]
  exact wscale_real (isReal_zero.add (isReal_sum _ _ fun i _ => absE_real (h1 i))) _ (by norm_num)

/-- The second weight matrix's scale is real when its entries are. -/
theorem ws2_real (W2 : SW2.Idx → EReal) (h2 : ∀ i, IsReal (W2 i)) : IsReal (ws2 W2) := by
  unfold ws2; rw [cnt2_eq, lit0_eq]
  exact wscale_real (isReal_zero.add (isReal_sum _ _ fun i _ => absE_real (h2 i))) _ (by norm_num)

/-! ## The two arrangements agree on real entries -/

/-- On real numbers x + (q − x) is q. -/
theorem ste_coe (x q : ℝ) : ste (x : EReal) (q : EReal) = (q : EReal) := by
  unfold ste; rw [← EReal.coe_sub, ← EReal.coe_add]; congr 1; ring

/-- A real row's entry, quantized and scaled back: the integer over the row's scale. -/
theorem entAct_eq {n : ℕ} (x : Fin n → EReal) (hx : ∀ k, IsReal (x k)) (s : ℝ) (hs : 0 < s) (hxs : ascale x = (s : EReal))
    (a : Fin n → ℝ) (ha : ∀ k, aint (x k) (ascale x) = (a k : EReal)) (k : Fin n) :
    entAct x k = ((a k * (1 / s) : ℝ) : EReal) := by
  obtain ⟨r, hr⟩ := hx k
  unfold entAct; rw [ha k, hxs, Ideal.div_coe hs.ne', ← EReal.coe_mul, hr, ste_coe]

/-- A real weight, quantized and scaled back by a real scale: the integer times the scale. -/
theorem entW_eq (w ws q : ℝ) (hq : wint (w : EReal) (ws : EReal) = (q : EReal)) :
    entW (w : EReal) (ws : EReal) = ((q * ws : ℝ) : EReal) := by
  unfold entW; rw [hq, ← EReal.coe_mul, ste_coe]

/-- The two sums in the real numbers: the common factor (1/s)·ws moved across the sum. -/
theorem lin_real {n : ℕ} (a q : Fin n → ℝ) (s ws : ℝ) :
    ∑ k, (a k * (1 / s)) * (q k * ws) = (∑ k, a k * q k) * (1 * (1 / s) * ws) := by
  rw [Finset.sum_mul]; exact Finset.sum_congr rfl fun k _ => by ring

/-- For a real row, real weights and a real weight scale, the entrywise sum of products is the factored one. -/
theorem entLin_eq_facLin {n : ℕ} (x w : Fin n → EReal) (ws : EReal) (hx : ∀ k, IsReal (x k)) (hw : ∀ k, IsReal (w k))
    (hws : IsReal ws) : entLin x w ws = facLin x (fun k => wint (w k) ws) ws := by
  obtain ⟨s, hs, hxs⟩ := ascale_pos_real x hx
  obtain ⟨wsr, rfl⟩ := hws
  choose a ha using fun k => aint_real (x k) (ascale x)
  choose wr hwr using hw
  choose q hq using fun k => wint_real (w k) (wsr : EReal)
  have hA : ∀ k, entAct x k = ((a k * (1 / s) : ℝ) : EReal) := entAct_eq x hx s hs hxs a ha
  have hW : ∀ k, entW (w k) (wsr : EReal) = ((q k * wsr : ℝ) : EReal) := fun k => by
    have h := hq k; rw [hwr k] at h ⊢; exact entW_eq _ _ _ h
  unfold entLin facLin
  simp only [hA, hW, ha, hq]
  rw [hxs, lit1_eq, Ideal.div_coe hs.ne', ← EReal.coe_one]
  simp only [← EReal.coe_mul, ← Cert.Lib.CoeSum.coe_sum]
  exact congrArg _ (lin_real a q s wsr)

/-- The factored sum of products is real for a real row, real weight integers and a real weight scale. -/
theorem facLin_real {n : ℕ} (x wq : Fin n → EReal) (ws : EReal) (hx : ∀ k, IsReal (x k)) (hq : ∀ k, IsReal (wq k))
    (hws : IsReal ws) : IsReal (facLin x wq ws) := by
  obtain ⟨s, hs, hxs⟩ := ascale_pos_real x hx
  unfold facLin
  refine (isReal_sum _ _ fun k _ => (aint_real _ _).mul (hq k)).mul (IsReal.mul ?_ hws)
  rw [hxs, Ideal.div_coe hs.ne', lit1_eq, ← EReal.coe_one, ← EReal.coe_mul]; exact ⟨_, rfl⟩

/-- a · (1 / (1 + exp(−a))) with the ones as literals is a · logistic a, for every a. -/
theorem entSilu_eq (g : EReal) : entSilu g = g * Ideal.logistic g := by
  unfold entSilu; rw [lit1_eq]; rfl

/-- The logistic function of a real number is real. -/
theorem logistic_real {g : EReal} (hg : IsReal g) : IsReal (Ideal.logistic g) := by
  obtain ⟨r, rfl⟩ := hg; exact ⟨_, Ideal.logistic_coe r⟩

/-- gate · logistic(gate) · up, in the factored arrangement, is real on real data. -/
theorem facH_real {n : ℕ} (x wg wu : Fin n → EReal) (ws : EReal) (hx : ∀ k, IsReal (x k)) (hg : ∀ k, IsReal (wg k))
    (hu : ∀ k, IsReal (wu k)) (hws : IsReal ws) : IsReal (facH x wg wu ws) := by
  unfold facH
  have h := facLin_real x wg ws hx hg hws
  exact (h.mul (logistic_real h)).mul (facLin_real x wu ws hx hu hws)

/-- The entrywise gated product is the factored one, on real data. -/
theorem entH_eq_facH {n : ℕ} (x wg wu : Fin n → EReal) (ws : EReal) (hx : ∀ k, IsReal (x k)) (hg : ∀ k, IsReal (wg k))
    (hu : ∀ k, IsReal (wu k)) (hws : IsReal ws) :
    entH x wg wu ws = facH x (fun k => wint (wg k) ws) (fun k => wint (wu k) ws) ws := by
  unfold entH facH
  rw [entSilu_eq, entLin_eq_facLin x wg ws hx hg hws, entLin_eq_facLin x wu ws hx hu hws]

/-! ## The whole function -/

theorem fac_eq_ent (A0 : SA.Idx → EReal) (W1 : SW1.Idx → EReal) (W2 : SW2.Idx → EReal)
    (h0 : ∀ i, ∃ r : ℝ, A0 i = (r : EReal)) (h1 : ∀ i, ∃ r : ℝ, W1 i = (r : EReal)) (h2 : ∀ i, ∃ r : ℝ, W2 i = (r : EReal))
    (b : Fin 2) (t : Fin 4096) (j : Fin 2048) : facOut A0 W1 W2 b t j = entOut A0 W1 W2 b t j := by
  have hw1 : IsReal (ws1 W1) := ws1_real W1 h1
  have hw2 : IsReal (ws2 W2) := ws2_real W2 h2
  have hrow : (fun f : Fin 8192 => entH (fun k : Fin 2048 => A0 (ValueIdx.ix3 b t k)) (fun k : Fin 2048 => W1 (ValueIdx.ix2 (loRow f) k))
        (fun k : Fin 2048 => W1 (ValueIdx.ix2 (hiRow f) k)) (ws1 W1))
      = fun f : Fin 8192 => facH (fun k : Fin 2048 => A0 (ValueIdx.ix3 b t k)) (fun k : Fin 2048 => wint (W1 (ValueIdx.ix2 (loRow f) k)) (ws1 W1))
        (fun k : Fin 2048 => wint (W1 (ValueIdx.ix2 (hiRow f) k)) (ws1 W1)) (ws1 W1) :=
    funext fun f => entH_eq_facH _ _ _ _ (fun k => h0 _) (fun k => h1 _) (fun k => h1 _) hw1
  unfold facOut entOut
  rw [hrow]
  exact (entLin_eq_facLin _ _ _
    (fun f => facH_real _ _ _ _ (fun k => h0 _) (fun k => wint_real _ _) (fun k => wint_real _ _) hw1) (fun f => h2 _) hw2).symm

end Cert.BitMlp

end
-- ==== Proof.LibFiniteEntries.lean ====
/-
  One conjunct of a finiteness precondition read back. The test `jnp.all(jnp.abs(x) < inf)` of a float array x prints
  as a reduction by `and`, down to a single truth value, of the comparison of |x| with a splat of the word of +inf.
  On the extended reals |x| is max x (-x), the word 0x7F800000 is +inf, and max x (-x) < +inf says x is neither
  infinity: a real number. So where the test's value is 1, every entry of x is the coercion of a real. Any shape, any
  reduced axes, any scalar shape for the splat.
-/
import Idealize.ShloMosaic.PureOps.Ideal
import Idealize.ShloMosaic.PureOps.Ideal.Laws
import Idealize.ShloMosaic.Lib.ReduceAll

noncomputable section

namespace Cert.Lib.FiniteEntries

open Idealize.ShloMosaic

/-- An extended real whose absolute value compares below +inf is a real number. -/
theorem real_of_abs_lt_top (x : EReal) (h : Ideal.cmp .olt (max x (-x)) ⊤ = 1#1) : ∃ r : ℝ, x = (r : EReal) := by
  have hlt : max x (-x) < ⊤ := by
    by_contra hn
    simp [Ideal.cmp, hn] at h
  have h1 : x ≠ ⊤ := fun e => by rw [e] at hlt; simp at hlt
  have h2 : x ≠ ⊥ := fun e => by rw [e] at hlt; simp at hlt
  exact ⟨x.toReal, (EReal.coe_toReal h1 h2).symm⟩

/-- The word of +inf in binary32 denotes the top element. -/
theorem ofBits_inf : Ideal.ofBits .f32 0x7F800000#32 = ⊤ := by simp [Ideal.ofBits, Ideal.ieee]

/-- Where `all(|x| < inf)` is 1, every entry of x is real. -/
theorem real_of_all {s z t u : Shape} {axes : List (Fin s.rank)} [Subsingleton t.Idx] (x : FVec Ideal s .f32)
    (dims : Fin z.rank → Fin s.rank) (hb : z.BroadcastsInDim s dims) (init : u.Idx → BitVec 1) (h : s.ReducesTo axes t)
    (hu : 0 < u.numel) (j : t.Idx)
    (e : Host.reduce IntOp.andi
      (cmpf (F := Ideal) .olt (Host.absf x) (broadcastInDim s dims hb (constant (F := Ideal) z .f32 0x7F800000#32))) init h hu j = 1#1)
    (i : s.Idx) : ∃ r : ℝ, x i = (r : EReal) := by
  have hi := Host.reduce_andi_all _ init h hu j e i
  refine real_of_abs_lt_top (x i) ?_
  rw [← ofBits_inf]
  exact hi

end Cert.Lib.FiniteEntries

end
-- ==== Proof.Finite.lean ====
/-
  The finiteness precondition read back: where all(|x| < inf) holds of each of the three argument arrays, and the
  three truth values are joined by "and", every entry of every array is a real number.
-/
import proofs.«128026_j52905407152482_2_alg».proof.Defs
import proofs.«128026_j52905407152482_2_alg».proof.Proof.Gen.Pre_finite_inputs
import proofs.«128026_j52905407152482_2_alg».proof.Proof.LibFiniteEntries
import Idealize.ShloMosaic.Lib.Affine
import Idealize.ShloMosaic.Lib.ValueIdx

noncomputable section

namespace Cert.BitMlp.Finite

open Idealize.ShloMosaic Idealize.SL.Sem

/-- Where the conjunction of the three tests is 1, every entry of the three arrays is real. -/
theorem real_args [hP : Cert.Pre_finite_inputs.Facts]
    (a0 : FVec Ideal Cert.Pre_finite_inputs.S2x4096x2048 .f32) (a1 : FVec Ideal Cert.Pre_finite_inputs.S16384x2048 .f32)
    (a2 : FVec Ideal Cert.Pre_finite_inputs.S2048x8192 .f32)
    (h : Cert.Pre_finite_inputs.fn (F := Ideal) a0 a1 a2 = (fun _ => 1#1)) :
    (∀ i, ∃ r : ℝ, a0 i = (r : EReal)) ∧ (∀ i, ∃ r : ℝ, a1 i = (r : EReal)) ∧ (∀ i, ∃ r : ℝ, a2 i = (r : EReal)) := by
  -- the index set of a scalar has one element
  haveI : Subsingleton Cert.Pre_finite_inputs.S_.Idx := ⟨fun a b => funext fun d => d.elim0⟩
  have h' := congrFun h ValueIdx.ix0
  dsimp only [Cert.Pre_finite_inputs.fn, andi] at h'
  obtain ⟨h12, h3⟩ := IntOp.andi_eq_one.1 h'
  obtain ⟨h1, h2⟩ := IntOp.andi_eq_one.1 h12
  exact ⟨Cert.Lib.FiniteEntries.real_of_all a0 _ _ _ _ _ _ h1, Cert.Lib.FiniteEntries.real_of_all a1 _ _ _ _ _ _ h2,
    Cert.Lib.FiniteEntries.real_of_all a2 _ _ _ _ _ _ h3⟩

end Cert.BitMlp.Finite

end
-- ==== Proof.Blocks.lean ====
/-
  Shapes shared by the four stages of the kernel: a row of a matrix; a sum of products scaled once; the gating.
  The factored arrangement of the specification is these, by definition.
-/
import proofs.«128026_j52905407152482_2_alg».proof.Proof.Spec

noncomputable section

namespace Cert.BitMlp

open Idealize.ShloMosaic Idealize.ShloMosaic.ValueIdx

/-- Row p of a matrix. -/
def rowOf {M N : ℕ} (a : (⟨2, ![M, N]⟩ : Shape).Idx → EReal) (p : Fin M) : Fin N → EReal := fun k => a (ix2 p k)

/-- The sum of products of two rows, times (1 / s) · ws. -/
def scaledDot {n : ℕ} (xq wq : Fin n → EReal) (s ws : EReal) : EReal := (∑ k, xq k * wq k) * (Ideal.div lit1 s * ws)

/-- g · logistic g · u. -/
def gated (g u : EReal) : EReal := (g * Ideal.logistic g) * u

theorem facLin_eq {n : ℕ} (x wq : Fin n → EReal) (ws : EReal) :
    facLin x wq ws = scaledDot (fun k => aint (x k) (ascale x)) wq (ascale x) ws := rfl

theorem facH_eq {n : ℕ} (x wg wu : Fin n → EReal) (ws : EReal) :
    facH x wg wu ws = gated (facLin x wg ws) (facLin x wu ws) := rfl

end Cert.BitMlp

end
-- ==== Proof.LibLastAxisMax.lean ====
/-
  The maximum along the last axis of a matrix, read at a row, on the extended reals: the device's lane maximum and the
  host's reduction by a maximum are both the running maximum, from the starting value, of the row's entries.
  Stated for any extents.
-/
import Idealize.ShloMosaic.Lib.ValueIdx
import Idealize.ShloMosaic.Lib.Pipeline.Value
import Idealize.ShloMosaic.PureOps.Ideal.Laws

namespace Cert.Lib.LastAxisMax

open Idealize.ShloMosaic Idealize.ShloMosaic.ValueIdx

/-- Over row i of a matrix reduced along its columns, putting column k back gives the index (i, k). -/
theorem lift_row {m n : ℕ} (h : (⟨2, ![m, n]⟩ : Shape).Reduces [1] (⟨1, ![m]⟩ : Shape)) (i : Fin m)
    (k : Fin ((⟨2, ![m, n]⟩ : Shape).size 1)) : h.lift (ix1 i) k = ix2 i (⟨k.val, k.isLt⟩ : Fin n) := by
  funext c; apply Fin.ext
  fin_cases c <;> rfl

/-- The device's maximum along the columns of a matrix, at row i: the running maximum, from the accumulator's value, of
    the entries (i, k). -/
theorem max_cols_apply {m n : ℕ} (src : FVec Ideal ⟨2, ![m, n]⟩ .f32) (acc : BitVec 32)
    (h : (⟨2, ![m, n]⟩ : Shape).Reduces [1] (⟨1, ![m]⟩ : Shape)) (hφ : FKind.Formats .f32)
    (hacc : acc = FKind.maximumf.neutral .f32 hφ) (i : Fin m) :
    multiReduction .maximumf [1] ⟨1, ![m]⟩ src acc h hφ hacc (ix1 i)
      = (Finset.univ : Finset (Fin n)).fold max (Ideal.ofBits .f32 acc) (fun k => src (ix2 i k)) := by
  refine (Ideal.multiReduction_maximumf_single src acc h hφ hacc (ix1 i)).trans ?_
  exact congrArg (fun f => Finset.fold max (Ideal.ofBits .f32 acc) f (Finset.univ : Finset (Fin n)))
    (funext fun k => congrArg src (lift_row h i k))

/-- The host's reduction by a maximum along the columns of a matrix, at row i: the running maximum, from the initial
    value, of the entries (i, k). -/
theorem hostMax_cols_apply {m n : ℕ} {u : Shape} (x : FVec Ideal ⟨2, ![m, n]⟩ .f32) (init : u.Idx → Ideal .f32)
    (h' : (⟨2, ![m, n]⟩ : Shape).ReducesTo [1] (⟨1, ![m]⟩ : Shape))
    (h : (⟨2, ![m, n]⟩ : Shape).Reduces [1] (⟨1, ![m]⟩ : Shape)) (hu : 0 < u.numel) (i : Fin m) :
    Host.reduce FloatOps.maximumf x init h' hu (ix1 i)
      = (Finset.univ : Finset (Fin n)).fold max (init (Shape.Idx.first hu)) (fun k => x (ix2 i k)) := by
  refine (Host.reduce_eq_fold_single FloatOps.maximumf x init h' h hu (ix1 i)).trans ?_
  exact congrArg (fun f => Finset.fold max (init (Shape.Idx.first hu)) f (Finset.univ : Finset (Fin n)))
    (funext fun k => congrArg x (lift_row h i k))

end Cert.Lib.LastAxisMax
-- ==== Proof.LibKeepdimsLayout.lean ====
/-
  Layout operations on a column that keeps its reduced axis as a unit axis, read at an index given by coordinates,
  for any extents: a vector of length a viewed as an a × 1 column, and an a × 1 column repeated over b columns.
  (The transpose of an a × 1 column to a 1 × a row and a 1 × b row repeated over a rows are the library's
  `transpose_ix2_apply` and `broadcastTo_1b_ab_apply`.)
-/
import Idealize.ShloMosaic.Lib.ValueIdx
import Idealize.ShloMosaic.Lib.ValueLayout
import Idealize.ShloMosaic.Lib.Pipeline.Value

namespace Cert.KeepdimsLayout

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.KeepdimsLayout
-- ==== Proof.Region0.lean ====
/-
  The first stage: every row of the activation matrix [8192, 2048] is quantized by its own scale. One grid point handles
  a block of 1024 rows: from the block it computes the column of the rows' scales (127 over the row's largest absolute
  value, kept above the floor) and the rounded, clamped products. A block's rows are whole rows of the matrix, so what
  the point writes back is the block of two whole-matrix functions, quantRows and scaleRows; the eight blocks tile the
  rows, so after the stage the two output arrays are those functions.
-/
import proofs.«128026_j52905407152482_2_alg».proof.Proof.Gen.KernelIdeal.Frame
import proofs.«128026_j52905407152482_2_alg».proof.Proof.Blocks
import proofs.«128026_j52905407152482_2_alg».proof.Proof.LibLastAxisMax
import proofs.«128026_j52905407152482_2_alg».proof.Proof.LibKeepdimsLayout
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section
namespace Cert.KernelIdeal.Quant
open Cert.KernelIdeal Cert.KernelIdeal.Gen Idealize.ShloMosaic Idealize.ShloMosaic.ValueIdx Cert.BitMlp Cert.Lib.LastAxisMax Cert.KeepdimsLayout
open Idealize.ShloMosaic.TcCoe Idealize.SL.Sem

/-- Every entry of a matrix quantized by its own row's scale. -/
def quantRows (a : S8192x2048.Idx → EReal) : S8192x2048.Idx → EReal := fun i => aint (a i) (ascale (rowOf a (i 0)))
/-- Every row's scale, as a column. -/
def scaleRows (a : S8192x2048.Idx → EReal) : S8192x1.Idx → EReal := fun i => ascale (rowOf a (i 0))

theorem pay2_at (v0 : Vec Ideal S1024x2048 .f32) (p : Fin 1024) (u : Fin 1) :
    k0_pay2 (F := Ideal) v0 (ix2 p u) = ascale (fun k : Fin 2048 => v0 (ix2 p k)) := by
  unfold k0_pay2 k0_pay1
  dsimp only
  rw [divf_apply, maximumf_apply, broadcast_apply, broadcast_apply]
  refine congrArg (fun z => Ideal.div (Ideal.ofBits .f32 0x42FE0000#32) (max (Ideal.ofBits .f32 0x3727C5AC#32) z)) ?_
  refine (shapeCast_a_a1_apply _ shapeCasts_S1024_S1024x1 p u).trans ?_
  refine (max_cols_apply _ _ reduces_S1024x2048_S1024 _ _ p).trans ?_
  rw [shapeCast_self]
  rfl

theorem pay3_at (v0 : Vec Ideal S1024x2048 .f32) (p : Fin 1024) (q : Fin 2048) :
    k0_pay3 (F := Ideal) v0 (ix2 p q) = aint (v0 (ix2 p q)) (ascale (fun k : Fin 2048 => v0 (ix2 p k))) := by
  unfold k0_pay3
  rw [truncf_apply, minimumf_apply, maximumf_apply, broadcast_apply, broadcast_apply]
  refine congrArg (fun z => min (Ideal.ofBits .f32 0x42FE0000#32) (max (Ideal.ofBits .f32 0xC3000000#32) (rnd z))) ?_
  rw [mulf_apply, broadcastTo_a1_ab_apply, pay2_at]
  unfold k0_pay1
  rw [shapeCast_self]

/-- A block of 1024 rows starting at row base: its quantized entries are the whole matrix's. -/
theorem pay3_block (x0 : Vec Ideal S1024x2048 .f32) (A : S8192x2048.Idx → EReal) (base : ℕ) (hb : base + 1024 ≤ 8192)
    (hx : ∀ (p : Fin 1024) (k : Fin 2048), x0 (ix2 p k) = A (ix2 (⟨base + p.val, by have := p.isLt; omega⟩ : Fin 8192) k))
    (p : Fin 1024) (q : Fin 2048) :
    k0_pay3 (F := Ideal) x0 (ix2 p q) = quantRows A (ix2 (⟨base + p.val, by have := p.isLt; omega⟩ : Fin 8192) q) := by
  rw [pay3_at]
  show _ = aint (A (ix2 _ q)) (ascale (rowOf A _))
  rw [hx p q]
  exact congrArg (fun f => aint _ (ascale f)) (funext fun k => hx p k)

theorem pay2_block (x0 : Vec Ideal S1024x2048 .f32) (A : S8192x2048.Idx → EReal) (base : ℕ) (hb : base + 1024 ≤ 8192)
    (hx : ∀ (p : Fin 1024) (k : Fin 2048), x0 (ix2 p k) = A (ix2 (⟨base + p.val, by have := p.isLt; omega⟩ : Fin 8192) k))
    (p : Fin 1024) (u : Fin 1) :
    k0_pay2 (F := Ideal) x0 (ix2 p u) = scaleRows A (ix2 (⟨base + p.val, by have := p.isLt; omega⟩ : Fin 8192) u) := by
  rw [pay2_at]
  show _ = ascale (rowOf A _)
  exact congrArg ascale (funext fun k => hx p k)

/-! ## From blocks to arrays: region 0 -/

section Arrays
variable (V : (c : Dev nD) → (b : Ref sig .tc) → Buf (Elt Ideal) ((c : Thread nD τ).loc b))

theorem hz2 : (![0, 0] : Fin 2 → Nat) = fun _ => 0 := funext fun a => by fin_cases a <;> rfl

/-- The printed index maps over the grid: all three windows move down the rows together, one block per point. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 ∧ t.val < 8 :=
  (by decide +kernel : ∀ t : Fin grid0.N, _)

/-- The input block at point t, read at (p, k), is the array at row 1024 t + p. -/
theorem iblk0_at (c : Dev nD) (t : Fin cfg0.N) (p : Fin 1024) (k : Fin 2048) :
    iblk0 V c 0 t (ix2 p k) = V c main_v0 (ix2 (⟨t.val * 1024 + p.val, by have := p.isLt; have := (idx_facts0 t).2.2.2.2.2.2; omega⟩ : Fin 8192) k) := by
  obtain ⟨e0, e1, -⟩ := idx_facts0 t
  show V c main_v0 (((cfg0.win 0).blk t).view.emb (ix2 p k)) = _
  refine congrArg (V c main_v0) ?_
  funext a; apply Fin.ext
  match a with
  | ⟨0, _⟩ => show win0_0.index t (0 : Fin 2) * 1024 + 1 * p.val = t.val * 1024 + p.val; omega
  | ⟨1, _⟩ => show win0_0.index t (1 : Fin 2) * 2048 + 1 * k.val = k.val; omega

/-- What point t writes back through window 1 is block t of the quantized matrix. -/
theorem flushed0_1_eq (c : Dev nD) (t : Fin cfg0.N) :
    (dat0 V c).flushed 1 t = ((cfg0.win 1).blk t).view.read (Elt Ideal) (quantRows (V c main_v0)) := by
  show (cfg0.win 1).cut (grid0.coords t) ((dat0 V c).after 1 t) = _
  rw [after0_1]
  unfold out0_1
  rw [View.canon_unit_zero hz2]
  simp only [View.ld_unit_zero (S := S1024x2048) hz2]
  obtain ⟨-, -, e2, e3, -, -, ht⟩ := idx_facts0 t
  funext j
  have hj : j = ix2 (⟨(j 0).val, (j 0).isLt⟩ : Fin 1024) (⟨(j 1).val, (j 1).isLt⟩ : Fin 2048) :=
    funext fun a => Fin.ext (by match a with | ⟨0, _⟩ => rfl | ⟨1, _⟩ => rfl)
  show k0_pay3 (iblk0 V c 0 t) j = quantRows (V c main_v0) (((cfg0.win 1).blk t).view.emb j)
  refine (congrArg (k0_pay3 (iblk0 V c 0 t)) hj).trans ?_
  refine (pay3_block (iblk0 V c 0 t) (V c main_v0) (t.val * 1024) (by omega) (fun p k => iblk0_at V c t p k) _ _).trans ?_
  refine congrArg (quantRows (V c main_v0)) ?_
  funext a; apply Fin.ext
  match a with
  | ⟨0, _⟩ => show t.val * 1024 + (j 0).val = win0_1.index t (0 : Fin 2) * 1024 + 1 * (j 0).val; omega
  | ⟨1, _⟩ => show (j 1).val = win0_1.index t (1 : Fin 2) * 2048 + 1 * (j 1).val; omega

/-- What point t writes back through window 2 is block t of the column of row scales. -/
theorem flushed0_2_eq (c : Dev nD) (t : Fin cfg0.N) :
    (dat0 V c).flushed 2 t = ((cfg0.win 2).blk t).view.read (Elt Ideal) (scaleRows (V c main_v0)) := by
  show (cfg0.win 2).cut (grid0.coords t) ((dat0 V c).after 2 t) = _
  rw [after0_2]
  unfold out0_2
  rw [View.canon_unit_zero hz2]
  simp only [View.ld_unit_zero (S := S1024x2048) hz2]
  obtain ⟨-, -, -, -, e4, e5, ht⟩ := idx_facts0 t
  funext j
  have hj : j = ix2 (⟨(j 0).val, (j 0).isLt⟩ : Fin 1024) (⟨(j 1).val, (j 1).isLt⟩ : Fin 1) :=
    funext fun a => Fin.ext (by match a with | ⟨0, _⟩ => rfl | ⟨1, _⟩ => rfl)
  show k0_pay2 (iblk0 V c 0 t) j = scaleRows (V c main_v0) (((cfg0.win 2).blk t).view.emb j)
  refine (congrArg (k0_pay2 (iblk0 V c 0 t)) hj).trans ?_
  refine (pay2_block (iblk0 V c 0 t) (V c main_v0) (t.val * 1024) (by omega) (fun p k => iblk0_at V c t p k) _ _).trans ?_
  refine congrArg (scaleRows (V c main_v0)) ?_
  funext a; apply Fin.ext
  match a with
  | ⟨0, _⟩ => show t.val * 1024 + (j 0).val = win0_2.index t (0 : Fin 2) * 1024 + 1 * (j 0).val; omega
  | ⟨1, _⟩ => show (j 1).val = win0_2.index t (1 : Fin 2) * 1 + 1 * (j 1).val; omega

theorem mem_blk0_1 (t : Fin cfg0.N) (i : S8192x2048.Idx) :
    i ∈ ((cfg0.win 1).blk t).view.set ↔ ∀ a : Fin 2, win0_1.index t a * S1024x2048.size a ≤ (i a).val ∧ (i a).val < win0_1.index t a * S1024x2048.size a + S1024x2048.size a := by
  show i ∈ ((View.whole main_v23_0).slice (win0_1.rect t)).set ↔ _
  rw [View.set_slice_whole, Rect.mem_set_unit]
  exact Iff.rfl

theorem mem_blk0_2 (t : Fin cfg0.N) (i : S8192x1.Idx) :
    i ∈ ((cfg0.win 2).blk t).view.set ↔ ∀ a : Fin 2, win0_2.index t a * S1024x1.size a ≤ (i a).val ∧ (i a).val < win0_2.index t a * S1024x1.size a + S1024x1.size a := by
  show i ∈ ((View.whole main_v23_1).slice (win0_2.rect t)).set ↔ _
  rw [View.set_slice_whole, Rect.mem_set_unit]
  exact Iff.rfl

/-- The point whose block holds row r. -/
def pt0 (r : ℕ) (hr : r < 8192) : Fin cfg0.N := ⟨r / 1024, by rw [show cfg0.N = 8 from N_0]; omega⟩

/-- After the region the first output array is the quantized matrix. -/
theorem final0_1 (c : Dev nD) : (dat0 V c).arrAt 1 cfg0.N = quantRows (V c main_v0) := by
  refine (dat0 V c).arrAt_eq_of_cover 1 (quantRows (V c main_v0)) (fun t _ => flushed0_1_eq V c t) fun i => ?_
  have hi0 : (i 0).val < 8192 := (i 0).isLt
  have hi1 : (i 1).val < 2048 := (i 1).isLt
  refine ⟨pt0 (i 0).val hi0, flush0_1 _, ?_⟩
  rw [mem_blk0_1]
  obtain ⟨-, -, e2, e3, -, -, -⟩ := idx_facts0 (pt0 (i 0).val hi0)
  have hv : (pt0 (i 0).val hi0).val = (i 0).val / 1024 := rfl
  intro a
  match a with
  | ⟨0, _⟩ => show win0_1.index _ (0 : Fin 2) * 1024 ≤ (i 0).val ∧ (i 0).val < win0_1.index _ (0 : Fin 2) * 1024 + 1024; omega
  | ⟨1, _⟩ => show win0_1.index _ (1 : Fin 2) * 2048 ≤ (i 1).val ∧ (i 1).val < win0_1.index _ (1 : Fin 2) * 2048 + 2048; omega

/-- After the region the second output array is the column of row scales. -/
theorem final0_2 (c : Dev nD) : (dat0 V c).arrAt 2 cfg0.N = scaleRows (V c main_v0) := by
  refine (dat0 V c).arrAt_eq_of_cover 2 (scaleRows (V c main_v0)) (fun t _ => flushed0_2_eq V c t) fun i => ?_
  have hi0 : (i 0).val < 8192 := (i 0).isLt
  have hi1 : (i 1).val < 1 := (i 1).isLt
  refine ⟨pt0 (i 0).val hi0, flush0_2 _, ?_⟩
  rw [mem_blk0_2]
  obtain ⟨-, -, -, -, e4, e5, -⟩ := idx_facts0 (pt0 (i 0).val hi0)
  have hv : (pt0 (i 0).val hi0).val = (i 0).val / 1024 := rfl
  intro a
  match a with
  | ⟨0, _⟩ => show win0_2.index _ (0 : Fin 2) * 1024 ≤ (i 0).val ∧ (i 0).val < win0_2.index _ (0 : Fin 2) * 1024 + 1024; omega
  | ⟨1, _⟩ => show win0_2.index _ (1 : Fin 2) * 1 ≤ (i 1).val ∧ (i 1).val < win0_2.index _ (1 : Fin 2) * 1 + 1; omega

end Arrays

end Cert.KernelIdeal.Quant
end
-- ==== Proof.LibTransposedProduct.lean ====
/-
  A matrix product with the right factor transposed, read at one entry.

  For matrices `A : [M, K]` and `B : [N, K]` the contraction of the LAST axis of both — `A · Bᵀ`, the einsum
  `mk,nk->mn` — has entry `(i, j)` equal to `∑ k < K, A (i, k) * B (j, k)`.  At the ideal instance both the matrix
  unit's product into a zero accumulator and the host's `dot_general` are that sum, for ANY record of dimension
  numbers whose six axis lists are those of `A · Bᵀ` (contracting `[1]` and `[1]`, free `[0]` and `[0]`, no batch
  axis), at any extents `M`, `K`, `N` and any two float formats of the factors; `abt A B` names the whole product as
  one array, which both operations are.
-/
import Idealize.ShloMosaic.Lib.ValueIdx
import Idealize.ShloMosaic.PureOps.Ideal.Laws

noncomputable section

namespace Idealize.ShloMosaic.TransposedProduct

open Idealize.ShloMosaic Idealize.ShloMosaic.ValueIdx

variable {M K N : Nat}

/-- The axis lists of `A · Bᵀ`: both factors contracted on their last axis, their first axes free, no batch axis. -/
structure IsABt (d : DotDims ⟨2, ![M, K]⟩ ⟨2, ![N, K]⟩ ⟨2, ![M, N]⟩) : Prop where
  lc : d.lhsContracting = [1]
  rc : d.rhsContracting = [1]
  ln : d.lhsNonContracting = [0]
  rn : d.rhsNonContracting = [0]
  lb : d.lhsBatch = []
  rb : d.rhsBatch = []

variable {d : DotDims ⟨2, ![M, K]⟩ ⟨2, ![N, K]⟩ ⟨2, ![M, N]⟩}

/-- The contracted shape has one axis … -/
theorem IsABt.rank_contr (h : IsABt d) : d.contr.rank = 1 := by
  rw [d.rank_contr, h.lc]; rfl

/-- … of extent `K`. -/
theorem IsABt.size_contr (h : IsABt d) : d.contr.size ⟨0, by rw [h.rank_contr]; exact Nat.one_pos⟩ = K := by
  have e := d.size_contr 0 (by rw [h.lc]; exact Nat.one_pos)
  rw [e]
  have : d.lhsContracting[0]'(by rw [h.lc]; exact Nat.one_pos) = (1 : Fin 2) := by
    simp [h.lc]
  rw [this]; rfl

/-- The left factor is read at row `i` of the entry … -/
theorem IsABt.lhs_row (h : IsABt d) (j : (⟨2, ![M, N]⟩ : Shape).Idx) (q : d.contr.Idx) :
    (d.lhsIdx j q 0).val = (j 0).val := by
  obtain ⟨lc, rc, ln, rn, lb, rb, wf⟩ := d
  obtain ⟨h1, h2, h3, h4, h5, h6⟩ := h
  simp only at h1 h2 h3 h4 h5 h6
  subst h1 h2 h3 h4 h5 h6
  unfold DotDims.lhsIdx
  rw [dif_neg List.not_mem_nil, dif_pos (List.mem_singleton.mpr rfl)]
  rfl

/-- … and at the contraction's position along its columns. -/
theorem IsABt.lhs_col (h : IsABt d) (j : (⟨2, ![M, N]⟩ : Shape).Idx) (q : d.contr.Idx) :
    (d.lhsIdx j q 1).val = (q ⟨0, by rw [h.rank_contr]; exact Nat.one_pos⟩).val :=
  d.lhsIdx_val_of_single h.lc j q

/-- The right factor is read at the row the entry's COLUMN names … -/
theorem IsABt.rhs_row (h : IsABt d) (j : (⟨2, ![M, N]⟩ : Shape).Idx) (q : d.contr.Idx) :
    (d.rhsIdx j q 0).val = (j 1).val := by
  obtain ⟨lc, rc, ln, rn, lb, rb, wf⟩ := d
  obtain ⟨h1, h2, h3, h4, h5, h6⟩ := h
  simp only at h1 h2 h3 h4 h5 h6
  subst h1 h2 h3 h4 h5 h6
  unfold DotDims.rhsIdx
  rw [dif_neg List.not_mem_nil, dif_pos (List.mem_singleton.mpr rfl)]
  rfl

/-- … and at the contraction's position along its columns. -/
theorem IsABt.rhs_col (h : IsABt d) (j : (⟨2, ![M, N]⟩ : Shape).Idx) (q : d.contr.Idx) :
    (d.rhsIdx j q 1).val = (q ⟨0, by rw [h.rank_contr]; exact Nat.one_pos⟩).val :=
  d.rhsIdx_val_of_single h.rc j q

/-- The contraction's sum over its one axis is the sum over `k < K` of the products of row `i` of `A` with row `j`
    of `B`. -/
theorem IsABt.sum_contr {φ₁ φ₂ : FTy} (h : IsABt d) (A : FVec Ideal ⟨2, ![M, K]⟩ φ₁) (B : FVec Ideal ⟨2, ![N, K]⟩ φ₂)
    (i : Fin M) (j : Fin N) :
    (∑ q : d.contr.Idx, A (d.lhsIdx (ix2 i j) q) * B (d.rhsIdx (ix2 i j) q) : EReal)
      = ∑ k : Fin K, A (ix2 i k) * B (ix2 j k) := by
  rw [← Equiv.sum_comp (contrEquiv1 d K h.rank_contr h.size_contr).symm]
  refine Finset.sum_congr rfl fun k _ => ?_
  have hk := contrEquiv1_symm_val d K h.rank_contr h.size_contr k
  have el : d.lhsIdx (ix2 i j) ((contrEquiv1 d K h.rank_contr h.size_contr).symm k) = ix2 i k :=
    funext fun a => Fin.ext (by
      match a with
      | ⟨0, _⟩ => exact h.lhs_row _ _
      | ⟨1, _⟩ => exact (h.lhs_col _ _).trans hk)
  have er : d.rhsIdx (ix2 i j) ((contrEquiv1 d K h.rank_contr h.size_contr).symm k) = ix2 j k :=
    funext fun a => Fin.ext (by
      match a with
      | ⟨0, _⟩ => exact h.rhs_row _ _
      | ⟨1, _⟩ => exact (h.rhs_col _ _).trans hk)
  rw [el, er]

/-- THE MATRIX UNIT's product into the zero accumulator, at entry `(i, j)`. -/
theorem matmul_zero_apply {φ₁ φ₂ : FTy} (h : IsABt d) (prec : Option ContractPrecision)
    (A : FVec Ideal ⟨2, ![M, K]⟩ φ₁) (B : FVec Ideal ⟨2, ![N, K]⟩ φ₂) (i : Fin M) (j : Fin N) :
    matmul d prec A B (constant (F := Ideal) ⟨2, ![M, N]⟩ .f32 0x00000000#32) (ix2 i j)
      = ∑ k : Fin K, A (ix2 i k) * B (ix2 j k) :=
  (Ideal.matmul_constant_zero_apply d prec A B (ix2 i j)).trans (h.sum_contr A B i j)

/-- THE HOST's `dot_general`, at entry `(i, j)`. -/
theorem dotGeneral_apply {φ₁ φ₂ : FTy} (h : IsABt d) (prec : Option ContractPrecision)
    (A : FVec Ideal ⟨2, ![M, K]⟩ φ₁) (B : FVec Ideal ⟨2, ![N, K]⟩ φ₂) (i : Fin M) (j : Fin N) :
    Host.dotGeneral d prec A B (ix2 i j) = ∑ k : Fin K, A (ix2 i k) * B (ix2 j k) := by
  simp only [Host.dotGeneral]
  exact (Ideal.dotGeneral_apply d prec _ A B (ix2 i j)).trans (h.sum_contr A B i j)

/-! ## The whole product as one array -/

/-- `A · Bᵀ` as a function of the two matrices: entry `(i, j)` is `∑ k < K, A (i, k) * B (j, k)`. -/
def abt (A : (⟨2, ![M, K]⟩ : Shape).Idx → EReal) (B : (⟨2, ![N, K]⟩ : Shape).Idx → EReal) :
    (⟨2, ![M, N]⟩ : Shape).Idx → EReal :=
  fun j => ∑ k : Fin K, A (ix2 (j 0) k) * B (ix2 (j 1) k)

theorem abt_apply (A : (⟨2, ![M, K]⟩ : Shape).Idx → EReal) (B : (⟨2, ![N, K]⟩ : Shape).Idx → EReal) (i : Fin M) (j : Fin N) :
    abt A B (ix2 i j) = ∑ k : Fin K, A (ix2 i k) * B (ix2 j k) := rfl

/-- The matrix unit's product into the zero accumulator IS that array … -/
theorem matmul_zero_eq_abt {φ₁ φ₂ : FTy} (h : IsABt d) (prec : Option ContractPrecision)
    (A : FVec Ideal ⟨2, ![M, K]⟩ φ₁) (B : FVec Ideal ⟨2, ![N, K]⟩ φ₂) :
    matmul d prec A B (constant (F := Ideal) ⟨2, ![M, N]⟩ .f32 0x00000000#32) = abt A B := by
  funext j
  obtain ⟨p, q, rfl⟩ : ∃ (p : Fin M) (q : Fin N), j = ix2 p q := ⟨j 0, j 1, eq_ix2 j⟩
  exact matmul_zero_apply h prec A B p q

/-- … and so is the host's `dot_general`. -/
theorem dotGeneral_eq_abt {φ₁ φ₂ : FTy} (h : IsABt d) (prec : Option ContractPrecision)
    (A : FVec Ideal ⟨2, ![M, K]⟩ φ₁) (B : FVec Ideal ⟨2, ![N, K]⟩ φ₂) :
    Host.dotGeneral d prec A B = abt A B := by
  funext j
  obtain ⟨p, q, rfl⟩ : ∃ (p : Fin M) (q : Fin N), j = ix2 p q := ⟨j 0, j 1, eq_ix2 j⟩
  exact dotGeneral_apply h prec A B p q

end Idealize.ShloMosaic.TransposedProduct

end
-- ==== Proof.Region1.lean ====
/-
  The second stage: the gated pair of projections. One grid point (n, m) takes block m of 1024 rows of the quantized
  activations with the column of their scales, and block n of 1024 rows of each of the two matrices of weight integers
  with the weight scale; it forms the two products (rows against rows), scales row p of each by (1 / scale of p) × (weight
  scale), and writes gate · logistic(gate) · up into block (m, n) of the output. Every entry of that block is the same
  function of whole rows of the arrays, so what the point writes back is a block of one whole-array function, and the
  sixty-four blocks tile the output.
-/
import proofs.«128026_j52905407152482_2_alg».proof.Proof.Gen.KernelIdeal.Frame
import proofs.«128026_j52905407152482_2_alg».proof.Proof.Blocks
import proofs.«128026_j52905407152482_2_alg».proof.Proof.LibTransposedProduct
import proofs.«128026_j52905407152482_2_alg».proof.Proof.LibKeepdimsLayout
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section
namespace Cert.KernelIdeal.GateUp
open Cert.KernelIdeal Cert.KernelIdeal.Gen Idealize.ShloMosaic Idealize.ShloMosaic.ValueIdx Cert.BitMlp Cert.KeepdimsLayout
open Idealize.ShloMosaic.TransposedProduct
open Idealize.ShloMosaic.TcCoe Idealize.SL.Sem

/-- The logistic function of an array, lane by lane. -/
theorem logistic_apply {s : Shape} {φ : FTy} (a : FVec Ideal s φ) (i : s.Idx) : logistic a i = Ideal.logistic (a i) := rfl

/-- The two products of the stage contract the last axis of both factors. -/
theorem isABt_dot : IsABt dot_S1024x2048_S1024x2048_S1024x1024_1_1_0_0_n_n := ⟨rfl, rfl, rfl, rfl, rfl, rfl⟩

/-- The body's result at (p, q): from row p of the activation block, rows q of the two weight blocks, the scale of row p
    and the weight scale. -/
theorem pay1_at (v0 : Vec Ideal S1024x2048 .bf16) (v2 : Vec Ideal S1024x1 .f32) (v6 v8 : Vec Ideal S1024x2048 .bf16)
    (v10 : Vec Ideal S1x1 .f32) (p q : Fin 1024) :
    k1_pay1 (F := Ideal) v0 v2 v6 v8 v10 (ix2 p q)
      = gated (scaledDot (fun k : Fin 2048 => v0 (ix2 p k)) (fun k : Fin 2048 => v6 (ix2 q k)) (v2 (ix2 p (0 : Fin 1))) (v10 (ix2 (0 : Fin 1) (0 : Fin 1))))
          (scaledDot (fun k : Fin 2048 => v0 (ix2 p k)) (fun k : Fin 2048 => v8 (ix2 q k)) (v2 (ix2 p (0 : Fin 1))) (v10 (ix2 (0 : Fin 1) (0 : Fin 1)))) := by
  have hx : extractAt ![0, 0] v10 inpos_S1x1_p0_0 = v10 (ix2 (0 : Fin 1) (0 : Fin 1)) := by
    unfold extractAt
    exact congrArg v10 (funext fun a => Fin.ext (by match a with | ⟨0, _⟩ => rfl | ⟨1, _⟩ => rfl))
  unfold k1_pay1
  simp only [mulf_apply, logistic_apply, divf_apply, broadcast_apply, broadcastTo_a1_ab_apply, shapeCast_self, hx]
  rw [matmul_zero_apply isABt_dot none v0 v6 p q, matmul_zero_apply isABt_dot none v0 v8 p q]
  rfl

/-- The gated pair of projections as a function of the whole arrays: the quantized activations with the column of
    their scales, the two matrices of weight integers, the weight scale. -/
def hidden (xq : S8192x2048.Idx → EReal) (sx : S8192x1.Idx → EReal) (wg wu : S8192x2048.Idx → EReal) (ws : S1x1.Idx → EReal) : S8192x8192.Idx → EReal :=
  fun i => gated (scaledDot (rowOf xq (i 0)) (rowOf wg (i 1)) (sx (ix2 (i 0) 0)) (ws (ix2 0 0)))
                 (scaledDot (rowOf xq (i 0)) (rowOf wu (i 1)) (sx (ix2 (i 0) 0)) (ws (ix2 0 0)))

/-- A block of 1024 rows of the activations from row bm and blocks of 1024 rows of the weights from row bn: the body's
    result is the block (bm, bn) of the whole-array function. -/
theorem pay1_block (x0 : Vec Ideal S1024x2048 .bf16) (x1 : Vec Ideal S1024x1 .f32) (x2 x3 : Vec Ideal S1024x2048 .bf16)
    (x4 : Vec Ideal S1x1 .f32) (XQ : S8192x2048.Idx → EReal) (SX : S8192x1.Idx → EReal) (WG WU : S8192x2048.Idx → EReal)
    (WS : S1x1.Idx → EReal) (bm bn : ℕ) (hbm : bm + 1024 ≤ 8192) (hbn : bn + 1024 ≤ 8192)
    (h0 : ∀ (p : Fin 1024) (k : Fin 2048), x0 (ix2 p k) = XQ (ix2 (⟨bm + p.val, by have := p.isLt; omega⟩ : Fin 8192) k))
    (h1 : ∀ (p : Fin 1024), x1 (ix2 p (0 : Fin 1)) = SX (ix2 (⟨bm + p.val, by have := p.isLt; omega⟩ : Fin 8192) (0 : Fin 1)))
    (h2 : ∀ (q : Fin 1024) (k : Fin 2048), x2 (ix2 q k) = WG (ix2 (⟨bn + q.val, by have := q.isLt; omega⟩ : Fin 8192) k))
    (h3 : ∀ (q : Fin 1024) (k : Fin 2048), x3 (ix2 q k) = WU (ix2 (⟨bn + q.val, by have := q.isLt; omega⟩ : Fin 8192) k))
    (h4 : x4 (ix2 (0 : Fin 1) (0 : Fin 1)) = WS (ix2 (0 : Fin 1) (0 : Fin 1)))
    (p q : Fin 1024) :
    k1_pay1 (F := Ideal) x0 x1 x2 x3 x4 (ix2 p q)
      = hidden XQ SX WG WU WS (ix2 (⟨bm + p.val, by have := p.isLt; omega⟩ : Fin 8192) (⟨bn + q.val, by have := q.isLt; omega⟩ : Fin 8192)) := by
  rw [pay1_at]
  show _ = gated (scaledDot (rowOf XQ _) (rowOf WG _) (SX (ix2 _ 0)) (WS (ix2 0 0)))
    (scaledDot (rowOf XQ _) (rowOf WU _) (SX (ix2 _ 0)) (WS (ix2 0 0)))
  rw [h1 p, h4]
  rw [show (fun k : Fin 2048 => x0 (ix2 p k)) = rowOf XQ (⟨bm + p.val, by have := p.isLt; omega⟩ : Fin 8192) from funext fun k => h0 p k,
    show (fun k : Fin 2048 => x2 (ix2 q k)) = rowOf WG (⟨bn + q.val, by have := q.isLt; omega⟩ : Fin 8192) from funext fun k => h2 q k,
    show (fun k : Fin 2048 => x3 (ix2 q k)) = rowOf WU (⟨bn + q.val, by have := q.isLt; omega⟩ : Fin 8192) from funext fun k => h3 q k]

/-! ## From blocks to the array: region 1 -/

section Arrays
variable (V : (c : Dev nD) → (b : Ref sig .tc) → Buf (Elt Ideal) ((c : Thread nD τ).loc b))

theorem hz2 : (![0, 0] : Fin 2 → Nat) = fun _ => 0 := funext fun a => by fin_cases a <;> rfl

/-- The printed index maps over the grid: point t is (n, m) = (t / 8, t % 8); the activations and their scales move
    with m, the two weight matrices with n, the weight scale stays, the output block is (m, n). -/
theorem idx_facts1 : ∀ t : Fin cfg1.N, win1_0.index t (0 : Fin 2) = t.val % 8 ∧ win1_0.index t (1 : Fin 2) = 0
    ∧ win1_1.index t (0 : Fin 2) = t.val % 8 ∧ win1_1.index t (1 : Fin 2) = 0
    ∧ win1_2.index t (0 : Fin 2) = t.val / 8 ∧ win1_2.index t (1 : Fin 2) = 0
    ∧ win1_3.index t (0 : Fin 2) = t.val / 8 ∧ win1_3.index t (1 : Fin 2) = 0
    ∧ win1_4.index t (0 : Fin 2) = 0 ∧ win1_4.index t (1 : Fin 2) = 0
    ∧ win1_5.index t (0 : Fin 2) = t.val % 8 ∧ win1_5.index t (1 : Fin 2) = t.val / 8 ∧ t.val < 64 :=
  (by decide +kernel : ∀ t : Fin grid1.N, _)

/-- The activation block at point t, read at (p, k), is the array at row 1024 (t % 8) + p. -/
theorem iblk1_0_at (c : Dev nD) (t : Fin cfg1.N) (p : Fin 1024) (k : Fin 2048) :
    iblk1 V c 0 t (ix2 p k) = V c main_v23_0 (ix2 (⟨t.val % 8 * 1024 + p.val, by have := p.isLt; omega⟩ : Fin 8192) k) := by
  obtain ⟨e0, e1, -⟩ := idx_facts1 t
  show V c main_v23_0 (((cfg1.win 0).blk t).view.emb (ix2 p k)) = _
  refine congrArg (V c main_v23_0) ?_
  funext a; apply Fin.ext
  match a with
  | ⟨0, _⟩ => show win1_0.index t (0 : Fin 2) * 1024 + 1 * p.val = t.val % 8 * 1024 + p.val; omega
  | ⟨1, _⟩ => show win1_0.index t (1 : Fin 2) * 2048 + 1 * k.val = k.val; omega

/-- The block of activation scales at point t, read at row p, is the column at row 1024 (t % 8) + p. -/
theorem iblk1_1_at (c : Dev nD) (t : Fin cfg1.N) (p : Fin 1024) :
    iblk1 V c 1 t (ix2 p (0 : Fin 1)) = V c main_v23_1 (ix2 (⟨t.val % 8 * 1024 + p.val, by have := p.isLt; omega⟩ : Fin 8192) (0 : Fin 1)) := by
  obtain ⟨-, -, e2, e3, -⟩ := idx_facts1 t
  show V c main_v23_1 (((cfg1.win 1).blk t).view.emb (ix2 p (0 : Fin 1))) = _
  refine congrArg (V c main_v23_1) ?_
  funext a; apply Fin.ext
  match a with
  | ⟨0, _⟩ => show win1_1.index t (0 : Fin 2) * 1024 + 1 * p.val = t.val % 8 * 1024 + p.val; omega
  | ⟨1, _⟩ => show win1_1.index t (1 : Fin 2) * 1 + 1 * 0 = 0; omega

/-- The gate weights' block at point t, read at (q, k), is the array at row 1024 (t / 8) + q. -/
theorem iblk1_2_at (c : Dev nD) (t : Fin cfg1.N) (q : Fin 1024) (k : Fin 2048) :
    iblk1 V c 2 t (ix2 q k) = V c main_v10 (ix2 (⟨t.val / 8 * 1024 + q.val, by have := q.isLt; have := (idx_facts1 t).2.2.2.2.2.2.2.2.2.2.2.2; omega⟩ : Fin 8192) k) := by
  obtain ⟨-, -, -, -, e4, e5, -⟩ := idx_facts1 t
  show V c main_v10 (((cfg1.win 2).blk t).view.emb (ix2 q k)) = _
  refine congrArg (V c main_v10) ?_
  funext a; apply Fin.ext
  match a with
  | ⟨0, _⟩ => show win1_2.index t (0 : Fin 2) * 1024 + 1 * q.val = t.val / 8 * 1024 + q.val; omega
  | ⟨1, _⟩ => show win1_2.index t (1 : Fin 2) * 2048 + 1 * k.val = k.val; omega

/-- The up weights' block at point t, read at (q, k), is the array at row 1024 (t / 8) + q. -/
theorem iblk1_3_at (c : Dev nD) (t : Fin cfg1.N) (q : Fin 1024) (k : Fin 2048) :
    iblk1 V c 3 t (ix2 q k) = V c main_v11 (ix2 (⟨t.val / 8 * 1024 + q.val, by have := q.isLt; have := (idx_facts1 t).2.2.2.2.2.2.2.2.2.2.2.2; omega⟩ : Fin 8192) k) := by
  obtain ⟨-, -, -, -, -, -, e6, e7, -⟩ := idx_facts1 t
  show V c main_v11 (((cfg1.win 3).blk t).view.emb (ix2 q k)) = _
  refine congrArg (V c main_v11) ?_
  funext a; apply Fin.ext
  match a with
  | ⟨0, _⟩ => show win1_3.index t (0 : Fin 2) * 1024 + 1 * q.val = t.val / 8 * 1024 + q.val; omega
  | ⟨1, _⟩ => show win1_3.index t (1 : Fin 2) * 2048 + 1 * k.val = k.val; omega

/-- The weight scale's block at every point is the one-entry array itself. -/
theorem iblk1_4_at (c : Dev nD) (t : Fin cfg1.N) :
    iblk1 V c 4 t (ix2 (0 : Fin 1) (0 : Fin 1)) = V c main_v21 (ix2 (0 : Fin 1) (0 : Fin 1)) := by
  obtain ⟨-, -, -, -, -, -, -, -, e8, e9, -⟩ := idx_facts1 t
  show V c main_v21 (((cfg1.win 4).blk t).view.emb (ix2 (0 : Fin 1) (0 : Fin 1))) = _
  refine congrArg (V c main_v21) ?_
  funext a; apply Fin.ext
  match a with
  | ⟨0, _⟩ => show win1_4.index t (0 : Fin 2) * 1 + 1 * 0 = 0; omega
  | ⟨1, _⟩ => show win1_4.index t (1 : Fin 2) * 1 + 1 * 0 = 0; omega

/-- What point t writes back through the output window is block (t % 8, t / 8) of the whole-array function. -/
theorem flushed1_5_eq (c : Dev nD) (t : Fin cfg1.N) :
    (dat1 V c).flushed 5 t = ((cfg1.win 5).blk t).view.read (Elt Ideal)
      (hidden (V c main_v23_0) (V c main_v23_1) (V c main_v10) (V c main_v11) (V c main_v21)) := by
  show (cfg1.win 5).cut (grid1.coords t) ((dat1 V c).after 5 t) = _
  rw [after1_5]
  unfold out1_5
  rw [View.canon_unit_zero hz2]
  simp only [View.ld_unit_zero (S := S1024x2048) hz2, View.ld_unit_zero (S := S1024x1) hz2, View.ld_unit_zero (S := S1x1) hz2]
  obtain ⟨-, -, -, -, -, -, -, -, -, -, e10, e11, ht⟩ := idx_facts1 t
  funext j
  have hj : j = ix2 (⟨(j 0).val, (j 0).isLt⟩ : Fin 1024) (⟨(j 1).val, (j 1).isLt⟩ : Fin 1024) :=
    funext fun a => Fin.ext (by match a with | ⟨0, _⟩ => rfl | ⟨1, _⟩ => rfl)
  show k1_pay1 (iblk1 V c 0 t) (iblk1 V c 1 t) (iblk1 V c 2 t) (iblk1 V c 3 t) (iblk1 V c 4 t) j
    = hidden (V c main_v23_0) (V c main_v23_1) (V c main_v10) (V c main_v11) (V c main_v21) (((cfg1.win 5).blk t).view.emb j)
  refine (congrArg (k1_pay1 (iblk1 V c 0 t) (iblk1 V c 1 t) (iblk1 V c 2 t) (iblk1 V c 3 t) (iblk1 V c 4 t)) hj).trans ?_
  refine (pay1_block (iblk1 V c 0 t) (iblk1 V c 1 t) (iblk1 V c 2 t) (iblk1 V c 3 t) (iblk1 V c 4 t)
    (V c main_v23_0) (V c main_v23_1) (V c main_v10) (V c main_v11) (V c main_v21) (t.val % 8 * 1024) (t.val / 8 * 1024)
    (by omega) (by omega) (fun p k => iblk1_0_at V c t p k) (fun p => iblk1_1_at V c t p) (fun q k => iblk1_2_at V c t q k)
    (fun q k => iblk1_3_at V c t q k) (iblk1_4_at V c t) _ _).trans ?_
  refine congrArg (hidden (V c main_v23_0) (V c main_v23_1) (V c main_v10) (V c main_v11) (V c main_v21)) ?_
  funext a; apply Fin.ext
  match a with
  | ⟨0, _⟩ => show t.val % 8 * 1024 + (j 0).val = win1_5.index t (0 : Fin 2) * 1024 + 1 * (j 0).val; omega
  | ⟨1, _⟩ => show t.val / 8 * 1024 + (j 1).val = win1_5.index t (1 : Fin 2) * 1024 + 1 * (j 1).val; omega

theorem mem_blk1_5 (t : Fin cfg1.N) (i : S8192x8192.Idx) :
    i ∈ ((cfg1.win 5).blk t).view.set ↔ ∀ a : Fin 2, win1_5.index t a * S1024x1024.size a ≤ (i a).val ∧ (i a).val < win1_5.index t a * S1024x1024.size a + S1024x1024.size a := by
  show i ∈ ((View.whole main_v24).slice (win1_5.rect t)).set ↔ _
  rw [View.set_slice_whole, Rect.mem_set_unit]
  exact Iff.rfl

/-- The point whose output block holds entry (r, f): the weight tile f / 1024, the row tile r / 1024. -/
def pt1 (r f : ℕ) (hr : r < 8192) (hf : f < 8192) : Fin cfg1.N := ⟨f / 1024 * 8 + r / 1024, by rw [show cfg1.N = 64 from N_1]; omega⟩

/-- After the region the output array is the gated pair of projections of the whole arrays. -/
theorem final1_5 (c : Dev nD) :
    (dat1 V c).arrAt 5 cfg1.N = hidden (V c main_v23_0) (V c main_v23_1) (V c main_v10) (V c main_v11) (V c main_v21) := by
  refine (dat1 V c).arrAt_eq_of_cover 5 (hidden (V c main_v23_0) (V c main_v23_1) (V c main_v10) (V c main_v11) (V c main_v21))
    (fun t _ => flushed1_5_eq V c t) fun i => ?_
  have hi0 : (i 0).val < 8192 := (i 0).isLt
  have hi1 : (i 1).val < 8192 := (i 1).isLt
  refine ⟨pt1 (i 0).val (i 1).val hi0 hi1, flush1_5 _, ?_⟩
  rw [mem_blk1_5]
  obtain ⟨-, -, -, -, -, -, -, -, -, -, e10, e11, -⟩ := idx_facts1 (pt1 (i 0).val (i 1).val hi0 hi1)
  have hv : (pt1 (i 0).val (i 1).val hi0 hi1).val = (i 1).val / 1024 * 8 + (i 0).val / 1024 := rfl
  intro a
  match a with
  | ⟨0, _⟩ => show win1_5.index _ (0 : Fin 2) * 1024 ≤ (i 0).val ∧ (i 0).val < win1_5.index _ (0 : Fin 2) * 1024 + 1024; omega
  | ⟨1, _⟩ => show win1_5.index _ (1 : Fin 2) * 1024 ≤ (i 1).val ∧ (i 1).val < win1_5.index _ (1 : Fin 2) * 1024 + 1024; omega

end Arrays

end Cert.KernelIdeal.GateUp
end
-- ==== Proof.Region2.lean ====
/-
  The third stage: every row of the hidden matrix [8192, 8192] gets its scale, 127 over the row's largest absolute
  value (kept above the floor). One grid point handles a block of 512 rows and computes the column of their scales.
  A block's rows are whole rows of the matrix, so what the point writes back is the block of one whole-matrix function,
  scaleRowsH; the sixteen blocks tile the rows, so after the stage the output array is that function.
-/
import proofs.«128026_j52905407152482_2_alg».proof.Proof.Gen.KernelIdeal.Frame
import proofs.«128026_j52905407152482_2_alg».proof.Proof.Blocks
import proofs.«128026_j52905407152482_2_alg».proof.Proof.LibLastAxisMax
import proofs.«128026_j52905407152482_2_alg».proof.Proof.LibKeepdimsLayout
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section
namespace Cert.KernelIdeal.RowMax
open Cert.KernelIdeal Cert.KernelIdeal.Gen Idealize.ShloMosaic Idealize.ShloMosaic.ValueIdx Cert.BitMlp Cert.Lib.LastAxisMax Cert.KeepdimsLayout
open Idealize.ShloMosaic.TcCoe Idealize.SL.Sem

/-- Every row's scale, as a column. -/
def scaleRowsH (a : S8192x8192.Idx → EReal) : S8192x1.Idx → EReal := fun i => ascale (rowOf a (i 0))

/-- The payload at (p, u): the scale of row p of the block. -/
theorem pay1_at (v0 : Vec Ideal S512x8192 .f32) (p : Fin 512) (u : Fin 1) :
    k2_pay1 (F := Ideal) v0 (ix2 p u) = ascale (fun k : Fin 8192 => v0 (ix2 p k)) := by
  unfold k2_pay1
  dsimp only
  rw [divf_apply, maximumf_apply, broadcast_apply, broadcast_apply]
  refine congrArg (fun z => Ideal.div (Ideal.ofBits .f32 0x42FE0000#32) (max (Ideal.ofBits .f32 0x3727C5AC#32) z)) ?_
  refine (shapeCast_a_a1_apply _ shapeCasts_S512_S512x1 p u).trans ?_
  refine (max_cols_apply _ _ reduces_S512x8192_S512 _ _ p).trans ?_
  rw [shapeCast_self]
  rfl

/-- A block of 512 rows starting at row base: its rows' scales are the whole matrix's. -/
theorem pay1_block (x0 : Vec Ideal S512x8192 .f32) (A : S8192x8192.Idx → EReal) (base : ℕ) (hb : base + 512 ≤ 8192)
    (hx : ∀ (p : Fin 512) (k : Fin 8192), x0 (ix2 p k) = A (ix2 (⟨base + p.val, by have := p.isLt; omega⟩ : Fin 8192) k))
    (p : Fin 512) (u : Fin 1) :
    k2_pay1 (F := Ideal) x0 (ix2 p u) = scaleRowsH A (ix2 (⟨base + p.val, by have := p.isLt; omega⟩ : Fin 8192) u) := by
  rw [pay1_at]
  show _ = ascale (rowOf A _)
  exact congrArg ascale (funext fun k => hx p k)

/-! ## From blocks to the array -/

section Arrays
variable (V : (c : Dev nD) → (b : Ref sig .tc) → Buf (Elt Ideal) ((c : Thread nD τ).loc b))

theorem hz2 : (![0, 0] : Fin 2 → Nat) = fun _ => 0 := funext fun a => by fin_cases a <;> rfl

/-- The printed index maps over the grid: both windows move down the rows together, one block per point. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0 ∧ t.val < 16 :=
  (by decide +kernel : ∀ t : Fin grid2.N, _)

/-- The input block at point t, read at (p, k), is the array at row 512 t + p. -/
theorem iblk2_at (c : Dev nD) (t : Fin cfg2.N) (p : Fin 512) (k : Fin 8192) :
    iblk2 V c 0 t (ix2 p k) = V c main_v24 (ix2 (⟨t.val * 512 + p.val, by have := p.isLt; have := (idx_facts2 t).2.2.2.2; omega⟩ : Fin 8192) k) := by
  obtain ⟨e0, e1, -⟩ := idx_facts2 t
  show V c main_v24 (((cfg2.win 0).blk t).view.emb (ix2 p k)) = _
  refine congrArg (V c main_v24) ?_
  funext a; apply Fin.ext
  match a with
  | ⟨0, _⟩ => show win2_0.index t (0 : Fin 2) * 512 + 1 * p.val = t.val * 512 + p.val; omega
  | ⟨1, _⟩ => show win2_0.index t (1 : Fin 2) * 8192 + 1 * k.val = k.val; omega

/-- What point t writes back through window 1 is block t of the column of row scales. -/
theorem flushed2_1_eq (c : Dev nD) (t : Fin cfg2.N) :
    (dat2 V c).flushed 1 t = ((cfg2.win 1).blk t).view.read (Elt Ideal) (scaleRowsH (V c main_v24)) := by
  show (cfg2.win 1).cut (grid2.coords t) ((dat2 V c).after 1 t) = _
  rw [after2_1]
  unfold out2_1
  rw [View.canon_unit_zero hz2]
  simp only [View.ld_unit_zero (S := S512x8192) hz2]
  obtain ⟨-, -, e2, e3, ht⟩ := idx_facts2 t
  funext j
  have hj : j = ix2 (⟨(j 0).val, (j 0).isLt⟩ : Fin 512) (⟨(j 1).val, (j 1).isLt⟩ : Fin 1) :=
    funext fun a => Fin.ext (by match a with | ⟨0, _⟩ => rfl | ⟨1, _⟩ => rfl)
  show k2_pay1 (iblk2 V c 0 t) j = scaleRowsH (V c main_v24) (((cfg2.win 1).blk t).view.emb j)
  refine (congrArg (k2_pay1 (iblk2 V c 0 t)) hj).trans ?_
  refine (pay1_block (iblk2 V c 0 t) (V c main_v24) (t.val * 512) (by omega) (fun p k => iblk2_at V c t p k) _ _).trans ?_
  refine congrArg (scaleRowsH (V c main_v24)) ?_
  funext a; apply Fin.ext
  match a with
  | ⟨0, _⟩ => show t.val * 512 + (j 0).val = win2_1.index t (0 : Fin 2) * 512 + 1 * (j 0).val; omega
  | ⟨1, _⟩ => show (j 1).val = win2_1.index t (1 : Fin 2) * 1 + 1 * (j 1).val; omega

theorem mem_blk2_1 (t : Fin cfg2.N) (i : S8192x1.Idx) :
    i ∈ ((cfg2.win 1).blk t).view.set ↔ ∀ a : Fin 2, win2_1.index t a * S512x1.size a ≤ (i a).val ∧ (i a).val < win2_1.index t a * S512x1.size a + S512x1.size a := by
  show i ∈ ((View.whole main_v25).slice (win2_1.rect t)).set ↔ _
  rw [View.set_slice_whole, Rect.mem_set_unit]
  exact Iff.rfl

/-- The point whose block holds row r. -/
def pt2 (r : ℕ) (hr : r < 8192) : Fin cfg2.N := ⟨r / 512, by rw [show cfg2.N = 16 from N_2]; omega⟩

/-- After the region the output array is the column of row scales. -/
theorem final2_1 (c : Dev nD) : (dat2 V c).arrAt 1 cfg2.N = scaleRowsH (V c main_v24) := by
  refine (dat2 V c).arrAt_eq_of_cover 1 (scaleRowsH (V c main_v24)) (fun t _ => flushed2_1_eq V c t) fun i => ?_
  have hi0 : (i 0).val < 8192 := (i 0).isLt
  have hi1 : (i 1).val < 1 := (i 1).isLt
  refine ⟨pt2 (i 0).val hi0, flush2_1 _, ?_⟩
  rw [mem_blk2_1]
  obtain ⟨-, -, e2, e3, -⟩ := idx_facts2 (pt2 (i 0).val hi0)
  have hv : (pt2 (i 0).val hi0).val = (i 0).val / 512 := rfl
  intro a
  match a with
  | ⟨0, _⟩ => show win2_1.index _ (0 : Fin 2) * 512 ≤ (i 0).val ∧ (i 0).val < win2_1.index _ (0 : Fin 2) * 512 + 512; omega
  | ⟨1, _⟩ => show win2_1.index _ (1 : Fin 2) * 1 ≤ (i 1).val ∧ (i 1).val < win2_1.index _ (1 : Fin 2) * 1 + 1; omega

end Arrays

end Cert.KernelIdeal.RowMax
end
-- ==== Proof.LibBlockSums.lean ====
/-
  Re-indexings of a finite sum: over the indices of a rank-three shape, and over a range cut into equal blocks.

  An index of a shape `[a, b, c]` is its three coordinates, so a sum over all its indices, in any commutative monoid,
  is the triple sum over the coordinates.  A number below `n · k` is `t · k + r` for exactly one block `t < n` and one
  offset `r < k`, so a sum over `Fin (n · k)` is the sum over the blocks of the sums over the offsets.
-/
import Idealize.ShloMosaic.Lib.ValueIdx

namespace Cert.LibBlockSums

open Idealize.ShloMosaic Idealize.ShloMosaic.ValueIdx

/-- A rank-three index set is the product of its three coordinate ranges. -/
def idxEquiv3 {a b c : Nat} : (⟨3, ![a, b, c]⟩ : Shape).Idx ≃ Fin a × Fin b × Fin c where
  toFun i := (i 0, i 1, i 2)
  invFun p := ix3 p.1 p.2.1 p.2.2
  left_inv i := (eq_ix3 i).symm
  right_inv _ := rfl

/-- A sum over the indices of a shape `[a, b, c]` is the triple sum over the coordinates. -/
theorem sum_idx3 {M : Type*} [AddCommMonoid M] {a b c : Nat} (f : (⟨3, ![a, b, c]⟩ : Shape).Idx → M) :
    ∑ i, f i = ∑ x : Fin a, ∑ y : Fin b, ∑ z : Fin c, f (ix3 x y z) := by
  rw [← Equiv.sum_comp (idxEquiv3 (a := a) (b := b) (c := c)).symm f, Fintype.sum_prod_type]
  refine Finset.sum_congr rfl fun x _ => ?_
  rw [Fintype.sum_prod_type]
  rfl

/-- With a unit last axis the innermost sum has one term. -/
theorem sum_idx3_unit_last {M : Type*} [AddCommMonoid M] {a b : Nat} (f : (⟨3, ![a, b, 1]⟩ : Shape).Idx → M) :
    ∑ i, f i = ∑ x : Fin a, ∑ y : Fin b, f (ix3 x y 0) := by
  rw [sum_idx3]
  exact Finset.sum_congr rfl fun x _ => Finset.sum_congr rfl fun y _ => Fin.sum_univ_one _

/-- With a unit first axis the outermost sum has one term. -/
theorem sum_idx3_unit_first {M : Type*} [AddCommMonoid M] {b c : Nat} (f : (⟨3, ![1, b, c]⟩ : Shape).Idx → M) :
    ∑ i, f i = ∑ y : Fin b, ∑ z : Fin c, f (ix3 0 y z) := by
  rw [sum_idx3]
  exact Fin.sum_univ_one _

/-- With a unit first axis a rank-two sum is the sum over the second coordinate. -/
theorem sum_idx2_unit_first {M : Type*} [AddCommMonoid M] {b : Nat} (f : (⟨2, ![1, b]⟩ : Shape).Idx → M) :
    ∑ i, f i = ∑ y : Fin b, f (ix2 0 y) := by
  rw [sum_idx2]
  exact Fin.sum_univ_one _

/-- Entry `r` of block `t`, of `n` blocks of `k` entries each. -/
def blockEntry {n k : Nat} (t : Fin n) (r : Fin k) : Fin (n * k) :=
  ⟨t.val * k + r.val, by
    have ht := t.isLt; have hr := r.isLt
    calc t.val * k + r.val < t.val * k + k := by omega
      _ = (t.val + 1) * k := by ring
      _ ≤ n * k := Nat.mul_le_mul_right k (by omega)⟩

/-- A sum over `n · k` entries is the sum over the `n` blocks of the sums over each block's `k` entries. -/
theorem sum_blocks {M : Type*} [AddCommMonoid M] (n k : Nat) (g : Fin (n * k) → M) :
    ∑ b, g b = ∑ t : Fin n, ∑ r : Fin k, g (blockEntry t r) := by
  rw [← Equiv.sum_comp (finProdFinEquiv (m := n) (n := k)) g, Fintype.sum_prod_type]
  refine Finset.sum_congr rfl fun t _ => Finset.sum_congr rfl fun r _ => congrArg g (Fin.ext ?_)
  show r.val + k * t.val = t.val * k + r.val
  ring

end Cert.LibBlockSums
-- ==== Proof.Region3.lean ====
/-
  The fourth stage: the second projection. A grid point (m, k) takes rows 1024·m … of the hidden matrix restricted to
  columns 2048·k …, the rows' scales, and the same columns of the quantized second weights. It quantizes the hidden
  entries by their row's scale and adds the products' sums to the output block of row block m: the block is zeroed at
  k = 0, carried from point to point, multiplied at k = 3 by (1 / row scale) · (weight scale) and only then written back.
  Four partial sums over 2048 columns are the sum over all 8192 columns, so what is written back is the block of one
  whole-array function, downOut; the eight row blocks tile the rows.
-/
import proofs.«128026_j52905407152482_2_alg».proof.Proof.Gen.KernelIdeal.Frame
import proofs.«128026_j52905407152482_2_alg».proof.Proof.Blocks
import proofs.«128026_j52905407152482_2_alg».proof.Proof.LibTransposedProduct
import proofs.«128026_j52905407152482_2_alg».proof.Proof.LibBlockSums
import Idealize.ShloMosaic.Lib.Tactic
import proofs.«128026_j52905407152482_2_alg».proof.Proof.LibLastAxisMax
import proofs.«128026_j52905407152482_2_alg».proof.Proof.LibKeepdimsLayout
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section
namespace Cert.KernelIdeal.Down
open Cert.KernelIdeal Cert.KernelIdeal.Gen Idealize.ShloMosaic Idealize.ShloMosaic.ValueIdx Cert.BitMlp Cert.KeepdimsLayout
open Idealize.ShloMosaic.TcCoe Idealize.SL.Sem Idealize.ShloMosaic.Tactic

theorem hz2 : (![0, 0] : Fin 2 → Nat) = fun _ => 0 := funext fun a => by fin_cases a <;> rfl

/-! ## What each case of the body leaves in the output block

At the first reduction step of a row block the body zeroes the block and adds the step's product to it; at a middle step
it adds the product to what the step before left; at the last step it also multiplies the sum by the scales. -/

section Pieces
variable {F : FTy → Type} [FloatOps F]

theorem pieceA {c : Dev nD} {i : grid3.Coords} {arg2 : Memref sig .tc .vmem S1024x2048 .f32} {harg2 : arg2.IsWhole} {arg3 : Memref sig .tc .vmem S1024x1 .f32} {harg3 : arg3.IsWhole} {arg4 : Memref sig .tc .vmem S2048x2048 .bf16} {harg4 : arg4.IsWhole} {arg5 : Memref sig .tc .vmem S1x1 .f32} {harg5 : arg5.IsWhole} {arg6 : Memref sig .tc .vmem S1024x2048 .f32} {harg6 : arg6.IsWhole} {hc0 : cond3_0 i} {hc1 : ¬cond3_1 i}
    {x0 : Vec F S1024x2048 .f32} {x1 : Vec F S1024x1 .f32} {x2 : Vec F S2048x2048 .bf16} {x3 : Vec F S1x1 .f32} :
    out3_A_4 c i arg2 harg2 arg3 harg3 arg4 harg4 arg5 harg5 arg6 harg6 hc0 hc1 x0 x1 x2 x3 = k3_pay3 x0 x1 x2 (k3_pay1 (F := F)) := by
  unfold out3_A_4
  rw [View.read_writes_eq_canon _ _ _ (cover3_A_4 c i arg2 harg2 arg3 harg3 arg4 harg4 arg5 harg5 arg6 harg6 hc0 hc1 x0 x1 x2 x3)]
  unfold kernelRun3_A
  dsimp only
  sl_unfold_words
  rw [View.canon_cons_unit_zero hz2, View.readCov_unit_zero _ hz2]
  simp only [View.readAt_eq_ld, harg2.read_unread, harg3.read_unread, harg4.read_unread, harg5.read_unread, harg6.read_unread,
    View.ld_unit_zero (S := S1024x2048) hz2, View.ld_unit_zero (S := S1024x1) hz2, View.ld_unit_zero (S := S2048x2048) hz2,
    View.ld_unit_zero (S := S1x1) hz2]

theorem pieceB {c : Dev nD} {i : grid3.Coords} {arg2 : Memref sig .tc .vmem S1024x2048 .f32} {harg2 : arg2.IsWhole} {arg3 : Memref sig .tc .vmem S1024x1 .f32} {harg3 : arg3.IsWhole} {arg4 : Memref sig .tc .vmem S2048x2048 .bf16} {harg4 : arg4.IsWhole} {arg5 : Memref sig .tc .vmem S1x1 .f32} {harg5 : arg5.IsWhole} {arg6 : Memref sig .tc .vmem S1024x2048 .f32} {harg6 : arg6.IsWhole} {hc0 : ¬cond3_0 i} {hc1 : ¬cond3_1 i}
    {x0 : Vec F S1024x2048 .f32} {x1 : Vec F S1024x1 .f32} {x2 : Vec F S2048x2048 .bf16} {x3 : Vec F S1x1 .f32} {xo4 : Vec F S1024x2048 .f32} :
    out3_B_4 c i arg2 harg2 arg3 harg3 arg4 harg4 arg5 harg5 arg6 harg6 hc0 hc1 x0 x1 x2 x3 xo4 = k3_pay3 x0 x1 x2 xo4 := by
  unfold out3_B_4
  rw [View.read_writes_eq_canon _ _ _ (cover3_B_4 c i arg2 harg2 arg3 harg3 arg4 harg4 arg5 harg5 arg6 harg6 hc0 hc1 x0 x1 x2 x3 xo4)]
  unfold kernelRun3_B
  dsimp only
  rw [View.canon_unit_zero hz2]
  simp only [View.readAt_eq_ld, harg2.read_unread, harg3.read_unread, harg4.read_unread, harg5.read_unread, harg6.read_unread,
    View.ld_unit_zero (S := S1024x2048) hz2, View.ld_unit_zero (S := S1024x1) hz2, View.ld_unit_zero (S := S2048x2048) hz2,
    View.ld_unit_zero (S := S1x1) hz2]

theorem pieceC {c : Dev nD} {i : grid3.Coords} {arg2 : Memref sig .tc .vmem S1024x2048 .f32} {harg2 : arg2.IsWhole} {arg3 : Memref sig .tc .vmem S1024x1 .f32} {harg3 : arg3.IsWhole} {arg4 : Memref sig .tc .vmem S2048x2048 .bf16} {harg4 : arg4.IsWhole} {arg5 : Memref sig .tc .vmem S1x1 .f32} {harg5 : arg5.IsWhole} {arg6 : Memref sig .tc .vmem S1024x2048 .f32} {harg6 : arg6.IsWhole} {hc0 : ¬cond3_0 i} {hc1 : cond3_1 i}
    {x0 : Vec F S1024x2048 .f32} {x1 : Vec F S1024x1 .f32} {x2 : Vec F S2048x2048 .bf16} {x3 : Vec F S1x1 .f32} {xo4 : Vec F S1024x2048 .f32} :
    out3_C_4 c i arg2 harg2 arg3 harg3 arg4 harg4 arg5 harg5 arg6 harg6 hc0 hc1 x0 x1 x2 x3 xo4 = k3_pay4 x1 x3 (k3_pay3 x0 x1 x2 xo4) := by
  unfold out3_C_4
  rw [View.read_writes_eq_canon _ _ _ (cover3_C_4 c i arg2 harg2 arg3 harg3 arg4 harg4 arg5 harg5 arg6 harg6 hc0 hc1 x0 x1 x2 x3 xo4)]
  unfold kernelRun3_C
  dsimp only
  sl_unfold_words
  rw [View.canon_cons_unit_zero hz2, View.readCov_unit_zero _ hz2]
  simp only [View.readAt_eq_ld, harg2.read_unread, harg3.read_unread, harg4.read_unread, harg5.read_unread, harg6.read_unread,
    View.ld_unit_zero (S := S1024x2048) hz2, View.ld_unit_zero (S := S1024x1) hz2, View.ld_unit_zero (S := S2048x2048) hz2,
    View.ld_unit_zero (S := S1x1) hz2]

end Pieces

/-! ## The payloads read at an entry -/

/-- The zero block. -/
theorem pay1_at (p : Fin 1024) (q : Fin 2048) : k3_pay1 (F := Ideal) (ix2 p q) = lit0 := rfl

/-- One reduction step at (p, q): what was there, plus the products of row p's integers (by the row's given scale) with
    row q of the weight block. -/
theorem pay3_at (v3 : Vec Ideal S1024x2048 .f32) (v5 : Vec Ideal S1024x1 .f32) (v15 : Vec Ideal S2048x2048 .bf16)
    (v18 : Vec Ideal S1024x2048 .f32) (p : Fin 1024) (q : Fin 2048) :
    k3_pay3 (F := Ideal) v3 v5 v15 v18 (ix2 p q)
      = v18 (ix2 p q) + ∑ j : Fin 2048, aint (v3 (ix2 p j)) (v5 (ix2 p 0)) * v15 (ix2 q j) := by
  unfold k3_pay3 k3_pay2
  simp only [shapeCast_self]
  rw [addf_apply]
  refine congrArg (fun z => v18 (ix2 p q) + z) ?_
  refine (TransposedProduct.matmul_zero_apply (φ₁ := .bf16) (φ₂ := .bf16) ⟨rfl, rfl, rfl, rfl, rfl, rfl⟩ none _ v15 p q).trans ?_
  refine Finset.sum_congr rfl fun j _ => ?_
  refine congrArg (fun z => z * v15 (ix2 q j)) ?_
  rw [truncf_apply, minimumf_apply, maximumf_apply, broadcast_apply, broadcast_apply]
  refine congrArg (fun z => min (Ideal.ofBits .f32 0x42FE0000#32) (max (Ideal.ofBits .f32 0xC3000000#32) (rnd z))) ?_
  rw [mulf_apply, broadcastTo_a1_ab_apply]

/-- The last step at (p, q): the accumulated sum times (1 / the row's scale) · the weight scale. -/
theorem pay4_at (v5 : Vec Ideal S1024x1 .f32) (v27 : Vec Ideal S1x1 .f32) (v29 : Vec Ideal S1024x2048 .f32)
    (p : Fin 1024) (q : Fin 2048) :
    k3_pay4 (F := Ideal) v5 v27 v29 (ix2 p q) = v29 (ix2 p q) * (Ideal.div lit1 (v5 (ix2 p 0)) * v27 (ix2 0 0)) := by
  unfold k3_pay4 k3_pay2
  simp only [shapeCast_self]
  rw [mulf_apply, broadcastTo_a1_ab_apply, mulf_apply, divf_apply, broadcast_apply, broadcast_apply]
  refine congrArg (fun z => v29 (ix2 p q) * (Ideal.div lit1 (v5 (ix2 p 0)) * z)) ?_
  exact congrArg v27 (funext fun a => Fin.ext (by match a with | ⟨0, _⟩ => rfl | ⟨1, _⟩ => rfl))

/-! ## From blocks to the array

Point n of the 8 × 4 grid handles row block n / 4 and reduction block n % 4: rows 1024·(n/4) …, columns 2048·(n%4) … of the
hidden matrix and of the weight matrix. Over the four points of a row block the output block accumulates the four partial
sums of products and is scaled at the last one, where alone it is written back. -/

section Arrays
variable (V : (c : Dev nD) → (b : Ref sig .tc) → Buf (Elt Ideal) ((c : Thread nD τ).loc b))

open Cert.LibBlockSums

/-- The output array: every entry the scaled sum over all 8192 columns. -/
def downOut (H : S8192x8192.Idx → EReal) (SH : S8192x1.Idx → EReal) (WD : S2048x8192.Idx → EReal) (WSD : S1x1.Idx → EReal) :
    S8192x2048.Idx → EReal :=
  fun i => scaledDot (fun f : Fin 8192 => aint (H (ix2 (i 0) f)) (SH (ix2 (i 0) 0))) (rowOf WD (i 1)) (SH (ix2 (i 0) 0)) (WSD (ix2 0 0))

theorem idx_facts3 : ∀ t : Fin cfg3.N, win3_0.index t (0 : Fin 2) = t.val / 4 ∧ win3_0.index t (1 : Fin 2) = t.val % 4
    ∧ win3_1.index t (0 : Fin 2) = t.val / 4 ∧ win3_1.index t (1 : Fin 2) = 0
    ∧ win3_2.index t (0 : Fin 2) = 0 ∧ win3_2.index t (1 : Fin 2) = t.val % 4
    ∧ win3_3.index t (0 : Fin 2) = 0 ∧ win3_3.index t (1 : Fin 2) = 0
    ∧ win3_4.index t (0 : Fin 2) = t.val / 4 ∧ win3_4.index t (1 : Fin 2) = 0 ∧ t.val < 32 :=
  (by decide +kernel : ∀ t : Fin grid3.N, _)

theorem lt32 {n : ℕ} (hn : n < cfg3.N) : n < 32 := lt_of_lt_of_eq hn (show cfg3.N = 32 from N_3)

/-- Row p of the row block of point n. -/
def rowAt (n : ℕ) (hn : n < 32) (p : Fin 1024) : Fin 8192 := ⟨n / 4 * 1024 + p.val, by have := p.isLt; omega⟩
/-- The reduction block of point n. -/
def kAt (n : ℕ) : Fin 4 := ⟨n % 4, Nat.mod_lt _ (by decide)⟩

theorem iblk3_0_at (c : Dev nD) (n : ℕ) (hn : n < cfg3.N) (p : Fin 1024) (j : Fin 2048) :
    iblk3 V c 0 ⟨n, hn⟩ (ix2 p j) = V c main_v24 (ix2 (rowAt n (lt32 hn) p) (blockEntry (kAt n) j)) := by
  have e0 : win3_0.index ⟨n, hn⟩ (0 : Fin 2) = n / 4 := (idx_facts3 ⟨n, hn⟩).1
  have e1 : win3_0.index ⟨n, hn⟩ (1 : Fin 2) = n % 4 := (idx_facts3 ⟨n, hn⟩).2.1
  show V c main_v24 (((cfg3.win 0).blk ⟨n, hn⟩).view.emb (ix2 p j)) = _
  refine congrArg (V c main_v24) ?_
  funext a; apply Fin.ext
  match a with
  | ⟨0, _⟩ => show win3_0.index ⟨n, hn⟩ (0 : Fin 2) * 1024 + 1 * p.val = n / 4 * 1024 + p.val; rw [e0]; omega
  | ⟨1, _⟩ => show win3_0.index ⟨n, hn⟩ (1 : Fin 2) * 2048 + 1 * j.val = n % 4 * 2048 + j.val; rw [e1]; omega

theorem iblk3_1_at (c : Dev nD) (n : ℕ) (hn : n < cfg3.N) (p : Fin 1024) :
    iblk3 V c 1 ⟨n, hn⟩ (ix2 p 0) = V c main_v25 (ix2 (rowAt n (lt32 hn) p) 0) := by
  have e2 : win3_1.index ⟨n, hn⟩ (0 : Fin 2) = n / 4 := (idx_facts3 ⟨n, hn⟩).2.2.1
  have e3 : win3_1.index ⟨n, hn⟩ (1 : Fin 2) = 0 := (idx_facts3 ⟨n, hn⟩).2.2.2.1
  show V c main_v25 (((cfg3.win 1).blk ⟨n, hn⟩).view.emb (ix2 p 0)) = _
  refine congrArg (V c main_v25) ?_
  funext a; apply Fin.ext
  match a with
  | ⟨0, _⟩ => show win3_1.index ⟨n, hn⟩ (0 : Fin 2) * 1024 + 1 * p.val = n / 4 * 1024 + p.val; rw [e2]; omega
  | ⟨1, _⟩ => show win3_1.index ⟨n, hn⟩ (1 : Fin 2) * 1 + 1 * 0 = 0; rw [e3]

theorem iblk3_2_at (c : Dev nD) (n : ℕ) (hn : n < cfg3.N) (q : Fin 2048) (j : Fin 2048) :
    iblk3 V c 2 ⟨n, hn⟩ (ix2 q j) = V c main_v20 (ix2 q (blockEntry (kAt n) j)) := by
  have e4 : win3_2.index ⟨n, hn⟩ (0 : Fin 2) = 0 := (idx_facts3 ⟨n, hn⟩).2.2.2.2.1
  have e5 : win3_2.index ⟨n, hn⟩ (1 : Fin 2) = n % 4 := (idx_facts3 ⟨n, hn⟩).2.2.2.2.2.1
  show V c main_v20 (((cfg3.win 2).blk ⟨n, hn⟩).view.emb (ix2 q j)) = _
  refine congrArg (V c main_v20) ?_
  funext a; apply Fin.ext
  match a with
  | ⟨0, _⟩ => show win3_2.index ⟨n, hn⟩ (0 : Fin 2) * 2048 + 1 * q.val = q.val; rw [e4]; omega
  | ⟨1, _⟩ => show win3_2.index ⟨n, hn⟩ (1 : Fin 2) * 2048 + 1 * j.val = n % 4 * 2048 + j.val; rw [e5]; omega

theorem iblk3_3_at (c : Dev nD) (n : ℕ) (hn : n < cfg3.N) :
    iblk3 V c 3 ⟨n, hn⟩ (ix2 0 0) = V c main_v22 (ix2 0 0) := by
  have e6 : win3_3.index ⟨n, hn⟩ (0 : Fin 2) = 0 := (idx_facts3 ⟨n, hn⟩).2.2.2.2.2.2.1
  have e7 : win3_3.index ⟨n, hn⟩ (1 : Fin 2) = 0 := (idx_facts3 ⟨n, hn⟩).2.2.2.2.2.2.2.1
  show V c main_v22 (((cfg3.win 3).blk ⟨n, hn⟩).view.emb (ix2 0 0)) = _
  refine congrArg (V c main_v22) ?_
  funext a; apply Fin.ext
  match a with
  | ⟨0, _⟩ => show win3_3.index ⟨n, hn⟩ (0 : Fin 2) * 1 + 1 * 0 = 0; rw [e6]
  | ⟨1, _⟩ => show win3_3.index ⟨n, hn⟩ (1 : Fin 2) * 1 + 1 * 0 = 0; rw [e7]

/-- The step's sum of products at (p, q), from the point's blocks. -/
def stepSum (c : Dev nD) (n : ℕ) (hn : n < cfg3.N) (p : Fin 1024) (q : Fin 2048) : EReal :=
  ∑ j : Fin 2048, aint (iblk3 V c 0 ⟨n, hn⟩ (ix2 p j)) (iblk3 V c 1 ⟨n, hn⟩ (ix2 p 0)) * iblk3 V c 2 ⟨n, hn⟩ (ix2 q j)

/-- The same from the arrays: reduction block k of row R against weight row q. -/
def partSum (H : S8192x8192.Idx → EReal) (SH : S8192x1.Idx → EReal) (WD : S2048x8192.Idx → EReal) (R : Fin 8192) (q : Fin 2048)
    (k : Fin 4) : EReal :=
  ∑ j : Fin 2048, aint (H (ix2 R (blockEntry k j))) (SH (ix2 R 0)) * WD (ix2 q (blockEntry k j))

theorem stepSum_eq (c : Dev nD) (n : ℕ) (hn : n < cfg3.N) (p : Fin 1024) (q : Fin 2048) :
    stepSum V c n hn p q = partSum (V c main_v24) (V c main_v25) (V c main_v20) (rowAt n (lt32 hn) p) q (kAt n) := by
  unfold stepSum partSum
  refine Finset.sum_congr rfl fun j _ => ?_
  rw [iblk3_0_at, iblk3_1_at, iblk3_2_at]

/-- First step of a row block: the zeroed block plus the step's sum. -/
theorem accA (c : Dev nD) (n : ℕ) (hn : n < cfg3.N) (h : n % 4 = 0) (p : Fin 1024) (q : Fin 2048) :
    outsAt3 V c n hn (ix2 p q) = lit0 + stepSum V c n hn p q := by
  have e := (outsAt3_A V c ⟨n, hn⟩ h (by show ¬ n % 4 = 3; omega)).trans pieceA
  refine (congrFun e (ix2 p q)).trans ?_
  exact pay3_at (iblk3 V c 0 ⟨n, hn⟩) (iblk3 V c 1 ⟨n, hn⟩) (iblk3 V c 2 ⟨n, hn⟩) (k3_pay1 (F := Ideal)) p q

/-- A middle step: what the step before left plus the step's sum. -/
theorem accB (c : Dev nD) (n : ℕ) (hn : n < cfg3.N) (h0 : ¬ n % 4 = 0) (h1 : ¬ n % 4 = 3) (hp : n - 1 < cfg3.N)
    (p : Fin 1024) (q : Fin 2048) :
    outsAt3 V c n hn (ix2 p q) = outsAt3 V c (n - 1) hp (ix2 p q) + stepSum V c n hn p q := by
  have e := (outsAt3_B V c ⟨n, hn⟩ h0 h1).trans pieceB
  refine (congrFun e (ix2 p q)).trans ?_
  exact pay3_at (iblk3 V c 0 ⟨n, hn⟩) (iblk3 V c 1 ⟨n, hn⟩) (iblk3 V c 2 ⟨n, hn⟩) (outsAt3 V c (n - 1) hp) p q

/-- The last step: the sum so far plus the step's sum, times the scales. -/
theorem accC (c : Dev nD) (n : ℕ) (hn : n < cfg3.N) (h0 : ¬ n % 4 = 0) (h1 : n % 4 = 3) (hp : n - 1 < cfg3.N)
    (p : Fin 1024) (q : Fin 2048) :
    outsAt3 V c n hn (ix2 p q) = (outsAt3 V c (n - 1) hp (ix2 p q) + stepSum V c n hn p q)
      * (Ideal.div lit1 (iblk3 V c 1 ⟨n, hn⟩ (ix2 p 0)) * iblk3 V c 3 ⟨n, hn⟩ (ix2 0 0)) := by
  have e := (outsAt3_C V c ⟨n, hn⟩ h0 h1).trans pieceC
  refine (congrFun e (ix2 p q)).trans ?_
  refine (pay4_at (iblk3 V c 1 ⟨n, hn⟩) (iblk3 V c 3 ⟨n, hn⟩)
    (k3_pay3 (iblk3 V c 0 ⟨n, hn⟩) (iblk3 V c 1 ⟨n, hn⟩) (iblk3 V c 2 ⟨n, hn⟩) (outsAt3 V c (n - 1) hp)) p q).trans ?_
  exact congrArg (fun z => z * (Ideal.div lit1 (iblk3 V c 1 ⟨n, hn⟩ (ix2 p 0)) * iblk3 V c 3 ⟨n, hn⟩ (ix2 0 0)))
    (pay3_at (iblk3 V c 0 ⟨n, hn⟩) (iblk3 V c 1 ⟨n, hn⟩) (iblk3 V c 2 ⟨n, hn⟩) (outsAt3 V c (n - 1) hp) p q)

/-- Four blocks of 2048 columns are the 8192 columns. -/
theorem four_parts (H : S8192x8192.Idx → EReal) (SH : S8192x1.Idx → EReal) (WD : S2048x8192.Idx → EReal) (R : Fin 8192) (q : Fin 2048) :
    (((lit0 + partSum H SH WD R q 0) + partSum H SH WD R q 1) + partSum H SH WD R q 2) + partSum H SH WD R q 3
      = ∑ f : Fin 8192, aint (H (ix2 R f)) (SH (ix2 R 0)) * rowOf WD q f := by
  have hl : lit0 = 0 := Ideal.ofBits_zero_f32
  rw [hl, zero_add]
  exact ((sum_blocks 4 2048 (fun f : Fin 8192 => aint (H (ix2 R f)) (SH (ix2 R 0)) * rowOf WD q f)).trans (Fin.sum_univ_four _)).symm

/-- After the last step of a row block the output block holds the whole array's entries. -/
theorem acc_last (c : Dev nD) (n : ℕ) (hn : n < cfg3.N) (h : n % 4 = 3) (p : Fin 1024) (q : Fin 2048) :
    outsAt3 V c n hn (ix2 p q)
      = downOut (V c main_v24) (V c main_v25) (V c main_v20) (V c main_v22) (ix2 (rowAt n (lt32 hn) p) q) := by
  have hN := lt32 hn
  have h1 : n - 1 < cfg3.N := Nat.lt_of_le_of_lt (Nat.sub_le _ _) hn
  have h2 : n - 1 - 1 < cfg3.N := Nat.lt_of_le_of_lt (Nat.sub_le _ _) h1
  have h3 : n - 1 - 1 - 1 < cfg3.N := Nat.lt_of_le_of_lt (Nat.sub_le _ _) h2
  rw [accC V c n hn (by omega) h h1 p q, accB V c (n - 1) h1 (by omega) (by omega) h2 p q,
    accB V c (n - 1 - 1) h2 (by omega) (by omega) h3 p q, accA V c (n - 1 - 1 - 1) h3 (by omega) p q]
  rw [stepSum_eq, stepSum_eq, stepSum_eq, stepSum_eq, iblk3_1_at, iblk3_3_at]
  have r1 : rowAt (n - 1) (lt32 h1) p = rowAt n hN p := Fin.ext (by show (n - 1) / 4 * 1024 + p.val = n / 4 * 1024 + p.val; omega)
  have r2 : rowAt (n - 1 - 1) (lt32 h2) p = rowAt n hN p := Fin.ext (by show (n - 1 - 1) / 4 * 1024 + p.val = n / 4 * 1024 + p.val; omega)
  have r3 : rowAt (n - 1 - 1 - 1) (lt32 h3) p = rowAt n hN p := Fin.ext (by show (n - 1 - 1 - 1) / 4 * 1024 + p.val = n / 4 * 1024 + p.val; omega)
  have k3 : kAt n = 3 := Fin.ext (by show n % 4 = 3; omega)
  have k2 : kAt (n - 1) = 2 := Fin.ext (by show (n - 1) % 4 = 2; omega)
  have k1 : kAt (n - 1 - 1) = 1 := Fin.ext (by show (n - 1 - 1) % 4 = 1; omega)
  have k0 : kAt (n - 1 - 1 - 1) = 0 := Fin.ext (by show (n - 1 - 1 - 1) % 4 = 0; omega)
  rw [r1, r2, r3, k0, k1, k2, k3, four_parts]
  rfl

/-- What a last-step point writes back is its block of the output array. -/
theorem flushed3_4_eq (c : Dev nD) (t : Fin cfg3.N) (hf : (cfg3.win 4).flush t = true) :
    (dat3 V c).flushed 4 t
      = ((cfg3.win 4).blk t).view.read (Elt Ideal) (downOut (V c main_v24) (V c main_v25) (V c main_v20) (V c main_v22)) := by
  have h3 : t.val % 4 = 3 := (flush3_4 t).mp hf
  obtain ⟨n, hn⟩ := t
  have e8 : win3_4.index ⟨n, hn⟩ (0 : Fin 2) = n / 4 := (idx_facts3 ⟨n, hn⟩).2.2.2.2.2.2.2.2.1
  have e9 : win3_4.index ⟨n, hn⟩ (1 : Fin 2) = 0 := (idx_facts3 ⟨n, hn⟩).2.2.2.2.2.2.2.2.2.1
  show (cfg3.win 4).cut (grid3.coords ⟨n, hn⟩) ((dat3 V c).after 4 ⟨n, hn⟩) = _
  rw [after3_4]
  funext j
  have hj : j = ix2 (⟨(j 0).val, (j 0).isLt⟩ : Fin 1024) (⟨(j 1).val, (j 1).isLt⟩ : Fin 2048) :=
    funext fun a => Fin.ext (by match a with | ⟨0, _⟩ => rfl | ⟨1, _⟩ => rfl)
  show outsAt3 V c n hn j = downOut (V c main_v24) (V c main_v25) (V c main_v20) (V c main_v22) (((cfg3.win 4).blk ⟨n, hn⟩).view.emb j)
  refine (congrArg (outsAt3 V c n hn) hj).trans ?_
  refine (acc_last V c n hn h3 _ _).trans ?_
  refine congrArg (downOut (V c main_v24) (V c main_v25) (V c main_v20) (V c main_v22)) ?_
  funext a; apply Fin.ext
  match a with
  | ⟨0, _⟩ => show n / 4 * 1024 + (j 0).val = win3_4.index ⟨n, hn⟩ (0 : Fin 2) * 1024 + 1 * (j 0).val; rw [e8]; omega
  | ⟨1, _⟩ => show (j 1).val = win3_4.index ⟨n, hn⟩ (1 : Fin 2) * 2048 + 1 * (j 1).val; rw [e9]; omega

theorem mem_blk3_4 (t : Fin cfg3.N) (i : S8192x2048.Idx) :
    i ∈ ((cfg3.win 4).blk t).view.set ↔ ∀ a : Fin 2, win3_4.index t a * S1024x2048.size a ≤ (i a).val ∧ (i a).val < win3_4.index t a * S1024x2048.size a + S1024x2048.size a := by
  show i ∈ ((View.whole main_v26).slice (win3_4.rect t)).set ↔ _
  rw [View.set_slice_whole, Rect.mem_set_unit]
  exact Iff.rfl

/-- The last-step point of the row block holding row r. -/
def pt3 (r : ℕ) (hr : r < 8192) : Fin cfg3.N := ⟨r / 1024 * 4 + 3, by rw [show cfg3.N = 32 from N_3]; omega⟩

/-- After the region the output array is the scaled sums. -/
theorem final3_4 (c : Dev nD) :
    (dat3 V c).arrAt 4 cfg3.N = downOut (V c main_v24) (V c main_v25) (V c main_v20) (V c main_v22) := by
  refine (dat3 V c).arrAt_eq_of_cover 4 _ (fun t hf => flushed3_4_eq V c t hf) fun i => ?_
  have hi0 : (i 0).val < 8192 := (i 0).isLt
  have hi1 : (i 1).val < 2048 := (i 1).isLt
  have hv : (pt3 (i 0).val hi0).val = (i 0).val / 1024 * 4 + 3 := rfl
  refine ⟨pt3 (i 0).val hi0, (flush3_4 _).mpr (by rw [hv]; omega), ?_⟩
  rw [mem_blk3_4]
  have e8 : win3_4.index (pt3 (i 0).val hi0) (0 : Fin 2) = (pt3 (i 0).val hi0).val / 4 := (idx_facts3 _).2.2.2.2.2.2.2.2.1
  have e9 : win3_4.index (pt3 (i 0).val hi0) (1 : Fin 2) = 0 := (idx_facts3 _).2.2.2.2.2.2.2.2.2.1
  intro a
  match a with
  | ⟨0, _⟩ => show win3_4.index _ (0 : Fin 2) * 1024 ≤ (i 0).val ∧ (i 0).val < win3_4.index _ (0 : Fin 2) * 1024 + 1024; rw [e8, hv]; omega
  | ⟨1, _⟩ => show win3_4.index _ (1 : Fin 2) * 2048 ≤ (i 1).val ∧ (i 1).val < win3_4.index _ (1 : Fin 2) * 2048 + 2048; rw [e9]; omega

end Arrays

end Cert.KernelIdeal.Down
end
-- ==== Proof.LibTypedRefs.lean ====
/-
  Contents carried along an equation of buffer types.

  An operation of a function that a host program calls reads and writes its buffers through typed references: a buffer
  together with the equation between the buffer's declared type and the type of the value it holds. Contents pass from one
  type to the other by transport along that equation. When the program's buffers are literal, the two types are the
  same, and transport is the identity — but only up to unfolding the buffer table, which a proof should not ask the
  unifier to do across a large term: comparing a transported term with its plain form by reflexivity alone can send the
  unifier into the operations underneath. These three lemmas remove the transports one at a time instead: the
  round trip is the identity for every typed reference (by substituting the equation), and a single transport is
  removed given that the two sides are equal across the two types (which, for literal buffers, a plain equation
  supplies through `heq_of_eq`).
-/
import Idealize.ShloMosaic.Lib.StableHlo

namespace Cert.Lib.TypedRefs

open Idealize.ShloMosaic Idealize.ShloMosaic.StableHlo

variable {sig : RefSig} {Val : EltTy → Type} {T : BufTy}

/-- Out of the buffer's type and back into the value's type: the identity. -/
theorem ofBuf_toBuf (x : TRef sig T) (v : T.Contents Val) : x.ofBuf (x.toBuf v) = v := by
  obtain ⟨r, h, _, _⟩ := x
  subst h
  rfl

/-- Contents of the buffer, read at the value's type, are what they equal across the two types. -/
theorem ofBuf_eq_of_heq (x : TRef sig T) (v : x.ref.ty.Contents Val) (w : T.Contents Val) (h : HEq v w) : x.ofBuf v = w := by
  obtain ⟨r, h', _, _⟩ := x
  subst h'
  exact eq_of_heq h

/-- A value, written at the buffer's type, is what it equals across the two types. -/
theorem toBuf_eq_of_heq (x : TRef sig T) (w : T.Contents Val) (v : x.ref.ty.Contents Val) (h : HEq w v) : x.toBuf w = v := by
  obtain ⟨r, h', _, _⟩ := x
  subst h'
  exact eq_of_heq h

end Cert.Lib.TypedRefs
-- ==== Proof.HostSide.lean ====
/-
  The host operations of the kernel program, read at an entry.

  Before the first stage the host quantizes the two weight matrices (absolute values, their whole-matrix sum, the mean
  kept at or above the floor, the quotient rounded to even and clamped to [-1, 1]), cuts the first into its gate and up
  halves, and views the activations [2, 4096, 2048] as a matrix of 8192 rows and the two scales as [1, 1] arrays;
  after the last stage it views the output matrix [8192, 2048] as [2, 4096, 2048].  The operations run in thirteen
  stretches; each lemma reads one buffer after one stretch from the contents before that stretch, and a buffer a
  stretch does not write is carried over unchanged.
-/
import proofs.«128026_j52905407152482_2_alg».proof.Proof.Gen.KernelIdeal.Frame
import proofs.«128026_j52905407152482_2_alg».proof.Proof.Spec
import proofs.«128026_j52905407152482_2_alg».proof.Proof.LibTypedRefs
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section
namespace Cert.KernelIdeal.HostSide
open Cert.KernelIdeal Cert.KernelIdeal.Gen Idealize.ShloMosaic Idealize.ShloMosaic.ValueIdx Cert.BitMlp
open Idealize.ShloMosaic.TcCoe Idealize.SL.Sem Idealize.ShloMosaic.StableHlo

/-- Row b · 4096 + t of the activations viewed as a matrix of 8192 rows. -/
def row2 (b : Fin 2) (t : Fin 4096) : Fin 8192 := ⟨b.val * 4096 + t.val, by have := b.isLt; have := t.isLt; omega⟩

/-- The output matrix viewed as [2, 4096, 2048]: entry (b, t, j) is the matrix's entry (4096 b + t, j). -/
theorem host_tail (X : Valuation τ sig (Elt Ideal)) (b : Fin 2) (t : Fin 4096) (j : Fin 2048) :
    StableHlo.after (hostOps4 (F := Ideal)) X (Proc.devRef .tc main_v27) (ix3 b t j) = X (Proc.devRef .tc main_v26) (ix2 (row2 b t) j) := by
  have e : StableHlo.after (hostOps4 (F := Ideal)) X (Proc.devRef .tc main_v27)
      = fun i => shapeCast S2x4096x2048 (X (Proc.devRef .tc main_v26)) shapeCasts_S8192x2048_S2x4096x2048 i := by
    dsimp only [hostOps4]; after_results; rfl
  rw [e]
  refine shapeCast_apply (s := S8192x2048) (t := S2x4096x2048) _ _ _ _ ?_
  rw [Shape.rowMajor_val_two, Shape.rowMajor_val_three]
  rfl

/-! ## A stretch leaves alone every buffer it does not write -/

theorem wsub {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, h, rfl⟩))

theorem keep0 (X : Valuation τ sig (Elt Ideal)) {r : Ref sig .tc} (hr : r ∉ [main_v0, main_v1, main_cst, main_v2, main_cst_0, main_v3, main_cst_1]) :
    StableHlo.after (hostOps0 (F := Ideal)) X (Proc.devRef .tc r) = X (Proc.devRef .tc r) :=
  StableHlo.after_of_writes_sub (W := [main_v0, main_v1, main_cst, main_v2, main_cst_0, main_v3, main_cst_1]) _ X ⟨wsub (by decide), wsub (by decide), wsub (by decide), wsub (by decide), wsub (by decide), wsub (by decide), wsub (by decide)⟩ hr

theorem keep1 (X : Valuation τ sig (Elt Ideal)) {r : Ref sig .tc} (hr : r ∉ [main_call0_v0, main_v4]) :
    StableHlo.after (hostOps0_1 (F := Ideal)) X (Proc.devRef .tc r) = X (Proc.devRef .tc r) :=
  StableHlo.after_of_writes_sub (W := [main_call0_v0, main_v4]) _ X ⟨wsub (by decide), wsub (by decide)⟩ hr

theorem keep2 (X : Valuation τ sig (Elt Ideal)) {r : Ref sig .tc} (hr : r ∉ [main_v5, main_v6]) :
    StableHlo.after (hostOps0_2 (F := Ideal)) X (Proc.devRef .tc r) = X (Proc.devRef .tc r) :=
  StableHlo.after_of_writes_sub (W := [main_v5, main_v6]) _ X ⟨wsub (by decide), wsub (by decide)⟩ hr

theorem keep3 (X : Valuation τ sig (Elt Ideal)) {r : Ref sig .tc} (hr : r ∉ [main_v7]) :
    StableHlo.after (hostOps0_3 (F := Ideal)) X (Proc.devRef .tc r) = X (Proc.devRef .tc r) :=
  StableHlo.after_of_writes_sub (W := [main_v7]) _ X (wsub (by decide)) hr

theorem keep4 (X : Valuation τ sig (Elt Ideal)) {r : Ref sig .tc} (hr : r ∉ [main_cst_2, main_cst_3]) :
    StableHlo.after (hostOps0_4 (F := Ideal)) X (Proc.devRef .tc r) = X (Proc.devRef .tc r) :=
  StableHlo.after_of_writes_sub (W := [main_cst_2, main_cst_3]) _ X ⟨wsub (by decide), wsub (by decide)⟩ hr

theorem keep5 (X : Valuation τ sig (Elt Ideal)) {r : Ref sig .tc} (hr : r ∉ [main_call2_v0, main_call2_v1, main_call2_v2, main_call2_v3, main_call2_v4, main_v8]) :
    StableHlo.after (hostOps0_5 (F := Ideal)) X (Proc.devRef .tc r) = X (Proc.devRef .tc r) :=
  StableHlo.after_of_writes_sub (W := [main_call2_v0, main_call2_v1, main_call2_v2, main_call2_v3, main_call2_v4, main_v8]) _ X ⟨wsub (by decide), wsub (by decide), wsub (by decide), wsub (by decide), wsub (by decide), wsub (by decide)⟩ hr

theorem keep6 (X : Valuation τ sig (Elt Ideal)) {r : Ref sig .tc} (hr : r ∉ [main_v9, main_v10, main_v11, main_v12, main_cst_4, main_v13, main_cst_5, main_v14, main_cst_6]) :
    StableHlo.after (hostOps0_6 (F := Ideal)) X (Proc.devRef .tc r) = X (Proc.devRef .tc r) :=
  StableHlo.after_of_writes_sub (W := [main_v9, main_v10, main_v11, main_v12, main_cst_4, main_v13, main_cst_5, main_v14, main_cst_6]) _ X ⟨wsub (by decide), wsub (by decide), wsub (by decide), wsub (by decide), wsub (by decide), wsub (by decide), wsub (by decide), wsub (by decide), wsub (by decide)⟩ hr

theorem keep7 (X : Valuation τ sig (Elt Ideal)) {r : Ref sig .tc} (hr : r ∉ [main_call3_v0, main_v15]) :
    StableHlo.after (hostOps0_7 (F := Ideal)) X (Proc.devRef .tc r) = X (Proc.devRef .tc r) :=
  StableHlo.after_of_writes_sub (W := [main_call3_v0, main_v15]) _ X ⟨wsub (by decide), wsub (by decide)⟩ hr

theorem keep8 (X : Valuation τ sig (Elt Ideal)) {r : Ref sig .tc} (hr : r ∉ [main_v16, main_v17]) :
    StableHlo.after (hostOps0_8 (F := Ideal)) X (Proc.devRef .tc r) = X (Proc.devRef .tc r) :=
  StableHlo.after_of_writes_sub (W := [main_v16, main_v17]) _ X ⟨wsub (by decide), wsub (by decide)⟩ hr

theorem keep9 (X : Valuation τ sig (Elt Ideal)) {r : Ref sig .tc} (hr : r ∉ [main_v18]) :
    StableHlo.after (hostOps0_9 (F := Ideal)) X (Proc.devRef .tc r) = X (Proc.devRef .tc r) :=
  StableHlo.after_of_writes_sub (W := [main_v18]) _ X (wsub (by decide)) hr

theorem keep10 (X : Valuation τ sig (Elt Ideal)) {r : Ref sig .tc} (hr : r ∉ [main_cst_7, main_cst_8]) :
    StableHlo.after (hostOps0_10 (F := Ideal)) X (Proc.devRef .tc r) = X (Proc.devRef .tc r) :=
  StableHlo.after_of_writes_sub (W := [main_cst_7, main_cst_8]) _ X ⟨wsub (by decide), wsub (by decide)⟩ hr

theorem keep11 (X : Valuation τ sig (Elt Ideal)) {r : Ref sig .tc} (hr : r ∉ [main_call5_v0, main_call5_v1, main_call5_v2, main_call5_v3, main_call5_v4, main_v19]) :
    StableHlo.after (hostOps0_11 (F := Ideal)) X (Proc.devRef .tc r) = X (Proc.devRef .tc r) :=
  StableHlo.after_of_writes_sub (W := [main_call5_v0, main_call5_v1, main_call5_v2, main_call5_v3, main_call5_v4, main_v19]) _ X ⟨wsub (by decide), wsub (by decide), wsub (by decide), wsub (by decide), wsub (by decide), wsub (by decide)⟩ hr

theorem keep12 (X : Valuation τ sig (Elt Ideal)) {r : Ref sig .tc} (hr : r ∉ [main_v20, main_v21, main_v22]) :
    StableHlo.after (hostOps0_12 (F := Ideal)) X (Proc.devRef .tc r) = X (Proc.devRef .tc r) :=
  StableHlo.after_of_writes_sub (W := [main_v20, main_v21, main_v22]) _ X ⟨wsub (by decide), wsub (by decide), wsub (by decide)⟩ hr

theorem s0_v0 (X : Valuation τ sig (Elt Ideal)) :
    StableHlo.after (hostOps0 (F := Ideal)) X (Proc.devRef .tc main_v0)
      = fun i => shapeCast S8192x2048 (X (Proc.devRef .tc main_arg0)) shapeCasts_S2x4096x2048_S8192x2048 i := by
  dsimp only [hostOps0]; after_results; rfl

/-- The host's sum over every axis, on the extended reals: the initial value plus the sum of all entries. -/
theorem reduceAdd_all {s : Shape} {axes : List (Fin s.rank)} (h' : s.ReducesTo axes S_) (hu : 0 < S_.numel)
    (x : FVec Ideal s .f32) (init : S_.Idx → Ideal .f32) (i : S_.Idx) :
    Host.reduceAdd (F := Ideal) x init h' hu i = init (Shape.Idx.first hu) + ∑ j : s.Idx, x j := by
  simp only [Host.reduceAdd, Ideal.hostReduceAdd_def]
  exact Ideal.hostReduceAdd_total h' (fun b => b.elim0) x _ i

theorem s0_v3_at (X : Valuation τ sig (Elt Ideal)) (A : SW1.Idx → EReal) (hA : X (Proc.devRef .tc main_arg1) = A) (i : S_.Idx) :
    StableHlo.after (hostOps0 (F := Ideal)) X (Proc.devRef .tc main_v3) i = Ideal.div (lit0 + ∑ j : SW1.Idx, absE (A j)) cnt1 := by
  subst hA
  dsimp only [hostOps0]
  after_results
  show Ideal.div (Host.reduceAdd (F := Ideal) _ _ reducesTo_S16384x2048_S_d0_1 h_S_ i) _ = _
  rw [reduceAdd_all]
  rfl

theorem s0_cst1_at (X : Valuation τ sig (Elt Ideal)) (i : S_.Idx) :
    StableHlo.after (hostOps0 (F := Ideal)) X (Proc.devRef .tc main_cst_1) i = eps := by
  dsimp only [hostOps0]
  after_results
  rfl

theorem s1_v4_at (X : Valuation τ sig (Elt Ideal)) (i : S_.Idx) (a b : EReal)
    (ha : X (Proc.devRef .tc main_cst_1) i = a) (hb : X (Proc.devRef .tc main_v3) i = b) :
    StableHlo.after (hostOps0_1 (F := Ideal)) X (Proc.devRef .tc main_v4) i = max a b := by
  dsimp only [hostOps0_1]
  after_results
  rw [Cert.Lib.TypedRefs.ofBuf_toBuf]
  rw [Cert.Lib.TypedRefs.toBuf_eq_of_heq (.of main_v4 : TRef sig ⟨S_, .f32⟩) _ _ HEq.rfl,
    Cert.Lib.TypedRefs.ofBuf_eq_of_heq (.of main_cst_1 : TRef sig ⟨S_, .f32⟩) _ _ HEq.rfl,
    Cert.Lib.TypedRefs.ofBuf_eq_of_heq (.of main_v3 : TRef sig ⟨S_, .f32⟩) _ _ HEq.rfl]
  subst ha hb
  rfl

theorem s2_v6_at (X : Valuation τ sig (Elt Ideal)) (i : S16384x2048.Idx) (a w : EReal)
    (ha : X (Proc.devRef .tc main_arg1) i = a) (hw : ∀ u : S_.Idx, X (Proc.devRef .tc main_v4) u = w) :
    StableHlo.after (hostOps0_2 (F := Ideal)) X (Proc.devRef .tc main_v6) i = Ideal.div a w := by
  dsimp only [hostOps0_2]
  after_results
  show Ideal.div (X (Proc.devRef .tc main_arg1) i) (broadcastInDim S16384x2048 ![] bcast_S_S16384x2048 (X (Proc.devRef .tc main_v4)) i) = _
  rw [broadcastInDim_apply (s := S_) (t := S16384x2048) _ _ _ i (fun a => a.elim0) (fun a => a.elim0), ha, hw]

theorem s3_v7_at (X : Valuation τ sig (Elt Ideal)) (i : S16384x2048.Idx) (a : EReal) (ha : X (Proc.devRef .tc main_v6) i = a) :
    StableHlo.after (hostOps0_3 (F := Ideal)) X (Proc.devRef .tc main_v7) i = rnd a := by
  dsimp only [hostOps0_3]
  after_results
  rw [Cert.Lib.TypedRefs.toBuf_eq_of_heq (.of main_v7 : TRef sig ⟨S16384x2048, .f32⟩) _ _ HEq.rfl,
    Cert.Lib.TypedRefs.ofBuf_eq_of_heq (.of main_v6 : TRef sig ⟨S16384x2048, .f32⟩) _ _ HEq.rfl]
  subst ha
  rfl

theorem s4_cst2_at (X : Valuation τ sig (Elt Ideal)) (i : S_.Idx) :
    StableHlo.after (hostOps0_4 (F := Ideal)) X (Proc.devRef .tc main_cst_2) i = litm1 := by
  dsimp only [hostOps0_4]
  after_results
  rfl

theorem s4_cst3_at (X : Valuation τ sig (Elt Ideal)) (i : S_.Idx) :
    StableHlo.after (hostOps0_4 (F := Ideal)) X (Proc.devRef .tc main_cst_3) i = lit1 := by
  dsimp only [hostOps0_4]
  after_results
  rfl

theorem s5_v8_at (X : Valuation τ sig (Elt Ideal)) (i : S16384x2048.Idx) (a lo hi : EReal) (ha : X (Proc.devRef .tc main_v7) i = a)
    (hlo : ∀ u : S_.Idx, X (Proc.devRef .tc main_cst_2) u = lo) (hhi : ∀ u : S_.Idx, X (Proc.devRef .tc main_cst_3) u = hi) :
    StableHlo.after (hostOps0_5 (F := Ideal)) X (Proc.devRef .tc main_v8) i = min hi (max lo a) := by
  dsimp only [hostOps0_5]
  after_results
  simp only [Cert.Lib.TypedRefs.ofBuf_toBuf]
  rw [Cert.Lib.TypedRefs.toBuf_eq_of_heq (.of main_v8 : TRef sig ⟨S16384x2048, .f32⟩) _ _ HEq.rfl,
    Cert.Lib.TypedRefs.ofBuf_eq_of_heq (.of main_v7 : TRef sig ⟨S16384x2048, .f32⟩) _ _ HEq.rfl,
    Cert.Lib.TypedRefs.ofBuf_eq_of_heq (.of main_cst_2 : TRef sig ⟨S_, .f32⟩) _ _ HEq.rfl,
    Cert.Lib.TypedRefs.ofBuf_eq_of_heq (.of main_cst_3 : TRef sig ⟨S_, .f32⟩) _ _ HEq.rfl]
  show min (α := EReal) (broadcastInDim S16384x2048 ![] bcast_S_S16384x2048 (id (X (Proc.devRef .tc main_cst_3))) i)
    (max (α := EReal) (broadcastInDim S16384x2048 ![] bcast_S_S16384x2048 (id (X (Proc.devRef .tc main_cst_2))) i) (X (Proc.devRef .tc main_v7) i)) = _
  rw [broadcastInDim_apply (s := S_) (t := S16384x2048) _ _ _ i (fun a => a.elim0) (fun a => a.elim0),
    broadcastInDim_apply (s := S_) (t := S16384x2048) _ _ _ i (fun a => a.elim0) (fun a => a.elim0), ha]
  show min (α := EReal) (X (Proc.devRef .tc main_cst_3) _) (max (α := EReal) (X (Proc.devRef .tc main_cst_2) _) a) = _
  rw [hlo, hhi]

theorem s6_v10_at (X : Valuation τ sig (Elt Ideal)) (f : Fin 8192) (k : Fin 2048) (a : EReal)
    (ha : X (Proc.devRef .tc main_v8) (ix2 (loRow f) k) = a) :
    StableHlo.after (hostOps0_6 (F := Ideal)) X (Proc.devRef .tc main_v10) (ix2 f k) = a := by
  dsimp only [hostOps0_6]
  after_results
  refine (slice2_axis0_apply (n0 := 16384) (n1 := 2048) (m := 8192) 0 _ slices_S16384x2048_S8192x2048_0_0 f k (loRow f)
    (Nat.zero_add f.val).symm).trans ?_
  exact ha

theorem s6_v11_at (X : Valuation τ sig (Elt Ideal)) (f : Fin 8192) (k : Fin 2048) (a : EReal)
    (ha : X (Proc.devRef .tc main_v8) (ix2 (hiRow f) k) = a) :
    StableHlo.after (hostOps0_6 (F := Ideal)) X (Proc.devRef .tc main_v11) (ix2 f k) = a := by
  dsimp only [hostOps0_6]
  after_results
  refine (slice2_axis0_apply (n0 := 16384) (n1 := 2048) (m := 8192) 8192 _ slices_S16384x2048_S8192x2048_8192_0 f k (hiRow f)
    (Nat.add_comm f.val 8192)).trans ?_
  exact ha

theorem s6_v14_at (X : Valuation τ sig (Elt Ideal)) (A : SW2.Idx → EReal) (hA : X (Proc.devRef .tc main_arg2) = A) (i : S_.Idx) :
    StableHlo.after (hostOps0_6 (F := Ideal)) X (Proc.devRef .tc main_v14) i = Ideal.div (lit0 + ∑ j : SW2.Idx, absE (A j)) cnt2 := by
  subst hA
  dsimp only [hostOps0_6]
  after_results
  show Ideal.div (Host.reduceAdd (F := Ideal) _ _ reducesTo_S2048x8192_S_d0_1 h_S_ i) _ = _
  rw [reduceAdd_all]
  rfl

theorem s6_cst6_at (X : Valuation τ sig (Elt Ideal)) (i : S_.Idx) :
    StableHlo.after (hostOps0_6 (F := Ideal)) X (Proc.devRef .tc main_cst_6) i = eps := by
  dsimp only [hostOps0_6]
  after_results
  rfl

theorem s7_v15_at (X : Valuation τ sig (Elt Ideal)) (i : S_.Idx) (a b : EReal)
    (ha : X (Proc.devRef .tc main_cst_6) i = a) (hb : X (Proc.devRef .tc main_v14) i = b) :
    StableHlo.after (hostOps0_7 (F := Ideal)) X (Proc.devRef .tc main_v15) i = max a b := by
  dsimp only [hostOps0_7]
  after_results
  rw [Cert.Lib.TypedRefs.ofBuf_toBuf]
  rw [Cert.Lib.TypedRefs.toBuf_eq_of_heq (.of main_v15 : TRef sig ⟨S_, .f32⟩) _ _ HEq.rfl,
    Cert.Lib.TypedRefs.ofBuf_eq_of_heq (.of main_cst_6 : TRef sig ⟨S_, .f32⟩) _ _ HEq.rfl,
    Cert.Lib.TypedRefs.ofBuf_eq_of_heq (.of main_v14 : TRef sig ⟨S_, .f32⟩) _ _ HEq.rfl]
  subst ha hb
  rfl

theorem s8_v17_at (X : Valuation τ sig (Elt Ideal)) (i : S2048x8192.Idx) (a w : EReal)
    (ha : X (Proc.devRef .tc main_arg2) i = a) (hw : ∀ u : S_.Idx, X (Proc.devRef .tc main_v15) u = w) :
    StableHlo.after (hostOps0_8 (F := Ideal)) X (Proc.devRef .tc main_v17) i = Ideal.div a w := by
  dsimp only [hostOps0_8]
  after_results
  show Ideal.div (X (Proc.devRef .tc main_arg2) i) (broadcastInDim S2048x8192 ![] bcast_S_S2048x8192 (X (Proc.devRef .tc main_v15)) i) = _
  rw [broadcastInDim_apply (s := S_) (t := S2048x8192) _ _ _ i (fun a => a.elim0) (fun a => a.elim0), ha, hw]

theorem s9_v18_at (X : Valuation τ sig (Elt Ideal)) (i : S2048x8192.Idx) (a : EReal) (ha : X (Proc.devRef .tc main_v17) i = a) :
    StableHlo.after (hostOps0_9 (F := Ideal)) X (Proc.devRef .tc main_v18) i = rnd a := by
  dsimp only [hostOps0_9]
  after_results
  rw [Cert.Lib.TypedRefs.toBuf_eq_of_heq (.of main_v18 : TRef sig ⟨S2048x8192, .f32⟩) _ _ HEq.rfl,
    Cert.Lib.TypedRefs.ofBuf_eq_of_heq (.of main_v17 : TRef sig ⟨S2048x8192, .f32⟩) _ _ HEq.rfl]
  subst ha
  rfl

theorem s10_cst7_at (X : Valuation τ sig (Elt Ideal)) (i : S_.Idx) :
    StableHlo.after (hostOps0_10 (F := Ideal)) X (Proc.devRef .tc main_cst_7) i = litm1 := by
  dsimp only [hostOps0_10]
  after_results
  rfl

theorem s10_cst8_at (X : Valuation τ sig (Elt Ideal)) (i : S_.Idx) :
    StableHlo.after (hostOps0_10 (F := Ideal)) X (Proc.devRef .tc main_cst_8) i = lit1 := by
  dsimp only [hostOps0_10]
  after_results
  rfl

theorem s11_v19_at (X : Valuation τ sig (Elt Ideal)) (i : S2048x8192.Idx) (a lo hi : EReal) (ha : X (Proc.devRef .tc main_v18) i = a)
    (hlo : ∀ u : S_.Idx, X (Proc.devRef .tc main_cst_7) u = lo) (hhi : ∀ u : S_.Idx, X (Proc.devRef .tc main_cst_8) u = hi) :
    StableHlo.after (hostOps0_11 (F := Ideal)) X (Proc.devRef .tc main_v19) i = min hi (max lo a) := by
  dsimp only [hostOps0_11]
  after_results
  simp only [Cert.Lib.TypedRefs.ofBuf_toBuf]
  rw [Cert.Lib.TypedRefs.toBuf_eq_of_heq (.of main_v19 : TRef sig ⟨S2048x8192, .f32⟩) _ _ HEq.rfl,
    Cert.Lib.TypedRefs.ofBuf_eq_of_heq (.of main_v18 : TRef sig ⟨S2048x8192, .f32⟩) _ _ HEq.rfl,
    Cert.Lib.TypedRefs.ofBuf_eq_of_heq (.of main_cst_7 : TRef sig ⟨S_, .f32⟩) _ _ HEq.rfl,
    Cert.Lib.TypedRefs.ofBuf_eq_of_heq (.of main_cst_8 : TRef sig ⟨S_, .f32⟩) _ _ HEq.rfl]
  show min (α := EReal) (broadcastInDim S2048x8192 ![] bcast_S_S2048x8192 (id (X (Proc.devRef .tc main_cst_8))) i)
    (max (α := EReal) (broadcastInDim S2048x8192 ![] bcast_S_S2048x8192 (id (X (Proc.devRef .tc main_cst_7))) i) (X (Proc.devRef .tc main_v18) i)) = _
  rw [broadcastInDim_apply (s := S_) (t := S2048x8192) _ _ _ i (fun a => a.elim0) (fun a => a.elim0),
    broadcastInDim_apply (s := S_) (t := S2048x8192) _ _ _ i (fun a => a.elim0) (fun a => a.elim0), ha]
  show min (α := EReal) (X (Proc.devRef .tc main_cst_8) _) (max (α := EReal) (X (Proc.devRef .tc main_cst_7) _) a) = _
  rw [hlo, hhi]

theorem s12_v20_at (X : Valuation τ sig (Elt Ideal)) (i : S2048x8192.Idx) (a : EReal) (ha : X (Proc.devRef .tc main_v19) i = a) :
    StableHlo.after (hostOps0_12 (F := Ideal)) X (Proc.devRef .tc main_v20) i = a := by
  dsimp only [hostOps0_12]
  after_results
  exact ha

/-- A scalar viewed as a [1, 1] array. -/
theorem scalar_11 (x : S_.Idx → EReal) (a : EReal) (ha : ∀ u : S_.Idx, x u = a) :
    shapeCast S1x1 x shapeCasts_S_S1x1 (ix2 (0 : Fin 1) (0 : Fin 1)) = a := by
  refine (shapeCast_apply (s := S_) (t := S1x1) _ _ _ ix0 ?_).trans (ha _)
  refine (Shape.rowMajorPi_zero _ _).trans ?_
  rw [Shape.rowMajor_val_two]
  rfl

theorem s12_v21_at (X : Valuation τ sig (Elt Ideal)) (a : EReal) (ha : ∀ u : S_.Idx, X (Proc.devRef .tc main_v4) u = a) :
    StableHlo.after (hostOps0_12 (F := Ideal)) X (Proc.devRef .tc main_v21) (ix2 (0 : Fin 1) (0 : Fin 1)) = a := by
  dsimp only [hostOps0_12]
  after_results
  exact scalar_11 _ a ha

theorem s12_v22_at (X : Valuation τ sig (Elt Ideal)) (a : EReal) (ha : ∀ u : S_.Idx, X (Proc.devRef .tc main_v15) u = a) :
    StableHlo.after (hostOps0_12 (F := Ideal)) X (Proc.devRef .tc main_v22) (ix2 (0 : Fin 1) (0 : Fin 1)) = a := by
  dsimp only [hostOps0_12]
  after_results
  exact scalar_11 _ a ha

section Run
variable (m : (ℓ : Loc nD τ sig) → Buf (Elt Ideal) ℓ) (ρ : Dev nD → PrngReg) (c : Dev nD)

/-- The activations viewed as a matrix of 8192 rows: entry (4096 b + t, k) is the argument's entry (b, t, k). -/
theorem host_v0 (b : Fin 2) (t : Fin 4096) (k : Fin 2048) :
    W13 m ρ c (Proc.devRef .tc main_v0) (ix2 (row2 b t) k) = m ((c : Thread nD τ).loc main_arg0) (ix3 b t k) := by
  have h : W13 m ρ c (Proc.devRef .tc main_v0) = W1 m ρ c (Proc.devRef .tc main_v0) :=
    (keep12 (W12 m ρ c) (by decide)).trans <| (keep11 (W11 m ρ c) (by decide)).trans <| (keep10 (W10 m ρ c) (by decide)).trans <|
    (keep9 (W9 m ρ c) (by decide)).trans <| (keep8 (W8 m ρ c) (by decide)).trans <| (keep7 (W7 m ρ c) (by decide)).trans <|
    (keep6 (W6 m ρ c) (by decide)).trans <| (keep5 (W5 m ρ c) (by decide)).trans <| (keep4 (W4 m ρ c) (by decide)).trans <|
    (keep3 (W3 m ρ c) (by decide)).trans <| (keep2 (W2 m ρ c) (by decide)).trans <| (keep1 (W1 m ρ c) (by decide))
  rw [h]
  show StableHlo.after (hostOps0 (F := Ideal)) (W0 m ρ c) (Proc.devRef .tc main_v0) (ix2 (row2 b t) k) = _
  rw [s0_v0]
  refine (shapeCast_apply (s := S2x4096x2048) (t := S8192x2048) _ _ _ (ix3 b t k) ?_).trans rfl
  rw [Shape.rowMajor_val_two, Shape.rowMajor_val_three]
  rfl

/-! ## The first weight matrix -/

/-- The first scale, after the second stretch. -/
theorem scale1_W2 (u : S_.Idx) : W2 m ρ c (Proc.devRef .tc main_v4) u = ws1 (m ((c : Thread nD τ).loc main_arg1)) :=
  s1_v4_at (W1 m ρ c) u _ _ (s0_cst1_at (W0 m ρ c) u) (s0_v3_at (W0 m ρ c) (m ((c : Thread nD τ).loc main_arg1)) rfl u)

theorem arg1_W2 : W2 m ρ c (Proc.devRef .tc main_arg1) = m ((c : Thread nD τ).loc main_arg1) :=
  (keep1 (W1 m ρ c) (r := main_arg1) (by decide)).trans <|
      (keep0 (W0 m ρ c) (r := main_arg1) (by decide))

/-- The first matrix's integers, after the sixth stretch. -/
theorem ints1_W6 (i : S16384x2048.Idx) :
    W6 m ρ c (Proc.devRef .tc main_v8) i = wint (m ((c : Thread nD τ).loc main_arg1) i) (ws1 (m ((c : Thread nD τ).loc main_arg1))) := by
  have h6 : W3 m ρ c (Proc.devRef .tc main_v6) i = Ideal.div (m ((c : Thread nD τ).loc main_arg1) i) (ws1 (m ((c : Thread nD τ).loc main_arg1))) :=
    s2_v6_at (W2 m ρ c) i _ _ (congrFun (arg1_W2 m ρ c) i) (scale1_W2 m ρ c)
  have h7 : W4 m ρ c (Proc.devRef .tc main_v7) i = rnd (Ideal.div (m ((c : Thread nD τ).loc main_arg1) i) (ws1 (m ((c : Thread nD τ).loc main_arg1)))) :=
    s3_v7_at (W3 m ρ c) i _ h6
  have h7' : W5 m ρ c (Proc.devRef .tc main_v7) i = rnd (Ideal.div (m ((c : Thread nD τ).loc main_arg1) i) (ws1 (m ((c : Thread nD τ).loc main_arg1)))) :=
    (congrFun (keep4 (W4 m ρ c) (r := main_v7) (by decide)) i).trans h7
  exact s5_v8_at (W5 m ρ c) i _ _ _ h7' (s4_cst2_at (W4 m ρ c)) (s4_cst3_at (W4 m ρ c))

/-- The gate half of the first matrix's integers. -/
theorem host_v10 (f : Fin 8192) (k : Fin 2048) :
    W13 m ρ c (Proc.devRef .tc main_v10) (ix2 f k)
      = wint (m ((c : Thread nD τ).loc main_arg1) (ix2 (loRow f) k)) (ws1 (m ((c : Thread nD τ).loc main_arg1))) := by
  have h : W13 m ρ c (Proc.devRef .tc main_v10) = W7 m ρ c (Proc.devRef .tc main_v10) :=
    (keep12 (W12 m ρ c) (r := main_v10) (by decide)).trans <|
      (keep11 (W11 m ρ c) (r := main_v10) (by decide)).trans <|
      (keep10 (W10 m ρ c) (r := main_v10) (by decide)).trans <|
      (keep9 (W9 m ρ c) (r := main_v10) (by decide)).trans <|
      (keep8 (W8 m ρ c) (r := main_v10) (by decide)).trans <|
      (keep7 (W7 m ρ c) (r := main_v10) (by decide))
  rw [h]
  exact s6_v10_at (W6 m ρ c) f k _ (ints1_W6 m ρ c (ix2 (loRow f) k))

/-- The up half of the first matrix's integers. -/
theorem host_v11 (f : Fin 8192) (k : Fin 2048) :
    W13 m ρ c (Proc.devRef .tc main_v11) (ix2 f k)
      = wint (m ((c : Thread nD τ).loc main_arg1) (ix2 (hiRow f) k)) (ws1 (m ((c : Thread nD τ).loc main_arg1))) := by
  have h : W13 m ρ c (Proc.devRef .tc main_v11) = W7 m ρ c (Proc.devRef .tc main_v11) :=
    (keep12 (W12 m ρ c) (r := main_v11) (by decide)).trans <|
      (keep11 (W11 m ρ c) (r := main_v11) (by decide)).trans <|
      (keep10 (W10 m ρ c) (r := main_v11) (by decide)).trans <|
      (keep9 (W9 m ρ c) (r := main_v11) (by decide)).trans <|
      (keep8 (W8 m ρ c) (r := main_v11) (by decide)).trans <|
      (keep7 (W7 m ρ c) (r := main_v11) (by decide))
  rw [h]
  exact s6_v11_at (W6 m ρ c) f k _ (ints1_W6 m ρ c (ix2 (hiRow f) k))

/-- The first scale as a [1, 1] array. -/
theorem host_v21 : W13 m ρ c (Proc.devRef .tc main_v21) (ix2 0 0) = ws1 (m ((c : Thread nD τ).loc main_arg1)) := by
  have h : W12 m ρ c (Proc.devRef .tc main_v4) = W2 m ρ c (Proc.devRef .tc main_v4) :=
    (keep11 (W11 m ρ c) (r := main_v4) (by decide)).trans <|
      (keep10 (W10 m ρ c) (r := main_v4) (by decide)).trans <|
      (keep9 (W9 m ρ c) (r := main_v4) (by decide)).trans <|
      (keep8 (W8 m ρ c) (r := main_v4) (by decide)).trans <|
      (keep7 (W7 m ρ c) (r := main_v4) (by decide)).trans <|
      (keep6 (W6 m ρ c) (r := main_v4) (by decide)).trans <|
      (keep5 (W5 m ρ c) (r := main_v4) (by decide)).trans <|
      (keep4 (W4 m ρ c) (r := main_v4) (by decide)).trans <|
      (keep3 (W3 m ρ c) (r := main_v4) (by decide)).trans <|
      (keep2 (W2 m ρ c) (r := main_v4) (by decide))
  exact s12_v21_at (W12 m ρ c) _ fun u => (congrFun h u).trans (scale1_W2 m ρ c u)

/-! ## The second weight matrix -/

theorem arg2_W6 : W6 m ρ c (Proc.devRef .tc main_arg2) = m ((c : Thread nD τ).loc main_arg2) :=
  (keep5 (W5 m ρ c) (r := main_arg2) (by decide)).trans <|
      (keep4 (W4 m ρ c) (r := main_arg2) (by decide)).trans <|
      (keep3 (W3 m ρ c) (r := main_arg2) (by decide)).trans <|
      (keep2 (W2 m ρ c) (r := main_arg2) (by decide)).trans <|
      (keep1 (W1 m ρ c) (r := main_arg2) (by decide)).trans <|
      (keep0 (W0 m ρ c) (r := main_arg2) (by decide))

theorem arg2_W8 : W8 m ρ c (Proc.devRef .tc main_arg2) = m ((c : Thread nD τ).loc main_arg2) :=
  (keep7 (W7 m ρ c) (r := main_arg2) (by decide)).trans <|
      (keep6 (W6 m ρ c) (r := main_arg2) (by decide)).trans <|
      arg2_W6 m ρ c

/-- The second scale, after the eighth stretch. -/
theorem scale2_W8 (u : S_.Idx) : W8 m ρ c (Proc.devRef .tc main_v15) u = ws2 (m ((c : Thread nD τ).loc main_arg2)) :=
  s7_v15_at (W7 m ρ c) u _ _ (s6_cst6_at (W6 m ρ c) u) (s6_v14_at (W6 m ρ c) (m ((c : Thread nD τ).loc main_arg2)) (arg2_W6 m ρ c) u)

/-- The second matrix's integers, after the twelfth stretch. -/
theorem ints2_W12 (i : S2048x8192.Idx) :
    W12 m ρ c (Proc.devRef .tc main_v19) i = wint (m ((c : Thread nD τ).loc main_arg2) i) (ws2 (m ((c : Thread nD τ).loc main_arg2))) := by
  have h17 : W9 m ρ c (Proc.devRef .tc main_v17) i = Ideal.div (m ((c : Thread nD τ).loc main_arg2) i) (ws2 (m ((c : Thread nD τ).loc main_arg2))) :=
    s8_v17_at (W8 m ρ c) i _ _ (congrFun (arg2_W8 m ρ c) i) (scale2_W8 m ρ c)
  have h18 : W10 m ρ c (Proc.devRef .tc main_v18) i = rnd (Ideal.div (m ((c : Thread nD τ).loc main_arg2) i) (ws2 (m ((c : Thread nD τ).loc main_arg2)))) :=
    s9_v18_at (W9 m ρ c) i _ h17
  have h18' : W11 m ρ c (Proc.devRef .tc main_v18) i = rnd (Ideal.div (m ((c : Thread nD τ).loc main_arg2) i) (ws2 (m ((c : Thread nD τ).loc main_arg2)))) :=
    (congrFun (keep10 (W10 m ρ c) (r := main_v18) (by decide)) i).trans h18
  exact s11_v19_at (W11 m ρ c) i _ _ _ h18' (s10_cst7_at (W10 m ρ c)) (s10_cst8_at (W10 m ρ c))

/-- The second matrix's integers. -/
theorem host_v20 (j : Fin 2048) (f : Fin 8192) :
    W13 m ρ c (Proc.devRef .tc main_v20) (ix2 j f)
      = wint (m ((c : Thread nD τ).loc main_arg2) (ix2 j f)) (ws2 (m ((c : Thread nD τ).loc main_arg2))) :=
  s12_v20_at (W12 m ρ c) (ix2 j f) _ (ints2_W12 m ρ c (ix2 j f))

/-- The second scale as a [1, 1] array. -/
theorem host_v22 : W13 m ρ c (Proc.devRef .tc main_v22) (ix2 0 0) = ws2 (m ((c : Thread nD τ).loc main_arg2)) := by
  have h : W12 m ρ c (Proc.devRef .tc main_v15) = W8 m ρ c (Proc.devRef .tc main_v15) :=
    (keep11 (W11 m ρ c) (r := main_v15) (by decide)).trans <|
      (keep10 (W10 m ρ c) (r := main_v15) (by decide)).trans <|
      (keep9 (W9 m ρ c) (r := main_v15) (by decide)).trans <|
      (keep8 (W8 m ρ c) (r := main_v15) (by decide))
  exact s12_v22_at (W12 m ρ c) _ fun u => (congrFun h u).trans (scale2_W8 m ρ c u)

end Run

end Cert.KernelIdeal.HostSide
end
-- ==== Proof.KernelValue.lean ====
/-
  The four stages chained: the kernel program's result is the factored arrangement of the specification.

  Each region's output array is a whole-array function of the arrays the region finds; a region leaves every array it does
  not own as it found it; so the contents at the region boundaries unfold, one equation per array: the quantized rows and
  their scales from the reshaped activations, the hidden matrix from those and the quantized first weights, the hidden
  rows' scales, and the output from the hidden matrix, its scales and the quantized second weights. Read along one row
  (b, t) these are the specification's scalar functions of that row.
-/
import proofs.«128026_j52905407152482_2_alg».proof.Proof.Gen.KernelIdeal.Frame
import proofs.«128026_j52905407152482_2_alg».proof.Proof.Blocks
import proofs.«128026_j52905407152482_2_alg».proof.Proof.Region0
import proofs.«128026_j52905407152482_2_alg».proof.Proof.Region1
import proofs.«128026_j52905407152482_2_alg».proof.Proof.Region2
import proofs.«128026_j52905407152482_2_alg».proof.Proof.Region3
import proofs.«128026_j52905407152482_2_alg».proof.Proof.HostSide
import Idealize.ShloMosaic.Lib.ValueIdx
import Idealize.ShloMosaic.Lib.Pipeline.Value

set_option maxRecDepth 16384

noncomputable section

namespace Cert.KernelIdeal.Chain

open Cert.KernelIdeal Cert.KernelIdeal.Gen Idealize.ShloMosaic Idealize.ShloMosaic.ValueIdx Cert.BitMlp
open Idealize.ShloMosaic.TcCoe Idealize.SL.Sem
open Cert.KernelIdeal.HostSide

variable (m : (ℓ : Loc nD τ sig) → Buf (Elt Ideal) ℓ) (ρ : Dev nD → PrngReg) (c : Dev nD)

/-! ## The arrays at the region boundaries -/

theorem xq_eq : V14 m ρ c main_v23_0 = Quant.quantRows (V13 m ρ c main_v0) :=
  (W14_arr m ρ c 1).trans (Quant.final0_1 (V13 m ρ) c)
theorem sx_eq : V14 m ρ c main_v23_1 = Quant.scaleRows (V13 m ρ c main_v0) :=
  (W14_arr m ρ c 2).trans (Quant.final0_2 (V13 m ρ) c)
theorem wg14 : V14 m ρ c main_v10 = V13 m ρ c main_v10 := W14_of_ne m ρ c main_v10 (by decide)
theorem wu14 : V14 m ρ c main_v11 = V13 m ρ c main_v11 := W14_of_ne m ρ c main_v11 (by decide)
theorem ws14 : V14 m ρ c main_v21 = V13 m ρ c main_v21 := W14_of_ne m ρ c main_v21 (by decide)
theorem h15 : V15 m ρ c main_v24 = GateUp.hidden (V14 m ρ c main_v23_0) (V14 m ρ c main_v23_1) (V14 m ρ c main_v10)
    (V14 m ρ c main_v11) (V14 m ρ c main_v21) :=
  (W15_arr m ρ c 5).trans (GateUp.final1_5 (V14 m ρ) c)
theorem h16 : V16 m ρ c main_v24 = V15 m ρ c main_v24 :=
  (W16_arr m ρ c 0).trans (((dat2 (V15 m ρ) c).arrAt_in 0 rfl cfg2.N).trans (A_eq2 (V15 m ρ) c 0))
theorem sh16 : V16 m ρ c main_v25 = RowMax.scaleRowsH (V15 m ρ c main_v24) :=
  (W16_arr m ρ c 1).trans (RowMax.final2_1 (V15 m ρ) c)
theorem wd16 : V16 m ρ c main_v20 = V13 m ρ c main_v20 :=
  (W16_of_ne m ρ c main_v20 (by decide)).trans ((W15_of_ne m ρ c main_v20 (by decide)).trans (W14_of_ne m ρ c main_v20 (by decide)))
theorem wsd16 : V16 m ρ c main_v22 = V13 m ρ c main_v22 :=
  (W16_of_ne m ρ c main_v22 (by decide)).trans ((W15_of_ne m ρ c main_v22 (by decide)).trans (W14_of_ne m ρ c main_v22 (by decide)))
theorem out17 : W17 m ρ c (Proc.devRef .tc main_v26)
    = Down.downOut (V16 m ρ c main_v24) (V16 m ρ c main_v25) (V16 m ρ c main_v20) (V16 m ρ c main_v22) :=
  (W17_arr m ρ c 4).trans (Down.final3_4 (V16 m ρ) c)

/-! ## One row through the four stages -/

section Row
variable (b : Fin 2) (t : Fin 4096)

/-- The activation row (b, t). -/
def xrow : Fin 2048 → EReal := fun k => m ((c : Thread nD τ).loc main_arg0) (ix3 b t k)
/-- Row f of the quantized gate / up weights. -/
def wgq (f : Fin 8192) : Fin 2048 → EReal :=
  fun k => wint (m ((c : Thread nD τ).loc main_arg1) (ix2 (loRow f) k)) (ws1 (m ((c : Thread nD τ).loc main_arg1)))
def wuq (f : Fin 8192) : Fin 2048 → EReal :=
  fun k => wint (m ((c : Thread nD τ).loc main_arg1) (ix2 (hiRow f) k)) (ws1 (m ((c : Thread nD τ).loc main_arg1)))
/-- The hidden row. -/
def hrow : Fin 8192 → EReal :=
  fun f => facH (xrow m c b t) (wgq m c f) (wuq m c f) (ws1 (m ((c : Thread nD τ).loc main_arg1)))

theorem x_row : rowOf (V13 m ρ c main_v0) (row2 b t) = xrow m c b t := funext fun k => host_v0 m ρ c b t k

theorem xq_row : rowOf (V14 m ρ c main_v23_0) (row2 b t) = fun k => aint (xrow m c b t k) (ascale (xrow m c b t)) := by
  rw [xq_eq]
  funext k
  show aint (rowOf (V13 m ρ c main_v0) (row2 b t) k) (ascale (rowOf (V13 m ρ c main_v0) (row2 b t))) = _
  rw [x_row]

theorem sx_at : V14 m ρ c main_v23_1 (ix2 (row2 b t) 0) = ascale (xrow m c b t) := by
  rw [sx_eq]
  show ascale (rowOf (V13 m ρ c main_v0) (row2 b t)) = _
  rw [x_row]

theorem wg_row (f : Fin 8192) : rowOf (V14 m ρ c main_v10) f = wgq m c f := by
  rw [wg14]; exact funext fun k => host_v10 m ρ c f k
theorem wu_row (f : Fin 8192) : rowOf (V14 m ρ c main_v11) f = wuq m c f := by
  rw [wu14]; exact funext fun k => host_v11 m ρ c f k
theorem ws_at : V14 m ρ c main_v21 (ix2 0 0) = ws1 (m ((c : Thread nD τ).loc main_arg1)) := by
  rw [ws14]; exact host_v21 m ρ c

theorem h_at (f : Fin 8192) : V15 m ρ c main_v24 (ix2 (row2 b t) f) = hrow m c b t f := by
  rw [h15]
  show gated (scaledDot (rowOf (V14 m ρ c main_v23_0) (row2 b t)) (rowOf (V14 m ρ c main_v10) f)
      (V14 m ρ c main_v23_1 (ix2 (row2 b t) 0)) (V14 m ρ c main_v21 (ix2 0 0)))
    (scaledDot (rowOf (V14 m ρ c main_v23_0) (row2 b t)) (rowOf (V14 m ρ c main_v11) f)
      (V14 m ρ c main_v23_1 (ix2 (row2 b t) 0)) (V14 m ρ c main_v21 (ix2 0 0))) = _
  rw [xq_row, sx_at, wg_row, wu_row, ws_at]
  rfl

theorem h_row : rowOf (V16 m ρ c main_v24) (row2 b t) = hrow m c b t := by
  rw [h16]; exact funext fun f => h_at m ρ c b t f

theorem sh_at : V16 m ρ c main_v25 (ix2 (row2 b t) 0) = ascale (hrow m c b t) := by
  rw [sh16]
  show ascale (rowOf (V15 m ρ c main_v24) (row2 b t)) = _
  exact congrArg ascale (funext fun f => h_at m ρ c b t f)

theorem wd_row (j : Fin 2048) : rowOf (V16 m ρ c main_v20) j
    = fun f => wint (m ((c : Thread nD τ).loc main_arg2) (ix2 j f)) (ws2 (m ((c : Thread nD τ).loc main_arg2))) := by
  rw [wd16]; exact funext fun f => host_v20 m ρ c j f
theorem wsd_at : V16 m ρ c main_v22 (ix2 0 0) = ws2 (m ((c : Thread nD τ).loc main_arg2)) := by
  rw [wsd16]; exact host_v22 m ρ c

/-- The program's result at (b, t, j): the specification's factored arrangement of the three argument arrays. -/
theorem kernel_value (j : Fin 2048) :
    W18 m ρ c (Proc.devRef .tc main_v27) (ix3 b t j)
      = facOut (m ((c : Thread nD τ).loc main_arg0)) (m ((c : Thread nD τ).loc main_arg1)) (m ((c : Thread nD τ).loc main_arg2)) b t j := by
  refine (host_tail (W17 m ρ c) b t j).trans ?_
  rw [out17]
  show scaledDot (fun f : Fin 8192 => aint (rowOf (V16 m ρ c main_v24) (row2 b t) f) (V16 m ρ c main_v25 (ix2 (row2 b t) 0)))
      (rowOf (V16 m ρ c main_v20) j) (V16 m ρ c main_v25 (ix2 (row2 b t) 0)) (V16 m ρ c main_v22 (ix2 0 0)) = _
  rw [h_row, sh_at, wd_row, wsd_at]
  rfl

end Row

end Cert.KernelIdeal.Chain

end
-- ==== Proof.RefRunH.lean ====
/-
  The reference program's run, a stretch at a time. The program is a straight line of 112 host operations; it is cut
  where its stages end — the first activation quantization, the first weight quantization, the gated product, the
  second activation quantization, the second weight quantization, the last product. Running a concatenation of two
  lines is running the second after the first, so each stretch is read back by itself, from ANY buffer contents at its
  start: its result buffer holds the stage function of the contents it reads, and the buffers it does not write keep
  theirs. Chained from the launch contents this gives the whole run: the result buffer at the last stage function of
  the three arguments, the arguments unchanged.
-/
import proofs.«128026_j52905407152482_2_alg».proof.Proof.RefOpsP
import proofs.«128026_j52905407152482_2_alg».proof.Proof.RefReadP
import Idealize.ShloMosaic.Lib.StableHlo.Run

noncomputable section

namespace Cert.ReferenceIdeal.RunH

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

/-- Running two lines one after the other folds the second over what the first leaves. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- Stretch 1: the first activation quantization. -/
abbrev c1 : List (HloOp τ sig (Elt F)) :=
  [ unary main_arg0 main_v0 (Host.absf : (⟨S2x4096x2048, .f32⟩ : BufTy).Contents (Elt F) → (⟨S2x4096x2048, .f32⟩ : BufTy).Contents (Elt F)),
    nullary main_cst (constant S_ .f32 0xFF800000#32),
    binary main_v0 main_cst main_v1 ((fun x v => Host.reduce FloatOps.maximumf x v reducesTo_S2x4096x2048_S2x4096_d2 h_S_) : (⟨S2x4096x2048, .f32⟩ : BufTy).Contents (Elt F) → (⟨S_, .f32⟩ : BufTy).Contents (Elt F) → (⟨S2x4096, .f32⟩ : BufTy).Contents (Elt F)),
    unary main_v1 main_v2 (broadcastInDim S2x4096x1 ![0, 1] bcast_S2x4096_S2x4096x1_0_1 : (⟨S2x4096, .f32⟩ : BufTy).Contents (Elt F) → (⟨S2x4096x1, .f32⟩ : BufTy).Contents (Elt F)),
    nullary main_cst_0 (constant S_ .f32 0x3727C5AC#32),
    unary main_cst_0 main_call0_v0 (id : (⟨S_, .f32⟩ : BufTy).Contents (Elt F) → (⟨S_, .f32⟩ : BufTy).Contents (Elt F)),
    unary main_call0_v0 main_call0_v1 ((broadcastInDim S2x4096x1 ![] bcast_S_S2x4096x1) : (⟨S_, .f32⟩ : BufTy).Contents (Elt F) → (⟨S2x4096x1, .f32⟩ : BufTy).Contents (Elt F)),
    binary main_call0_v1 main_v2 main_v3 (maximumf : (⟨S2x4096x1, .f32⟩ : BufTy).Contents (Elt F) → (⟨S2x4096x1, .f32⟩ : BufTy).Contents (Elt F) → (⟨S2x4096x1, .f32⟩ : BufTy).Contents (Elt F)),
    nullary main_cst_1 (constant S_ .f32 0x42FE0000#32),
    unary main_cst_1 main_v4 (broadcastInDim S2x4096x1 ![] bcast_S_S2x4096x1 : (⟨S_, .f32⟩ : BufTy).Contents (Elt F) → (⟨S2x4096x1, .f32⟩ : BufTy).Contents (Elt F)),
    binary main_v4 main_v3 main_v5 (Host.divf : (⟨S2x4096x1, .f32⟩ : BufTy).Contents (Elt F) → (⟨S2x4096x1, .f32⟩ : BufTy).Contents (Elt F) → (⟨S2x4096x1, .f32⟩ : BufTy).Contents (Elt F)),
    unary main_v5 main_v6 (broadcastInDim S2x4096x2048 ![0, 1, 2] bcast_S2x4096x1_S2x4096x2048_0_1_2 : (⟨S2x4096x1, .f32⟩ : BufTy).Contents (Elt F) → (⟨S2x4096x2048, .f32⟩ : BufTy).Contents (Elt F)),
    binary main_arg0 main_v6 main_v7 (mulf : (⟨S2x4096x2048, .f32⟩ : BufTy).Contents (Elt F) → (⟨S2x4096x2048, .f32⟩ : BufTy).Contents (Elt F) → (⟨S2x4096x2048, .f32⟩ : BufTy).Contents (Elt F)),
    unary main_v7 main_v8 (Host.roundeven : (⟨S2x4096x2048, .f32⟩ : BufTy).Contents (Elt F) → (⟨S2x4096x2048, .f32⟩ : BufTy).Contents (Elt F)),
    nullary main_cst_2 (constant S_ .f32 0xC3000000#32),
    nullary main_cst_3 (constant S_ .f32 0x42FE0000#32),
    unary main_cst_2 main_call2_v0 (id : (⟨S_, .f32⟩ : BufTy).Contents (Elt F) → (⟨S_, .f32⟩ : BufTy).Contents (Elt F)),
    unary main_call2_v0 main_call2_v1 ((broadcastInDim S2x4096x2048 ![] bcast_S_S2x4096x2048) : (⟨S_, .f32⟩ : BufTy).Contents (Elt F) → (⟨S2x4096x2048, .f32⟩ : BufTy).Contents (Elt F)),
    binary main_call2_v1 main_v8 main_call2_v2 (maximumf : (⟨S2x4096x2048, .f32⟩ : BufTy).Contents (Elt F) → (⟨S2x4096x2048, .f32⟩ : BufTy).Contents (Elt F) → (⟨S2x4096x2048, .f32⟩ : BufTy).Contents (Elt F)),
    unary main_cst_3 main_call2_v3 (id : (⟨S_, .f32⟩ : BufTy).Contents (Elt F) → (⟨S_, .f32⟩ : BufTy).Contents (Elt F)),
    unary main_call2_v3 main_call2_v4 ((broadcastInDim S2x4096x2048 ![] bcast_S_S2x4096x2048) : (⟨S_, .f32⟩ : BufTy).Contents (Elt F) → (⟨S2x4096x2048, .f32⟩ : BufTy).Contents (Elt F)),
    binary main_call2_v4 main_call2_v2 main_v9 (minimumf : (⟨S2x4096x2048, .f32⟩ : BufTy).Contents (Elt F) → (⟨S2x4096x2048, .f32⟩ : BufTy).Contents (Elt F) → (⟨S2x4096x2048, .f32⟩ : BufTy).Contents (Elt F)),
    unary main_v5 main_v10 (broadcastInDim S2x4096x2048 ![0, 1, 2] bcast_S2x4096x1_S2x4096x2048_0_1_2 : (⟨S2x4096x1, .f32⟩ : BufTy).Contents (Elt F) → (⟨S2x4096x2048, .f32⟩ : BufTy).Contents (Elt F)),
    binary main_v9 main_v10 main_v11 (Host.divf : (⟨S2x4096x2048, .f32⟩ : BufTy).Contents (Elt F) → (⟨S2x4096x2048, .f32⟩ : BufTy).Contents (Elt F) → (⟨S2x4096x2048, .f32⟩ : BufTy).Contents (Elt F)),
    binary main_v11 main_arg0 main_v12 (subf : (⟨S2x4096x2048, .f32⟩ : BufTy).Contents (Elt F) → (⟨S2x4096x2048, .f32⟩ : BufTy).Contents (Elt F) → (⟨S2x4096x2048, .f32⟩ : BufTy).Contents (Elt F)),
    binary main_arg0 main_v12 main_v13 (addf : (⟨S2x4096x2048, .f32⟩ : BufTy).Contents (Elt F) → (⟨S2x4096x2048, .f32⟩ : BufTy).Contents (Elt F) → (⟨S2x4096x2048, .f32⟩ : BufTy).Contents (Elt F)) ]

/-- Stretch 2: the first weight quantization. -/
abbrev c2 : List (HloOp τ sig (Elt F)) :=
  [ unary main_arg1 main_v14 (Host.absf : (⟨S16384x2048, .f32⟩ : BufTy).Contents (Elt F) → (⟨S16384x2048, .f32⟩ : BufTy).Contents (Elt F)),
    nullary main_cst_4 (constant S_ .f32 0x00000000#32),
    binary main_v14 main_cst_4 main_v15 ((fun x v => Host.reduceAdd x v reducesTo_S16384x2048_S_d0_1 h_S_) : (⟨S16384x2048, .f32⟩ : BufTy).Contents (Elt F) → (⟨S_, .f32⟩ : BufTy).Contents (Elt F) → (⟨S_, .f32⟩ : BufTy).Contents (Elt F)),
    nullary main_cst_5 (constant S_ .f32 0x4C000000#32),
    binary main_v15 main_cst_5 main_v16 (Host.divf : (⟨S_, .f32⟩ : BufTy).Contents (Elt F) → (⟨S_, .f32⟩ : BufTy).Contents (Elt F) → (⟨S_, .f32⟩ : BufTy).Contents (Elt F)),
    nullary main_cst_6 (constant S_ .f32 0x3727C5AC#32),
    unary main_cst_6 main_call3_v0 (id : (⟨S_, .f32⟩ : BufTy).Contents (Elt F) → (⟨S_, .f32⟩ : BufTy).Contents (Elt F)),
    binary main_call3_v0 main_v16 main_v17 (maximumf : (⟨S_, .f32⟩ : BufTy).Contents (Elt F) → (⟨S_, .f32⟩ : BufTy).Contents (Elt F) → (⟨S_, .f32⟩ : BufTy).Contents (Elt F)),
    unary main_v17 main_v18 (broadcastInDim S16384x2048 ![] bcast_S_S16384x2048 : (⟨S_, .f32⟩ : BufTy).Contents (Elt F) → (⟨S16384x2048, .f32⟩ : BufTy).Contents (Elt F)),
    binary main_arg1 main_v18 main_v19 (Host.divf : (⟨S16384x2048, .f32⟩ : BufTy).Contents (Elt F) → (⟨S16384x2048, .f32⟩ : BufTy).Contents (Elt F) → (⟨S16384x2048, .f32⟩ : BufTy).Contents (Elt F)),
    unary main_v19 main_v20 (Host.roundeven : (⟨S16384x2048, .f32⟩ : BufTy).Contents (Elt F) → (⟨S16384x2048, .f32⟩ : BufTy).Contents (Elt F)),
    nullary main_cst_7 (constant S_ .f32 0xBF800000#32),
    nullary main_cst_8 (constant S_ .f32 0x3F800000#32),
    unary main_cst_7 main_call5_v0 (id : (⟨S_, .f32⟩ : BufTy).Contents (Elt F) → (⟨S_, .f32⟩ : BufTy).Contents (Elt F)),
    unary main_call5_v0 main_call5_v1 ((broadcastInDim S16384x2048 ![] bcast_S_S16384x2048) : (⟨S_, .f32⟩ : BufTy).Contents (Elt F) → (⟨S16384x2048, .f32⟩ : BufTy).Contents (Elt F)),
    binary main_call5_v1 main_v20 main_call5_v2 (maximumf : (⟨S16384x2048, .f32⟩ : BufTy).Contents (Elt F) → (⟨S16384x2048, .f32⟩ : BufTy).Contents (Elt F) → (⟨S16384x2048, .f32⟩ : BufTy).Contents (Elt F)),
    unary main_cst_8 main_call5_v3 (id : (⟨S_, .f32⟩ : BufTy).Contents (Elt F) → (⟨S_, .f32⟩ : BufTy).Contents (Elt F)),
    unary main_call5_v3 main_call5_v4 ((broadcastInDim S16384x2048 ![] bcast_S_S16384x2048) : (⟨S_, .f32⟩ : BufTy).Contents (Elt F) → (⟨S16384x2048, .f32⟩ : BufTy).Contents (Elt F)),
    binary main_call5_v4 main_call5_v2 main_v21 (minimumf : (⟨S16384x2048, .f32⟩ : BufTy).Contents (Elt F) → (⟨S16384x2048, .f32⟩ : BufTy).Contents (Elt F) → (⟨S16384x2048, .f32⟩ : BufTy).Contents (Elt F)),
    unary main_v17 main_v22 (broadcastInDim S16384x2048 ![] bcast_S_S16384x2048 : (⟨S_, .f32⟩ : BufTy).Contents (Elt F) → (⟨S16384x2048, .f32⟩ : BufTy).Contents (Elt F)),
    binary main_v21 main_v22 main_v23 (mulf : (⟨S16384x2048, .f32⟩ : BufTy).Contents (Elt F) → (⟨S16384x2048, .f32⟩ : BufTy).Contents (Elt F) → (⟨S16384x2048, .f32⟩ : BufTy).Contents (Elt F)),
    binary main_v23 main_arg1 main_v24 (subf : (⟨S16384x2048, .f32⟩ : BufTy).Contents (Elt F) → (⟨S16384x2048, .f32⟩ : BufTy).Contents (Elt F) → (⟨S16384x2048, .f32⟩ : BufTy).Contents (Elt F)),
    binary main_arg1 main_v24 main_v25 (addf : (⟨S16384x2048, .f32⟩ : BufTy).Contents (Elt F) → (⟨S16384x2048, .f32⟩ : BufTy).Contents (Elt F) → (⟨S16384x2048, .f32⟩ : BufTy).Contents (Elt F)) ]

/-- Stretch 3: the first product, its two halves, the gating. -/
abbrev c3 : List (HloOp τ sig (Elt F)) :=
  [ binary main_v13 main_v25 main_v26 ((fun l r => Host.dotGeneral dot_S2x4096x2048_S16384x2048_S2x4096x16384_2_1_01_0_n_n none l r) : (⟨S2x4096x2048, .f32⟩ : BufTy).Contents (Elt F) → (⟨S16384x2048, .f32⟩ : BufTy).Contents (Elt F) → (⟨S2x4096x16384, .f32⟩ : BufTy).Contents (Elt F)),
    unary main_v26 main_v27 ((extractStridedSlice S2x4096x8192 ![0, 0, 0] · slices_S2x4096x16384_S2x4096x8192_0_0_0) : (⟨S2x4096x16384, .f32⟩ : BufTy).Contents (Elt F) → (⟨S2x4096x8192, .f32⟩ : BufTy).Contents (Elt F)),
    unary main_v26 main_v28 ((extractStridedSlice S2x4096x8192 ![0, 0, 8192] · slices_S2x4096x16384_S2x4096x8192_0_0_8192) : (⟨S2x4096x16384, .f32⟩ : BufTy).Contents (Elt F) → (⟨S2x4096x8192, .f32⟩ : BufTy).Contents (Elt F)),
    unary main_v27 main_call6_v0 (Host.negf : (⟨S2x4096x8192, .f32⟩ : BufTy).Contents (Elt F) → (⟨S2x4096x8192, .f32⟩ : BufTy).Contents (Elt F)),
    unary main_call6_v0 main_call6_v1 (Host.exp : (⟨S2x4096x8192, .f32⟩ : BufTy).Contents (Elt F) → (⟨S2x4096x8192, .f32⟩ : BufTy).Contents (Elt F)),
    nullary main_call6_cst ((constant S_ .f32 0x3F800000#32) : (⟨S_, .f32⟩ : BufTy).Contents (Elt F)),
    unary main_call6_cst main_call6_v2 ((broadcastInDim S2x4096x8192 ![] bcast_S_S2x4096x8192) : (⟨S_, .f32⟩ : BufTy).Contents (Elt F) → (⟨S2x4096x8192, .f32⟩ : BufTy).Contents (Elt F)),
    binary main_call6_v2 main_call6_v1 main_call6_v3 (addf : (⟨S2x4096x8192, .f32⟩ : BufTy).Contents (Elt F) → (⟨S2x4096x8192, .f32⟩ : BufTy).Contents (Elt F) → (⟨S2x4096x8192, .f32⟩ : BufTy).Contents (Elt F)),
    nullary main_call6_cst_0 ((constant S_ .f32 0x3F800000#32) : (⟨S_, .f32⟩ : BufTy).Contents (Elt F)),
    unary main_call6_cst_0 main_call6_v4 ((broadcastInDim S2x4096x8192 ![] bcast_S_S2x4096x8192) : (⟨S_, .f32⟩ : BufTy).Contents (Elt F) → (⟨S2x4096x8192, .f32⟩ : BufTy).Contents (Elt F)),
    binary main_call6_v4 main_call6_v3 main_call6_v5 (Host.divf : (⟨S2x4096x8192, .f32⟩ : BufTy).Contents (Elt F) → (⟨S2x4096x8192, .f32⟩ : BufTy).Contents (Elt F) → (⟨S2x4096x8192, .f32⟩ : BufTy).Contents (Elt F)),
    binary main_v27 main_call6_v5 main_v29 (mulf : (⟨S2x4096x8192, .f32⟩ : BufTy).Contents (Elt F) → (⟨S2x4096x8192, .f32⟩ : BufTy).Contents (Elt F) → (⟨S2x4096x8192, .f32⟩ : BufTy).Contents (Elt F)),
    binary main_v29 main_v28 main_v30 (mulf : (⟨S2x4096x8192, .f32⟩ : BufTy).Contents (Elt F) → (⟨S2x4096x8192, .f32⟩ : BufTy).Contents (Elt F) → (⟨S2x4096x8192, .f32⟩ : BufTy).Contents (Elt F)) ]

/-- Stretch 4: the second activation quantization. -/
abbrev c4 : List (HloOp τ sig (Elt F)) :=
  [ unary main_v30 main_v31 (Host.absf : (⟨S2x4096x8192, .f32⟩ : BufTy).Contents (Elt F) → (⟨S2x4096x8192, .f32⟩ : BufTy).Contents (Elt F)),
    nullary main_cst_9 (constant S_ .f32 0xFF800000#32),
    binary main_v31 main_cst_9 main_v32 ((fun x v => Host.reduce FloatOps.maximumf x v reducesTo_S2x4096x8192_S2x4096_d2 h_S_) : (⟨S2x4096x8192, .f32⟩ : BufTy).Contents (Elt F) → (⟨S_, .f32⟩ : BufTy).Contents (Elt F) → (⟨S2x4096, .f32⟩ : BufTy).Contents (Elt F)),
    unary main_v32 main_v33 (broadcastInDim S2x4096x1 ![0, 1] bcast_S2x4096_S2x4096x1_0_1 : (⟨S2x4096, .f32⟩ : BufTy).Contents (Elt F) → (⟨S2x4096x1, .f32⟩ : BufTy).Contents (Elt F)),
    nullary main_cst_10 (constant S_ .f32 0x3727C5AC#32),
    unary main_cst_10 main_call7_v0 (id : (⟨S_, .f32⟩ : BufTy).Contents (Elt F) → (⟨S_, .f32⟩ : BufTy).Contents (Elt F)),
    unary main_call7_v0 main_call7_v1 ((broadcastInDim S2x4096x1 ![] bcast_S_S2x4096x1) : (⟨S_, .f32⟩ : BufTy).Contents (Elt F) → (⟨S2x4096x1, .f32⟩ : BufTy).Contents (Elt F)),
    binary main_call7_v1 main_v33 main_v34 (maximumf : (⟨S2x4096x1, .f32⟩ : BufTy).Contents (Elt F) → (⟨S2x4096x1, .f32⟩ : BufTy).Contents (Elt F) → (⟨S2x4096x1, .f32⟩ : BufTy).Contents (Elt F)),
    nullary main_cst_11 (constant S_ .f32 0x42FE0000#32),
    unary main_cst_11 main_v35 (broadcastInDim S2x4096x1 ![] bcast_S_S2x4096x1 : (⟨S_, .f32⟩ : BufTy).Contents (Elt F) → (⟨S2x4096x1, .f32⟩ : BufTy).Contents (Elt F)),
    binary main_v35 main_v34 main_v36 (Host.divf : (⟨S2x4096x1, .f32⟩ : BufTy).Contents (Elt F) → (⟨S2x4096x1, .f32⟩ : BufTy).Contents (Elt F) → (⟨S2x4096x1, .f32⟩ : BufTy).Contents (Elt F)),
    unary main_v36 main_v37 (broadcastInDim S2x4096x8192 ![0, 1, 2] bcast_S2x4096x1_S2x4096x8192_0_1_2 : (⟨S2x4096x1, .f32⟩ : BufTy).Contents (Elt F) → (⟨S2x4096x8192, .f32⟩ : BufTy).Contents (Elt F)),
    binary main_v30 main_v37 main_v38 (mulf : (⟨S2x4096x8192, .f32⟩ : BufTy).Contents (Elt F) → (⟨S2x4096x8192, .f32⟩ : BufTy).Contents (Elt F) → (⟨S2x4096x8192, .f32⟩ : BufTy).Contents (Elt F)),
    unary main_v38 main_v39 (Host.roundeven : (⟨S2x4096x8192, .f32⟩ : BufTy).Contents (Elt F) → (⟨S2x4096x8192, .f32⟩ : BufTy).Contents (Elt F)),
    nullary main_cst_12 (constant S_ .f32 0xC3000000#32),
    nullary main_cst_13 (constant S_ .f32 0x42FE0000#32),
    unary main_cst_12 main_call9_v0 (id : (⟨S_, .f32⟩ : BufTy).Contents (Elt F) → (⟨S_, .f32⟩ : BufTy).Contents (Elt F)),
    unary main_call9_v0 main_call9_v1 ((broadcastInDim S2x4096x8192 ![] bcast_S_S2x4096x8192) : (⟨S_, .f32⟩ : BufTy).Contents (Elt F) → (⟨S2x4096x8192, .f32⟩ : BufTy).Contents (Elt F)),
    binary main_call9_v1 main_v39 main_call9_v2 (maximumf : (⟨S2x4096x8192, .f32⟩ : BufTy).Contents (Elt F) → (⟨S2x4096x8192, .f32⟩ : BufTy).Contents (Elt F) → (⟨S2x4096x8192, .f32⟩ : BufTy).Contents (Elt F)),
    unary main_cst_13 main_call9_v3 (id : (⟨S_, .f32⟩ : BufTy).Contents (Elt F) → (⟨S_, .f32⟩ : BufTy).Contents (Elt F)),
    unary main_call9_v3 main_call9_v4 ((broadcastInDim S2x4096x8192 ![] bcast_S_S2x4096x8192) : (⟨S_, .f32⟩ : BufTy).Contents (Elt F) → (⟨S2x4096x8192, .f32⟩ : BufTy).Contents (Elt F)),
    binary main_call9_v4 main_call9_v2 main_v40 (minimumf : (⟨S2x4096x8192, .f32⟩ : BufTy).Contents (Elt F) → (⟨S2x4096x8192, .f32⟩ : BufTy).Contents (Elt F) → (⟨S2x4096x8192, .f32⟩ : BufTy).Contents (Elt F)),
    unary main_v36 main_v41 (broadcastInDim S2x4096x8192 ![0, 1, 2] bcast_S2x4096x1_S2x4096x8192_0_1_2 : (⟨S2x4096x1, .f32⟩ : BufTy).Contents (Elt F) → (⟨S2x4096x8192, .f32⟩ : BufTy).Contents (Elt F)),
    binary main_v40 main_v41 main_v42 (Host.divf : (⟨S2x4096x8192, .f32⟩ : BufTy).Contents (Elt F) → (⟨S2x4096x8192, .f32⟩ : BufTy).Contents (Elt F) → (⟨S2x4096x8192, .f32⟩ : BufTy).Contents (Elt F)),
    binary main_v42 main_v30 main_v43 (subf : (⟨S2x4096x8192, .f32⟩ : BufTy).Contents (Elt F) → (⟨S2x4096x8192, .f32⟩ : BufTy).Contents (Elt F) → (⟨S2x4096x8192, .f32⟩ : BufTy).Contents (Elt F)),
    binary main_v30 main_v43 main_v44 (addf : (⟨S2x4096x8192, .f32⟩ : BufTy).Contents (Elt F) → (⟨S2x4096x8192, .f32⟩ : BufTy).Contents (Elt F) → (⟨S2x4096x8192, .f32⟩ : BufTy).Contents (Elt F)) ]

/-- Stretch 5: the second weight quantization. -/
abbrev c5 : List (HloOp τ sig (Elt F)) :=
  [ unary main_arg2 main_v45 (Host.absf : (⟨S2048x8192, .f32⟩ : BufTy).Contents (Elt F) → (⟨S2048x8192, .f32⟩ : BufTy).Contents (Elt F)),
    nullary main_cst_14 (constant S_ .f32 0x00000000#32),
    binary main_v45 main_cst_14 main_v46 ((fun x v => Host.reduceAdd x v reducesTo_S2048x8192_S_d0_1 h_S_) : (⟨S2048x8192, .f32⟩ : BufTy).Contents (Elt F) → (⟨S_, .f32⟩ : BufTy).Contents (Elt F) → (⟨S_, .f32⟩ : BufTy).Contents (Elt F)),
    nullary main_cst_15 (constant S_ .f32 0x4B800000#32),
    binary main_v46 main_cst_15 main_v47 (Host.divf : (⟨S_, .f32⟩ : BufTy).Contents (Elt F) → (⟨S_, .f32⟩ : BufTy).Contents (Elt F) → (⟨S_, .f32⟩ : BufTy).Contents (Elt F)),
    nullary main_cst_16 (constant S_ .f32 0x3727C5AC#32),
    unary main_cst_16 main_call10_v0 (id : (⟨S_, .f32⟩ : BufTy).Contents (Elt F) → (⟨S_, .f32⟩ : BufTy).Contents (Elt F)),
    binary main_call10_v0 main_v47 main_v48 (maximumf : (⟨S_, .f32⟩ : BufTy).Contents (Elt F) → (⟨S_, .f32⟩ : BufTy).Contents (Elt F) → (⟨S_, .f32⟩ : BufTy).Contents (Elt F)),
    unary main_v48 main_v49 (broadcastInDim S2048x8192 ![] bcast_S_S2048x8192 : (⟨S_, .f32⟩ : BufTy).Contents (Elt F) → (⟨S2048x8192, .f32⟩ : BufTy).Contents (Elt F)),
    binary main_arg2 main_v49 main_v50 (Host.divf : (⟨S2048x8192, .f32⟩ : BufTy).Contents (Elt F) → (⟨S2048x8192, .f32⟩ : BufTy).Contents (Elt F) → (⟨S2048x8192, .f32⟩ : BufTy).Contents (Elt F)),
    unary main_v50 main_v51 (Host.roundeven : (⟨S2048x8192, .f32⟩ : BufTy).Contents (Elt F) → (⟨S2048x8192, .f32⟩ : BufTy).Contents (Elt F)),
    nullary main_cst_17 (constant S_ .f32 0xBF800000#32),
    nullary main_cst_18 (constant S_ .f32 0x3F800000#32),
    unary main_cst_17 main_call12_v0 (id : (⟨S_, .f32⟩ : BufTy).Contents (Elt F) → (⟨S_, .f32⟩ : BufTy).Contents (Elt F)),
    unary main_call12_v0 main_call12_v1 ((broadcastInDim S2048x8192 ![] bcast_S_S2048x8192) : (⟨S_, .f32⟩ : BufTy).Contents (Elt F) → (⟨S2048x8192, .f32⟩ : BufTy).Contents (Elt F)),
    binary main_call12_v1 main_v51 main_call12_v2 (maximumf : (⟨S2048x8192, .f32⟩ : BufTy).Contents (Elt F) → (⟨S2048x8192, .f32⟩ : BufTy).Contents (Elt F) → (⟨S2048x8192, .f32⟩ : BufTy).Contents (Elt F)),
    unary main_cst_18 main_call12_v3 (id : (⟨S_, .f32⟩ : BufTy).Contents (Elt F) → (⟨S_, .f32⟩ : BufTy).Contents (Elt F)),
    unary main_call12_v3 main_call12_v4 ((broadcastInDim S2048x8192 ![] bcast_S_S2048x8192) : (⟨S_, .f32⟩ : BufTy).Contents (Elt F) → (⟨S2048x8192, .f32⟩ : BufTy).Contents (Elt F)),
    binary main_call12_v4 main_call12_v2 main_v52 (minimumf : (⟨S2048x8192, .f32⟩ : BufTy).Contents (Elt F) → (⟨S2048x8192, .f32⟩ : BufTy).Contents (Elt F) → (⟨S2048x8192, .f32⟩ : BufTy).Contents (Elt F)),
    unary main_v48 main_v53 (broadcastInDim S2048x8192 ![] bcast_S_S2048x8192 : (⟨S_, .f32⟩ : BufTy).Contents (Elt F) → (⟨S2048x8192, .f32⟩ : BufTy).Contents (Elt F)),
    binary main_v52 main_v53 main_v54 (mulf : (⟨S2048x8192, .f32⟩ : BufTy).Contents (Elt F) → (⟨S2048x8192, .f32⟩ : BufTy).Contents (Elt F) → (⟨S2048x8192, .f32⟩ : BufTy).Contents (Elt F)),
    binary main_v54 main_arg2 main_v55 (subf : (⟨S2048x8192, .f32⟩ : BufTy).Contents (Elt F) → (⟨S2048x8192, .f32⟩ : BufTy).Contents (Elt F) → (⟨S2048x8192, .f32⟩ : BufTy).Contents (Elt F)),
    binary main_arg2 main_v55 main_v56 (addf : (⟨S2048x8192, .f32⟩ : BufTy).Contents (Elt F) → (⟨S2048x8192, .f32⟩ : BufTy).Contents (Elt F) → (⟨S2048x8192, .f32⟩ : BufTy).Contents (Elt F)) ]

/-- Stretch 6: the last product. -/
abbrev c6 : List (HloOp τ sig (Elt F)) :=
  [ binary main_v44 main_v56 main_v57 ((fun l r => Host.dotGeneral dot_S2x4096x8192_S2048x8192_S2x4096x2048_2_1_01_0_n_n none l r) : (⟨S2x4096x8192, .f32⟩ : BufTy).Contents (Elt F) → (⟨S2048x8192, .f32⟩ : BufTy).Contents (Elt F) → (⟨S2x4096x2048, .f32⟩ : BufTy).Contents (Elt F)) ]

/-! ## What each stretch leaves alone -/

theorem keep1_arg0 (X : Valuation τ sig (Elt F)) :
    after (c1 (F := F)) X (Proc.devRef .tc main_arg0) = X (Proc.devRef .tc main_arg0) := by
  after_results_simp

theorem keep1_arg1 (X : Valuation τ sig (Elt F)) :
    after (c1 (F := F)) X (Proc.devRef .tc main_arg1) = X (Proc.devRef .tc main_arg1) := by
  after_results_simp

theorem keep1_arg2 (X : Valuation τ sig (Elt F)) :
    after (c1 (F := F)) X (Proc.devRef .tc main_arg2) = X (Proc.devRef .tc main_arg2) := by
  after_results_simp

theorem keep2_arg0 (X : Valuation τ sig (Elt F)) :
    after (c2 (F := F)) X (Proc.devRef .tc main_arg0) = X (Proc.devRef .tc main_arg0) := by
  after_results_simp

theorem keep2_arg1 (X : Valuation τ sig (Elt F)) :
    after (c2 (F := F)) X (Proc.devRef .tc main_arg1) = X (Proc.devRef .tc main_arg1) := by
  after_results_simp

theorem keep2_arg2 (X : Valuation τ sig (Elt F)) :
    after (c2 (F := F)) X (Proc.devRef .tc main_arg2) = X (Proc.devRef .tc main_arg2) := by
  after_results_simp

theorem keep2_v13 (X : Valuation τ sig (Elt F)) :
    after (c2 (F := F)) X (Proc.devRef .tc main_v13) = X (Proc.devRef .tc main_v13) := by
  after_results_simp

theorem keep3_arg0 (X : Valuation τ sig (Elt F)) :
    after (c3 (F := F)) X (Proc.devRef .tc main_arg0) = X (Proc.devRef .tc main_arg0) := by
  after_results_simp

theorem keep3_arg1 (X : Valuation τ sig (Elt F)) :
    after (c3 (F := F)) X (Proc.devRef .tc main_arg1) = X (Proc.devRef .tc main_arg1) := by
  after_results_simp

theorem keep3_arg2 (X : Valuation τ sig (Elt F)) :
    after (c3 (F := F)) X (Proc.devRef .tc main_arg2) = X (Proc.devRef .tc main_arg2) := by
  after_results_simp

theorem keep4_arg0 (X : Valuation τ sig (Elt F)) :
    after (c4 (F := F)) X (Proc.devRef .tc main_arg0) = X (Proc.devRef .tc main_arg0) := by
  after_results_simp

theorem keep4_arg1 (X : Valuation τ sig (Elt F)) :
    after (c4 (F := F)) X (Proc.devRef .tc main_arg1) = X (Proc.devRef .tc main_arg1) := by
  after_results_simp

theorem keep4_arg2 (X : Valuation τ sig (Elt F)) :
    after (c4 (F := F)) X (Proc.devRef .tc main_arg2) = X (Proc.devRef .tc main_arg2) := by
  after_results_simp

theorem keep5_arg0 (X : Valuation τ sig (Elt F)) :
    after (c5 (F := F)) X (Proc.devRef .tc main_arg0) = X (Proc.devRef .tc main_arg0) := by
  after_results_simp

theorem keep5_arg1 (X : Valuation τ sig (Elt F)) :
    after (c5 (F := F)) X (Proc.devRef .tc main_arg1) = X (Proc.devRef .tc main_arg1) := by
  after_results_simp

theorem keep5_arg2 (X : Valuation τ sig (Elt F)) :
    after (c5 (F := F)) X (Proc.devRef .tc main_arg2) = X (Proc.devRef .tc main_arg2) := by
  after_results_simp

theorem keep5_v44 (X : Valuation τ sig (Elt F)) :
    after (c5 (F := F)) X (Proc.devRef .tc main_v44) = X (Proc.devRef .tc main_v44) := by
  after_results_simp

theorem keep6_arg0 (X : Valuation τ sig (Elt F)) :
    after (c6 (F := F)) X (Proc.devRef .tc main_arg0) = X (Proc.devRef .tc main_arg0) := by
  after_results_simp

theorem keep6_arg1 (X : Valuation τ sig (Elt F)) :
    after (c6 (F := F)) X (Proc.devRef .tc main_arg1) = X (Proc.devRef .tc main_arg1) := by
  after_results_simp

theorem keep6_arg2 (X : Valuation τ sig (Elt F)) :
    after (c6 (F := F)) X (Proc.devRef .tc main_arg2) = X (Proc.devRef .tc main_arg2) := by
  after_results_simp

/-! ## What each stretch writes, from any contents at its start -/

/-- Stretch 1 leaves the first quantized activations, a function of the first argument alone. -/
theorem chunk1 (X : Valuation τ sig (Elt F)) :
    after (c1 (F := F)) X (Proc.devRef .tc main_v13) = val_main_v13 (F := F) (X (Proc.devRef .tc main_arg0)) := by
  after_results_simp
  rfl

/-- Stretch 2 leaves the first quantized weights, a function of the second argument alone. -/
theorem chunk2 (X : Valuation τ sig (Elt F)) :
    after (c2 (F := F)) X (Proc.devRef .tc main_v25) = val_main_v25 (F := F) (X (Proc.devRef .tc main_arg1)) := by
  after_results_simp
  rfl

/-- Stretch 3 leaves the gated product of what the first two stretches left. -/
theorem chunk3 (X : Valuation τ sig (Elt F)) (x0 : (⟨S2x4096x2048, .f32⟩ : BufTy).Contents (Elt F))
    (x1 : (⟨S16384x2048, .f32⟩ : BufTy).Contents (Elt F))
    (h13 : X (Proc.devRef .tc main_v13) = val_main_v13 (F := F) x0) (h25 : X (Proc.devRef .tc main_v25) = val_main_v25 (F := F) x1) :
    after (c3 (F := F)) X (Proc.devRef .tc main_v30) = val_main_v30 (F := F) x0 x1 := by
  after_results_simp
  rw [h13, h25]
  rfl

/-- Stretch 4 leaves the second quantized activations, from the gated product. -/
theorem chunk4 (X : Valuation τ sig (Elt F)) (x0 : (⟨S2x4096x2048, .f32⟩ : BufTy).Contents (Elt F))
    (x1 : (⟨S16384x2048, .f32⟩ : BufTy).Contents (Elt F))
    (h30 : X (Proc.devRef .tc main_v30) = val_main_v30 (F := F) x0 x1) :
    after (c4 (F := F)) X (Proc.devRef .tc main_v44) = val_main_v44 (F := F) x0 x1 := by
  after_results_simp
  rw [h30]
  rfl

/-- Stretch 5 leaves the second quantized weights, a function of the third argument alone. -/
theorem chunk5 (X : Valuation τ sig (Elt F)) :
    after (c5 (F := F)) X (Proc.devRef .tc main_v56) = val_main_v56 (F := F) (X (Proc.devRef .tc main_arg2)) := by
  after_results_simp
  rfl

/-- Stretch 6 leaves the last product of what stretches 4 and 5 left. -/
theorem chunk6 (X : Valuation τ sig (Elt F)) (x0 : (⟨S2x4096x2048, .f32⟩ : BufTy).Contents (Elt F))
    (x1 : (⟨S16384x2048, .f32⟩ : BufTy).Contents (Elt F)) (x2 : (⟨S2048x8192, .f32⟩ : BufTy).Contents (Elt F))
    (h44 : X (Proc.devRef .tc main_v44) = val_main_v44 (F := F) x0 x1) (h56 : X (Proc.devRef .tc main_v56) = val_main_v56 (F := F) x2) :
    after (c6 (F := F)) X (Proc.devRef .tc main_v57) = val_main_v57 (F := F) x0 x1 x2 := by
  after_results_simp
  rw [h44, h56]
  rfl

/-! ## The whole line -/

/-- The program's line is the six stretches in order. -/
theorem ops_eq : (Cert.ReferenceIdeal.OpsP.ops (F := F)) = c1 ++ (c2 ++ (c3 ++ (c4 ++ (c5 ++ c6)))) := rfl

/-- Running the line is running the stretches one after the other. -/
theorem after_ops (V : Valuation τ sig (Elt F)) :
    after (Cert.ReferenceIdeal.OpsP.ops (F := F)) V = after c6 (after c5 (after c4 (after c3 (after c2 (after c1 V))))) := by
  rw [ops_eq, after_append, after_append, after_append, after_append, after_append]

/-- After the line the result buffer holds the last stage function of the three arguments' contents. -/
theorem result (V : Valuation τ sig (Elt F)) :
    after (Cert.ReferenceIdeal.OpsP.ops (F := F)) V (Proc.devRef .tc main_v57)
      = val_main_v57 (F := F) (V (Proc.devRef .tc main_arg0)) (V (Proc.devRef .tc main_arg1)) (V (Proc.devRef .tc main_arg2)) := by
  rw [after_ops]
  have h13 : after c2 (after c1 V) (Proc.devRef .tc main_v13) = val_main_v13 (F := F) (V (Proc.devRef .tc main_arg0)) :=
    (keep2_v13 _).trans (chunk1 V)
  have h25 : after c2 (after c1 V) (Proc.devRef .tc main_v25) = val_main_v25 (F := F) (V (Proc.devRef .tc main_arg1)) :=
    (chunk2 _).trans (congrArg (val_main_v25 (F := F)) (keep1_arg1 V))
  have h30 : after c3 (after c2 (after c1 V)) (Proc.devRef .tc main_v30)
      = val_main_v30 (F := F) (V (Proc.devRef .tc main_arg0)) (V (Proc.devRef .tc main_arg1)) := chunk3 _ _ _ h13 h25
  have h44 : after c5 (after c4 (after c3 (after c2 (after c1 V)))) (Proc.devRef .tc main_v44)
      = val_main_v44 (F := F) (V (Proc.devRef .tc main_arg0)) (V (Proc.devRef .tc main_arg1)) :=
    (keep5_v44 _).trans (chunk4 _ _ _ h30)
  have h2 : after c4 (after c3 (after c2 (after c1 V))) (Proc.devRef .tc main_arg2) = V (Proc.devRef .tc main_arg2) :=
    (keep4_arg2 _).trans ((keep3_arg2 _).trans ((keep2_arg2 _).trans (keep1_arg2 V)))
  have h56 : after c5 (after c4 (after c3 (after c2 (after c1 V)))) (Proc.devRef .tc main_v56)
      = val_main_v56 (F := F) (V (Proc.devRef .tc main_arg2)) :=
    (chunk5 _).trans (congrArg (val_main_v56 (F := F)) h2)
  exact chunk6 _ _ _ _ h44 h56

/-- No operation writes an argument. -/
theorem arg0_kept (V : Valuation τ sig (Elt F)) :
    after (Cert.ReferenceIdeal.OpsP.ops (F := F)) V (Proc.devRef .tc main_arg0) = V (Proc.devRef .tc main_arg0) := by
  rw [after_ops]
  exact (keep6_arg0 _).trans ((keep5_arg0 _).trans ((keep4_arg0 _).trans ((keep3_arg0 _).trans ((keep2_arg0 _).trans (keep1_arg0 V)))))
theorem arg1_kept (V : Valuation τ sig (Elt F)) :
    after (Cert.ReferenceIdeal.OpsP.ops (F := F)) V (Proc.devRef .tc main_arg1) = V (Proc.devRef .tc main_arg1) := by
  rw [after_ops]
  exact (keep6_arg1 _).trans ((keep5_arg1 _).trans ((keep4_arg1 _).trans ((keep3_arg1 _).trans ((keep2_arg1 _).trans (keep1_arg1 V)))))
theorem arg2_kept (V : Valuation τ sig (Elt F)) :
    after (Cert.ReferenceIdeal.OpsP.ops (F := F)) V (Proc.devRef .tc main_arg2) = V (Proc.devRef .tc main_arg2) := by
  rw [after_ops]
  exact (keep6_arg2 _).trans ((keep5_arg2 _).trans ((keep4_arg2 _).trans ((keep3_arg2 _).trans ((keep2_arg2 _).trans (keep1_arg2 V)))))

/-- On every device, for any float values, from any memory with zero counters: every weakly fair execution of the
    program terminates with the result buffer at the last stage function of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v57) = Cert.ReferenceIdeal.ReadP.val_main_v57 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v57).trans (result (launchContents m c)),
      (h c main_arg0).trans (arg0_kept (launchContents m c)),
      (h c main_arg1).trans (arg1_kept (launchContents m c)),
      (h c main_arg2).trans (arg2_kept (launchContents m c))⟩)
    (run_seq Cert.ReferenceIdeal.OpsP.scopedRefs_eq Cert.ReferenceIdeal.OpsP.scopedSems_eq defs main
      (fun _ => Cert.ReferenceIdeal.OpsP.ops) Cert.ReferenceIdeal.OpsP.main_eq (fun _ => Cert.ReferenceIdeal.OpsP.ops_sub) m ρ)

end Cert.ReferenceIdeal.RunH

end
-- ==== Proof.lean ====
/-
  The certificate of a quantized gated two-layer projection (ternary weights, 8-bit activations) computed by four
  pipelined kernels against its plain reference.

  THE KERNEL. Every activation row is quantized by its own scale (127 over the row's largest absolute value) and both weight
  matrices by one scale each (the mean absolute value), the integers kept apart from the scales. The first kernel
  quantizes the 8192 rows; the second multiplies integer rows by integer weight rows, scales each sum ONCE by
  (1 / row scale) · (weight scale), and gates: h = g · logistic(g) · u; the third takes each hidden row's scale; the fourth
  quantizes the hidden rows, accumulates the integer products over four blocks of 2048 columns from a zeroed block, and
  scales the sum once at the last block.
  THE REFERENCE quantizes and scales back entry by entry — q / s for an activation, wq · ws for a weight, each written around
  the unquantized entry as x + (q/s − x) — and contracts the scaled-back entries; its silu is g · (1 / (1 + exp(−g))).
  ON THE EXTENDED REALS the two agree when the inputs are finite: the quantized integers are clamped, hence real; a row's
  largest absolute value is real, so its scale is a positive real; then x + (q/s − x) = q/s, products commute and
  associate, and the common factor (1/s) · ws moves out of the sum of REAL terms (distributivity fails at infinities:
  this is where the precondition is used). The hidden row is real (exp of a real is a positive real), so the same holds
  for the second layer.

  The modules: Spec (both arrangements as functions of one row), Algebra (the two agree on real entries), Finite (the
  precondition gives real entries), Region0 … Region3 (each kernel's output array as a whole-array function of its input
  arrays), HostSide (the weight quantization and the reshapes around the kernels), KernelValue (the four stages chained:
  the program's result is the factored arrangement), KernelRun (the program's run with its result named), RefRunH and
  RefValue (the reference's run, and its result read at an index: the entrywise arrangement).
-/
import proofs.«128026_j52905407152482_2_alg».proof.Defs
import proofs.«128026_j52905407152482_2_alg».proof.Proof.Gen.Kernel
import proofs.«128026_j52905407152482_2_alg».proof.Proof.Gen.Kernel.Skeleton
import proofs.«128026_j52905407152482_2_alg».proof.Proof.Gen.Kernel.Launch
import proofs.«128026_j52905407152482_2_alg».proof.Proof.Gen.Kernel.Points
import proofs.«128026_j52905407152482_2_alg».proof.Proof.Gen.Kernel.Frame
import proofs.«128026_j52905407152482_2_alg».proof.Proof.Gen.KernelIdeal
import proofs.«128026_j52905407152482_2_alg».proof.Proof.Gen.KernelIdeal.Skeleton
import proofs.«128026_j52905407152482_2_alg».proof.Proof.Gen.KernelIdeal.Launch
import proofs.«128026_j52905407152482_2_alg».proof.Proof.Gen.KernelIdeal.Points
import proofs.«128026_j52905407152482_2_alg».proof.Proof.Gen.KernelIdeal.Frame
import proofs.«128026_j52905407152482_2_alg».proof.Proof.Gen.ReferenceIdeal
import proofs.«128026_j52905407152482_2_alg».proof.Proof.Gen.Pre_finite_inputs
import proofs.«128026_j52905407152482_2_alg».proof.Proof.KernelRun
import proofs.«128026_j52905407152482_2_alg».proof.Proof.RefValue
import proofs.«128026_j52905407152482_2_alg».proof.Proof.Algebra
import proofs.«128026_j52905407152482_2_alg».proof.Proof.Finite
import proofs.«128026_j52905407152482_2_alg».proof.Proof.KernelValue
import proofs.«128026_j52905407152482_2_alg».proof.Proof.RefRunH
import Idealize.ShloMosaic.Adequacy
import Idealize.ShloMosaic.Init

set_option maxRecDepth 16384

noncomputable section

namespace Cert.Proof

open Idealize.ShloMosaic Idealize.ShloMosaic.ValueIdx Idealize.SL.Sem

/-- The three frames: the two kernel programs' are the segment-by-segment frame; the reference's is its run with the result
    dropped. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RunH.run (F := Ideal) m ρ)

/-- The idealization rewrote nothing. -/
theorem preserves : Cert.preserves_Kernel_KernelIdeal := trivial

/-- From memories agreeing on finite arguments both programs end with the factored arrangement of the arguments: the kernel
    by its four stages, the reference because its entrywise arrangement equals the factored one on real entries. -/
theorem algebraic : Cert.algebraic_KernelIdeal_ReferenceIdeal := by
  intro m ρ m' ρ' hpre hagree
  refine ⟨fun c => fun i => Cert.BitMlp.facOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (i 0) (i 1) (i 2), ?_, ?_⟩
  · refine (θ_run Cert.KernelIdeal.defs _ _).mono (fun r h c => ⟨(h c).1.trans ?_, (h c).2⟩)
      (Cert.KernelIdeal.RunValue.run_result (F := Ideal) m ρ)
    funext i
    obtain ⟨b, t, j, rfl⟩ : ∃ (b : Fin 2) (t : Fin 4096) (j : Fin 2048), i = ix3 b t j := ⟨i 0, i 1, i 2, eq_ix3 i⟩
    exact Cert.KernelIdeal.Chain.kernel_value m ρ c b t j
  · refine (θ_run Cert.ReferenceIdeal.defs _ _).mono (fun r h c => ⟨(h c).1.trans ?_, (h c).2⟩)
      (Cert.ReferenceIdeal.RunH.run (F := Ideal) m' ρ')
    obtain ⟨r0, r1, r2⟩ := Cert.BitMlp.Finite.real_args _ _ _ (hpre c)
    rw [(hagree c).1, (hagree c).2.1, (hagree c).2.2]
    funext i
    obtain ⟨b, t, j, rfl⟩ : ∃ (b : Fin 2) (t : Fin 4096) (j : Fin 2048), i = ix3 b t j := ⟨i 0, i 1, i 2, eq_ix3 i⟩
    exact (Cert.BitMlp.RefSide.ref_value _ _ _ b t j).trans (Cert.BitMlp.fac_eq_ent _ _ _ r0 r1 r2 b t j).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
